-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000x3 : Shape := ⟨2, ![100000, 3]⟩
abbrev S2x1600000 : Shape := ⟨2, ![2, 1600000]⟩
abbrev S128x128 : Shape := ⟨2, ![128, 128]⟩
abbrev S128 : Shape := ⟨1, ![128]⟩
abbrev S128x3 : Shape := ⟨2, ![128, 3]⟩
abbrev S3 : Shape := ⟨1, ![3]⟩
abbrev S131x128 : Shape := ⟨2, ![131, 128]⟩
abbrev S128x256 : Shape := ⟨2, ![128, 256]⟩
abbrev S256 : Shape := ⟨1, ![256]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x3 : S_.BroadcastsInDim S100000x3 (![] : Fin 0 → Fin S100000x3.rank)
  reducesTo_S100000x3_S_d0_1 : S100000x3.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_
  bcast_S_S131x128 : S_.BroadcastsInDim S131x128 (![] : Fin 0 → Fin S131x128.rank)
  reducesTo_S131x128_S_d0_1 : S131x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_

variable [Facts]

def fn_part4 {F : FTy → Type} [FloatOps F] (main_arg15 : FVec F S256 .f32) (main_v63 : IVec S_ 1) (main_v67 : IVec S_ 1) : IVec S_ 1 :=
  let main_v68 : IVec S_ 1 := andi main_v63 main_v67
  let main_v69 : FVec F S256 .f32 := Host.absf main_arg15
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  main_v73

def fn_part3 {F : FTy → Type} [FloatOps F] (main_arg12 : FVec F S128x128 .f32) (main_arg13 : FVec F S128 .f32) (main_arg14 : FVec F S128x256 .f32) (main_arg15 : FVec F S256 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x256 .f32 := Host.absf main_arg14
  let main_cst_24 : FVec F S_ .f32 := constant S_ .f32 0x7F800000#32
  let main_v65 : FVec F S128x256 .f32 := broadcastInDim S128x256 ![] bcast_S_S128x256 main_cst_24
  let main_v66 : IVec S128x256 1 := cmpf .olt main_v64 main_v65
  let main_c_25 : IVec S_ 1 := constantI S_ 1 1#1
  let main_v67 : IVec S_ 1 := (fun x v => Host.reduce IntOp.andi x v reducesTo_S128x256_S_d0_1 h_S_) main_v66 main_c_25
  fn_part4 (F := F) main_arg15 main_v63 main_v67

def fn_part2 {F : FTy → Type} [FloatOps F] (main_arg8 : FVec F S131x128 .f32) (main_arg9 : FVec F S128 .f32) (main_arg10 : FVec F S128x128 .f32) (main_arg11 : FVec F S128 .f32) (main_arg12 : FVec F S128x128 .f32) (main_arg13 : FVec F S128 .f32) (main_arg14 : FVec F S128x256 .f32) (main_arg15 : FVec F S256 .f32) (main_v33 : IVec S_ 1) : IVec S_ 1 :=
  let main_v34 : FVec F S131x128 .f32 := Host.absf main_arg8
  let main_cst_12 : FVec F S_ .f32 := constant S_ .f32 0x7F800000#32
  let main_v35 : FVec F S131x128 .f32 := broadcastInDim S131x128 ![] bcast_S_S131x128 main_cst_12
  let main_v36 : IVec S131x128 1 := cmpf .olt main_v34 main_v35
  let main_c_13 : IVec S_ 1 := constantI S_ 1 1#1
  let main_v37 : IVec S_ 1 := (fun x v => Host.reduce IntOp.andi x v reducesTo_S131x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_v48 main_v49 main_v50

def fn_part1 {F : FTy → Type} [FloatOps F] (main_arg5 : FVec F S128 .f32) (main_arg6 : FVec F S128x3 .f32) (main_arg7 : FVec F S3 .f32) (main_arg8 : FVec F S131x128 .f32) (main_arg9 : FVec F S128 .f32) (main_arg10 : FVec F S128x128 .f32) (main_arg11 : FVec F S128 .f32) (main_arg12 : FVec F S128x128 .f32) (main_arg13 : FVec F S128 .f32) (main_arg14 : FVec F S128x256 .f32) (main_arg15 : FVec F S256 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x3 .f32 := Host.absf main_arg6
  let main_cst_8 : FVec F S_ .f32 := constant S_ .f32 0x7F800000#32
  let main_v25 : FVec F S128x3 .f32 := broadcastInDim S128x3 ![] bcast_S_S128x3 main_cst_8
  let main_v26 : IVec S128x3 1 := cmpf .olt main_v24 main_v25
  let main_c_9 : IVec S_ 1 := constantI S_ 1 1#1
  let main_v27 : IVec S_ 1 := (fun x v => Host.reduce IntOp.andi x v reducesTo_S128x3_S_d0_1 h_S_) main_v26 main_c_9
  let main_v28 : IVec S_ 1 := andi main_v23 main_v27
  let main_v29 : FVec F S3 .f32 := Host.absf main_arg7
  let main_cst_10 : FVec F S_ .f32 := constant S_ .f32 0x7F800000#32
  let main_v30 : FVec F S3 .f32 := broadcastInDim S3 ![] bcast_S_S3 main_cst_10
  let main_v31 : IVec S3 1 := cmpf .olt main_v29 main_v30
  let main_c_11 : IVec S_ 1 := constantI S_ 1 1#1
  let main_v32 : IVec S_ 1 := (fun x v => Host.reduce IntOp.andi x v reducesTo_S3_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S100000x128 .f32) (main_arg1 : FVec F S100000x3 .f32) (main_arg2 : FVec F S100000x128 .f32) (main_arg3 : IVec S2x1600000 32) (main_arg4 : FVec F S128x128 .f32) (main_arg5 : FVec F S128 .f32) (main_arg6 : FVec F S128x3 .f32) (main_arg7 : FVec F S3 .f32) (main_arg8 : FVec F S131x128 .f32) (main_arg9 : FVec F S128 .f32) (main_arg10 : FVec F S128x128 .f32) (main_arg11 : FVec F S128 .f32) (main_arg12 : FVec F S128x128 .f32) (main_arg13 : FVec F S128 .f32) (main_arg14 : FVec F S128x256 .f32) (main_arg15 : FVec F S256 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x3 .f32 := Host.absf main_arg1
  let main_cst_0 : FVec F S_ .f32 := constant S_ .f32 0x7F800000#32
  let main_v5 : FVec F S100000x3 .f32 := broadcastInDim S100000x3 ![] bcast_S_S100000x3 main_cst_0
  let main_v6 : IVec S100000x3 1 := cmpf .olt main_v4 main_v5
  let main_c_1 : IVec S_ 1 := constantI S_ 1 1#1
  let main_v7 : IVec S_ 1 := (fun x v => Host.reduce IntOp.andi x v reducesTo_S100000x3_S_d0_1 h_S_) main_v6 main_c_1
  let main_v8 : IVec S_ 1 := andi main_v3 main_v7
  let main_v9 : FVec F S100000x128 .f32 := Host.absf main_arg2
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S100000x128 : Shape := ⟨2, ![100000, 128]⟩
abbrev S100000x3 : Shape := ⟨2, ![100000, 3]⟩
abbrev S2x1600000 : Shape := ⟨2, ![2, 1600000]⟩
abbrev S128x128 : Shape := ⟨2, ![128, 128]⟩
abbrev S128 : Shape := ⟨1, ![128]⟩
abbrev S128x3 : Shape := ⟨2, ![128, 3]⟩
abbrev S3 : Shape := ⟨1, ![3]⟩
abbrev S131x128 : Shape := ⟨2, ![131, 128]⟩
abbrev S128x256 : Shape := ⟨2, ![128, 256]⟩
abbrev S256 : Shape := ⟨1, ![256]⟩
abbrev S1x1600000 : Shape := ⟨2, ![1, 1600000]⟩
abbrev S1600000 : Shape := ⟨1, ![1600000]⟩
abbrev S5000x128 : Shape := ⟨2, ![5000, 128]⟩
abbrev S5000x3 : Shape := ⟨2, ![5000, 3]⟩
abbrev S1x128 : Shape := ⟨2, ![1, 128]⟩
abbrev S1x3 : Shape := ⟨2, ![1, 3]⟩
abbrev S_ : Shape := ⟨0, ![]⟩
abbrev S1600000x1 : Shape := ⟨2, ![1600000, 1]⟩
abbrev S1600000x3 : Shape := ⟨2, ![1600000, 3]⟩
abbrev S1600000x128 : Shape := ⟨2, ![1600000, 128]⟩
abbrev S1600000x131 : Shape := ⟨2, ![1600000, 131]⟩
abbrev S12800x131 : Shape := ⟨2, ![12800, 131]⟩
abbrev S12800x128 : Shape := ⟨2, ![12800, 128]⟩
abbrev S5000x256 : Shape := ⟨2, ![5000, 256]⟩
abbrev S1x256 : Shape := ⟨2, ![1, 256]⟩

abbrev nBuf : Space → Nat
  | .hbm => 98
  | .vmem => 34
  | .smem => 0
  | _ => 0

abbrev bufTy : (tb : Table) → Fin (tcTables nBuf tb) → BufTy
  | .hbm, ⟨0, _⟩ => ⟨S100000x128, .f32⟩
  | .hbm, ⟨1, _⟩ => ⟨S100000x3, .f32⟩
  | .hbm, ⟨2, _⟩ => ⟨S100000x128, .f32⟩
  | .hbm, ⟨3, _⟩ => ⟨S2x1600000, .i32⟩
  | .hbm, ⟨4, _⟩ => ⟨S128x128, .f32⟩
  | .hbm, ⟨5, _⟩ => ⟨S128, .f32⟩
  | .hbm, ⟨6, _⟩ => ⟨S128x3, .f32⟩
  | .hbm, ⟨7, _⟩ => ⟨S3, .f32⟩
  | .hbm, ⟨8, _⟩ => ⟨S131x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x256, .f32⟩
  | .hbm, ⟨15, _⟩ => ⟨S256, .f32⟩
  | .hbm, ⟨16, _⟩ => ⟨S1x1600000, .i32⟩
  | .hbm, ⟨17, _⟩ => ⟨S1600000, .i32⟩
  | .hbm, ⟨18, _⟩ => ⟨S1x1600000, .i32⟩
  | .hbm, ⟨19, _⟩ => ⟨S1600000, .i32⟩
  | .hbm, ⟨20, _⟩ => ⟨S100000x3, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x3, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x3, .f32⟩
  | .hbm, ⟨39, _⟩ => ⟨S1600000x3, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x3, .f32⟩
  | .hbm, ⟨49, _⟩ => ⟨S1600000x3, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x128, .f32⟩
  | .hbm, ⟨59, _⟩ => ⟨S1600000x131, .f32⟩
  | .hbm, ⟨60, _⟩ => ⟨S1600000x131, .bf16⟩
  | .hbm, ⟨61, _⟩ => ⟨S1600000x128, .f32⟩
  | .hbm, ⟨62, _⟩ => ⟨S_, .f32⟩
  | .hbm, ⟨63, _⟩ => ⟨S100000x128, .f32⟩
  | .hbm, ⟨64, _⟩ => ⟨S1600000x1, .i32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S128, .f32⟩
  | .hbm, ⟨69, _⟩ => ⟨S1x128, .f32⟩
  | .hbm, ⟨70, _⟩ => ⟨S_, .f32⟩
  | .hbm, ⟨71, _⟩ => ⟨S1x128, .f32⟩
  | .hbm, ⟨72, _⟩ => ⟨S1x128, .f32⟩
  | .hbm, ⟨73, _⟩ => ⟨S_, .i32⟩
  | .hbm, ⟨74, _⟩ => ⟨S_, .f32⟩
  | .hbm, ⟨75, _⟩ => ⟨S128, .f32⟩
  | .hbm, ⟨76, _⟩ => ⟨S1x128, .f32⟩
  | .hbm, ⟨77, _⟩ => ⟨S_, .f32⟩
  | .hbm, ⟨78, _⟩ => ⟨S1x128, .f32⟩
  | .hbm, ⟨79, _⟩ => ⟨S1x128, .f32⟩
  | .hbm, ⟨80, _⟩ => ⟨S100000x128, .f32⟩
  | .hbm, ⟨81, _⟩ => ⟨S100000x128, .f32⟩
  | .hbm, ⟨82, _⟩ => ⟨S100000x128, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S128, .f32⟩
  | .hbm, ⟨88, _⟩ => ⟨S1x128, .f32⟩
  | .hbm, ⟨89, _⟩ => ⟨S1x128, .f32⟩
  | .hbm, ⟨90, _⟩ => ⟨S1x128, .f32⟩
  | .hbm, ⟨91, _⟩ => ⟨S_, .f32⟩
  | .hbm, ⟨92, _⟩ => ⟨S_, .i1⟩
  | .hbm, ⟨93, _⟩ => ⟨S_, .f32⟩
  | .hbm, ⟨94, _⟩ => ⟨S_, .f32⟩
  | .hbm, ⟨95, _⟩ => ⟨S1x128, .f32⟩
  | .hbm, ⟨96, _⟩ => ⟨S1x128, .f32⟩
  | .hbm, ⟨97, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S128x3, .f32⟩
  | .local _ .vmem, ⟨5, _⟩ => ⟨S3, .f32⟩
  | .local _ .vmem, ⟨6, _⟩ => ⟨S5000x3, .f32⟩
  | .local _ .vmem, ⟨7, _⟩ => ⟨S5000x3, .f32⟩
  | .local _ .vmem, ⟨8, _⟩ => ⟨S12800x131, .bf16⟩
  | .local _ .vmem, ⟨9, _⟩ => ⟨S12800x131, .bf16⟩
  | .local _ .vmem, ⟨10, _⟩ => ⟨S131x128, .f32⟩
  | .local _ .vmem, ⟨11, _⟩ => ⟨S128, .f32⟩
  | .local _ .vmem, ⟨12, _⟩ => ⟨S12800x128, .f32⟩
  | .local _ .vmem, ⟨13, _⟩ => ⟨S12800x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S128, .f32⟩
  | .local _ .vmem, ⟨20, _⟩ => ⟨S128x128, .f32⟩
  | .local _ .vmem, ⟨21, _⟩ => ⟨S128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S128x256, .f32⟩
  | .local _ .vmem, ⟨29, _⟩ => ⟨S256, .f32⟩
  | .local _ .vmem, ⟨30, _⟩ => ⟨S1x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_c : Ref sig .tc := ⟨.hbm, 21, rfl⟩
abbrev main_v5 : Ref sig .tc := ⟨.hbm, 22, rfl⟩
abbrev main_v6 : Ref sig .tc := ⟨.hbm, 23, rfl⟩
abbrev main_c_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c_1 : Ref sig .tc := ⟨.hbm, 30, rfl⟩
abbrev main_v12 : Ref sig .tc := ⟨.hbm, 31, rfl⟩
abbrev main_v13 : Ref sig .tc := ⟨.hbm, 32, rfl⟩
abbrev main_c_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_c_3 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_5 : Ref sig .tc := ⟨.hbm, 50, rfl⟩
abbrev main_v28 : Ref sig .tc := ⟨.hbm, 51, rfl⟩
abbrev main_v29 : Ref sig .tc := ⟨.hbm, 52, rfl⟩
abbrev main_c_6 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_7 : Ref sig .tc := ⟨.hbm, 67, rfl⟩
abbrev main_v42 : Ref sig .tc := ⟨.hbm, 68, rfl⟩
abbrev main_v43 : Ref sig .tc := ⟨.hbm, 69, rfl⟩
abbrev main_cst_8 : Ref sig .tc := ⟨.hbm, 70, rfl⟩
abbrev main_v44 : Ref sig .tc := ⟨.hbm, 71, rfl⟩
abbrev main_v45 : Ref sig .tc := ⟨.hbm, 72, rfl⟩
abbrev main_c_9 : Ref sig .tc := ⟨.hbm, 73, rfl⟩
abbrev main_call0_cst : Ref sig .tc := ⟨.hbm, 74, rfl⟩
abbrev main_call0_v0 : Ref sig .tc := ⟨.hbm, 75, rfl⟩
abbrev main_call0_v1 : Ref sig .tc := ⟨.hbm, 76, rfl⟩
abbrev main_call0_cst_0 : Ref sig .tc := ⟨.hbm, 77, rfl⟩
abbrev main_call0_v2 : Ref sig .tc := ⟨.hbm, 78, rfl⟩
abbrev main_call0_v3 : Ref sig .tc := ⟨.hbm, 79, rfl⟩
abbrev main_call0_v4 : Ref sig .tc := ⟨.hbm, 80, rfl⟩
abbrev main_call0_v5 : Ref sig .tc := ⟨.hbm, 81, rfl⟩
abbrev main_call0_v6 : Ref sig .tc := ⟨.hbm, 82, rfl⟩
abbrev main_call0_v7 : Ref sig .tc := ⟨.hbm, 83, rfl⟩
abbrev main_call0_cst_1 : Ref sig .tc := ⟨.hbm, 84, rfl⟩
abbrev main_call0_v8 : Ref sig .tc := ⟨.hbm, 85, rfl⟩
abbrev main_call0_cst_2 : Ref sig .tc := ⟨.hbm, 86, rfl⟩
abbrev main_call0_v9 : Ref sig .tc := ⟨.hbm, 87, rfl⟩
abbrev main_call0_v10 : Ref sig .tc := ⟨.hbm, 88, rfl⟩
abbrev main_call0_v11 : Ref sig .tc := ⟨.hbm, 89, rfl⟩
abbrev main_call0_v12 : Ref sig .tc := ⟨.hbm, 90, rfl⟩
abbrev main_call0_cst_3 : Ref sig .tc := ⟨.hbm, 91, rfl⟩
abbrev main_call0_v13 : Ref sig .tc := ⟨.hbm, 92, rfl⟩
abbrev main_call0_cst_4 : Ref sig .tc := ⟨.hbm, 93, rfl⟩
abbrev main_call0_call0_v0 : Ref sig .tc := ⟨.hbm, 94, rfl⟩
abbrev main_call0_call0_v1 : Ref sig .tc := ⟨.hbm, 95, rfl⟩
abbrev main_v46 : Ref sig .tc := ⟨.hbm, 96, rfl⟩
abbrev main_v47 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg6_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg6_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem6_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem6_1 : DmaSem sig := 33

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S12800x131 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S131x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S12800x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x3_S128x3_0_0 : ∀ a, (![0, 0] : Fin 2 → Nat) a + S128x3.size a ≤ S128x3.size a
  h_S128x3 : 0 < S128x3.numel
  inb_S3_S3_0 : ∀ a, (![0] : Fin 1 → Nat) a + S3.size a ≤ S3.size a
  h_S3 : 0 < S3.numel
  shapeCasts_S3_S1x3 : S3.ShapeCasts S1x3
  broadcasts_S1x3_S5000x3 : S1x3.Broadcasts S5000x3
  inb_S5000x3_S5000x3_0_0 : ∀ a, (![0, 0] : Fin 2 → Nat) a + S5000x3.size a ≤ S5000x3.size a
  h_S5000x3 : 0 < S5000x3.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x3_S1600000x128_S1600000x131_d1 : Shape.Concatenates [S1600000x3, S1600000x128] S1600000x131 1
  inb_S12800x131_S12800x131_0_0 : ∀ a, (![0, 0] : Fin 2 → Nat) a + S12800x131.size a ≤ S12800x131.size a
  h_S12800x131 : 0 < S12800x131.numel
  shapeCasts_S12800x131_S12800x131 : S12800x131.ShapeCasts S12800x131
  inb_S131x128_S131x128_0_0 : ∀ a, (![0, 0] : Fin 2 → Nat) a + S131x128.size a ≤ S131x128.size a
  h_S131x128 : 0 < S131x128.numel
  broadcasts_S1x128_S12800x128 : S1x128.Broadcasts S12800x128
  inb_S12800x128_S12800x128_0_0 : ∀ a, (![0, 0] : Fin 2 → Nat) a + S12800x128.size a ≤ S12800x128.size a
  h_S12800x128 : 0 < S12800x128.numel
  bcast_S_S100000x128 : S_.BroadcastsInDim S100000x128 (![] : Fin 0 → Fin S100000x128.rank)
  shapeCasts_S5000x128_S5000x128 : S5000x128.ShapeCasts S5000x128
  reducesTo_S100000x128_S128_d0 : S100000x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S1x128_S100000x128_0_1 : S1x128.BroadcastsInDim S100000x128 (![0, 1] : Fin 2 → Fin S100000x128.rank)
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  slices_S5000x256_o0_0_S5000x128 : S5000x256.Slices ![0, 0] S5000x128
  slices_S5000x256_o0_128_S5000x128 : S5000x256.Slices ![0, 128] S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  dot_S5000x128_S128x128_S5000x128_1_0_0_1_n_n_wf : DotDims.WF S5000x128 S128x128 S5000x128 [1] [0] [0] [1] [] []
  dot_S5000x128_S128x3_S5000x3_1_0_0_1_n_n_wf : DotDims.WF S5000x128 S128x3 S5000x3 [1] [0] [0] [1] [] []
  gather_S100000x3_S1600000x1_S1600000x3_1_0_n_n_0_1_13_wf : GatherDims.WF S100000x3 S1600000x1 S1600000x3 [1] [0] [] [0] [] 1 ![1, 3]
  gather_S100000x128_S1600000x1_S1600000x128_1_0_n_n_0_1_1128_wf : GatherDims.WF S100000x128 S1600000x1 S1600000x128 [1] [0] [] [0] [] 1 ![1, 128]
  dot_S12800x131_S131x128_S12800x128_1_0_0_1_n_n_wf : DotDims.WF S12800x131 S131x128 S12800x128 [1] [0] [0] [1] [] []
  scatter_S100000x128_S1600000x1_S1600000x128_1_0_0_1_wf : ScatterDims.WF S100000x128 S1600000x1 S1600000x128 [1] [0] [0] 1
  dot_S5000x128_S128x256_S5000x256_1_0_0_1_n_n_wf : DotDims.WF S5000x128 S128x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x3.size a ≤ S128x3.size a
  hwx0_3 : ∀ i : grid0.Coords, EltTy.bits .f32 = 32 ∨ (Rect.block (s := S128x3) S128x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3.size a ≤ S3.size a
  hwx0_4 : ∀ i : grid0.Coords, EltTy.bits .f32 = 32 ∨ (Rect.block (s := S3) S3.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x3.size a ≤ S100000x3.size a
  hwx0_5 : ∀ i : grid0.Coords, EltTy.bits .f32 = 32 ∨ (Rect.block (s := S100000x3) S5000x3.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S12800x131.size a ≤ S1600000x131.size a
  hwx1_0 : ∀ i : grid1.Coords, EltTy.bits .bf16 = 32 ∨ (Rect.block (s := S1600000x131) S12800x131.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S131x128.size a ≤ S131x128.size a
  hwx1_1 : ∀ i : grid1.Coords, EltTy.bits .f32 = 32 ∨ (Rect.block (s := S131x128) S131x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S12800x128.size a ≤ S1600000x128.size a
  hwx1_3 : ∀ i : grid1.Coords, EltTy.bits .f32 = 32 ∨ (Rect.block (s := S1600000x128) S12800x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x256.size a ≤ S128x256.size a
  hwx3_2 : ∀ i : grid3.Coords, EltTy.bits .f32 = 32 ∨ (Rect.block (s := S128x256) S128x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256.size a ≤ S256.size a
  hwx3_3 : ∀ i : grid3.Coords, EltTy.bits .f32 = 32 ∨ (Rect.block (s := S256) S256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S100000x128.size a
  hwx3_6 : ∀ i : grid3.Coords, EltTy.bits .f32 = 32 ∨ (Rect.block (s := S100000x128) S5000x128.size (cc3_transform_6 i) (hinb3_6 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x3_S5000x3_1_0_0_1_n_n : DotDims S5000x128 S128x3 S5000x3 where
  lhsContracting := [1]
  rhsContracting := [0]
  lhsNonContracting := [0]
  rhsNonContracting := [1]
  lhsBatch := []
  rhsBatch := []
  wf := dot_S5000x128_S128x3_S5000x3_1_0_0_1_n_n_wf
def gather_S100000x3_S1600000x1_S1600000x3_1_0_n_n_0_1_13 : GatherDims S100000x3 S1600000x1 S1600000x3 where
  offsetDims := [1]
  collapsedSliceDims := [0]
  operandBatchingDims := []
  startIndicesBatchingDims := []
  startIndexMap := [0]
  indexVectorDim := 1
  sliceSizes := ![1, 3]
  wf := gather_S100000x3_S1600000x1_S1600000x3_1_0_n_n_0_1_13_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S12800x131_S131x128_S12800x128_1_0_0_1_n_n : DotDims S12800x131 S131x128 S12800x128 where
  lhsContracting := [1]
  rhsContracting := [0]
  lhsNonContracting := [0]
  rhsNonContracting := [1]
  lhsBatch := []
  rhsBatch := []
  wf := dot_S12800x131_S131x128_S12800x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S3.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S5000x3.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v36) S12800x131.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S131x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S12800x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v40) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg13) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v41) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v41) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg2) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg14) S128x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg15) S256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v45) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v46) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v47) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x128 : Shape := ⟨2, ![100000, 128]⟩
abbrev S100000x3 : Shape := ⟨2, ![100000, 3]⟩
abbrev S2x1600000 : Shape := ⟨2, ![2, 1600000]⟩
abbrev S128x128 : Shape := ⟨2, ![128, 128]⟩
abbrev S128 : Shape := ⟨1, ![128]⟩
abbrev S128x3 : Shape := ⟨2, ![128, 3]⟩
abbrev S3 : Shape := ⟨1, ![3]⟩
abbrev S131x128 : Shape := ⟨2, ![131, 128]⟩
abbrev S128x256 : Shape := ⟨2, ![128, 256]⟩
abbrev S256 : Shape := ⟨1, ![256]⟩
abbrev S1x1600000 : Shape := ⟨2, ![1, 1600000]⟩
abbrev S1600000 : Shape := ⟨1, ![1600000]⟩
abbrev S1x128 : Shape := ⟨2, ![1, 128]⟩
abbrev S_ : Shape := ⟨0, ![]⟩
abbrev S1x3 : Shape := ⟨2, ![1, 3]⟩
abbrev S1600000x1 : Shape := ⟨2, ![1600000, 1]⟩
abbrev S1600000x3 : Shape := ⟨2, ![1600000, 3]⟩
abbrev S1600000x128 : Shape := ⟨2, ![1600000, 128]⟩
abbrev S1600000x131 : Shape := ⟨2, ![1600000, 131]⟩
abbrev S100000x256 : Shape := ⟨2, ![100000, 256]⟩
abbrev S1x256 : Shape := ⟨2, ![1, 256]⟩

abbrev nBuf : Space → Nat
  | .hbm => 147
  | .vmem => 0
  | .smem => 0
  | _ => 0

abbrev hbmTy0_0 (i : Nat) : BufTy := match i % 128 with
  | 0 => ⟨S100000x128, .f32⟩
  | 1 => ⟨S100000x3, .f32⟩
  | 2 => ⟨S100000x128, .f32⟩
  | 3 => ⟨S2x1600000, .i32⟩
  | 4 => ⟨S128x128, .f32⟩
  | 5 => ⟨S128, .f32⟩
  | 6 => ⟨S128x3, .f32⟩
  | 7 => ⟨S3, .f32⟩
  | 8 => ⟨S131x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x256, .f32⟩
  | 15 => ⟨S256, .f32⟩
  | 16 => ⟨S1x1600000, .i32⟩
  | 17 => ⟨S1600000, .i32⟩
  | 18 => ⟨S1x1600000, .i32⟩
  | 19 => ⟨S1600000, .i32⟩
  | 20 => ⟨S100000x128, .f32⟩
  | 21 => ⟨S1x128, .f32⟩
  | 22 => ⟨S100000x128, .f32⟩
  | 23 => ⟨S100000x128, .f32⟩
  | 24 => ⟨S_, .f32⟩
  | 25 => ⟨S100000x128, .f32⟩
  | 26 => ⟨S100000x128, .f32⟩
  | 27 => ⟨S100000x3, .f32⟩
  | 28 => ⟨S1x3, .f32⟩
  | 29 => ⟨S100000x3, .f32⟩
  | 30 => ⟨S100000x3, .f32⟩
  | 31 => ⟨S100000x3, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000x3, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000x3, .f32⟩
  | 50 => ⟨S1600000x3, .f32⟩
  | 51 => ⟨S_, .i32⟩
  | 52 => ⟨S1600000, .i32⟩
  | 53 => ⟨S1600000, .i1⟩
  | 54 => ⟨S_, .i32⟩
  | 55 => ⟨S1600000, .i32⟩
  | 56 => ⟨S1600000, .i32⟩
  | 57 => ⟨S1600000, .i32⟩
  | 58 => ⟨S1600000x1, .i32⟩
  | 59 => ⟨S1600000x3, .f32⟩
  | 60 => ⟨S1600000x3, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000x128, .f32⟩
  | 70 => ⟨S1600000x131, .f32⟩
  | 71 => ⟨S1600000x128, .f32⟩
  | 72 => ⟨S1x128, .f32⟩
  | 73 => ⟨S1600000x128, .f32⟩
  | 74 => ⟨S1600000x128, .f32⟩
  | 75 => ⟨S_, .f32⟩
  | 76 => ⟨S1600000x128, .f32⟩
  | 77 => ⟨S1600000x128, .f32⟩
  | 78 => ⟨S_, .f32⟩
  | 79 => ⟨S100000x128, .f32⟩
  | 80 => ⟨S1600000x1, .i32⟩
  | 81 => ⟨S100000x128, .f32⟩
  | 82 => ⟨S100000x128, .f32⟩
  | 83 => ⟨S1x128, .f32⟩
  | 84 => ⟨S100000x128, .f32⟩
  | 85 => ⟨S100000x128, .f32⟩
  | 86 => ⟨S_, .f32⟩
  | 87 => ⟨S100000x128, .f32⟩
  | 88 => ⟨S100000x128, .f32⟩
  | 89 => ⟨S100000x128, .f32⟩
  | 90 => ⟨S1x128, .f32⟩
  | 91 => ⟨S100000x128, .f32⟩
  | 92 => ⟨S100000x128, .f32⟩
  | 93 => ⟨S100000x128, .f32⟩
  | 94 => ⟨S_, .f32⟩
  | 95 => ⟨S100000x128, .f32⟩
  | 96 => ⟨S100000x128, .i1⟩
  | 97 => ⟨S_, .f32⟩
  | 98 => ⟨S100000x128, .f32⟩
  | 99 => ⟨S100000x128, .f32⟩
  | 100 => ⟨S100000x128, .f32⟩
  | 101 => ⟨S100000x256, .f32⟩
  | 102 => ⟨S1x256, .f32⟩
  | 103 => ⟨S100000x256, .f32⟩
  | 104 => ⟨S100000x256, .f32⟩
  | 105 => ⟨S100000x128, .f32⟩
  | 106 => ⟨S100000x128, .f32⟩
  | 107 => ⟨S_, .f32⟩
  | 108 => ⟨S128, .f32⟩
  | 109 => ⟨S1x128, .f32⟩
  | 110 => ⟨S_, .f32⟩
  | 111 => ⟨S1x128, .f32⟩
  | 112 => ⟨S1x128, .f32⟩
  | 113 => ⟨S_, .i32⟩
  | 114 => ⟨S_, .f32⟩
  | 115 => ⟨S128, .f32⟩
  | 116 => ⟨S1x128, .f32⟩
  | 117 => ⟨S_, .f32⟩
  | 118 => ⟨S1x128, .f32⟩
  | 119 => ⟨S1x128, .f32⟩
  | 120 => ⟨S100000x128, .f32⟩
  | 121 => ⟨S100000x128, .f32⟩
  | 122 => ⟨S100000x128, .f32⟩
  | 123 => ⟨S_, .f32⟩
  | 124 => ⟨S_, .f32⟩
  | 125 => ⟨S_, .f32⟩
  | 126 => ⟨S_, .f32⟩
  | 127 => ⟨S128, .f32⟩
  | _ => ⟨S100000x128, .f32⟩

abbrev hbmTy0_1 (i : Nat) : BufTy := match i % 128 with
  | 0 => ⟨S1x128, .f32⟩
  | 1 => ⟨S1x128, .f32⟩
  | 2 => ⟨S1x128, .f32⟩
  | 3 => ⟨S_, .f32⟩
  | 4 => ⟨S_, .i1⟩
  | 5 => ⟨S_, .f32⟩
  | 6 => ⟨S_, .f32⟩
  | 7 => ⟨S1x128, .f32⟩
  | 8 => ⟨S1x128, .f32⟩
  | 9 => ⟨S100000x128, .f32⟩
  | 10 => ⟨S100000x128, .f32⟩
  | 11 => ⟨S_, .f32⟩
  | 12 => ⟨S1x128, .f32⟩
  | 13 => ⟨S1x128, .f32⟩
  | 14 => ⟨S1x128, .f32⟩
  | 15 => ⟨S100000x128, .f32⟩
  | 16 => ⟨S100000x128, .f32⟩
  | 17 => ⟨S100000x128, .f32⟩
  | 18 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call0_cst : Ref sig .tc := ⟨.hbm, 24, rfl⟩
abbrev main_call0_v0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_0 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_1 : Ref sig .tc := ⟨.hbm, 41, rfl⟩
abbrev main_v21 : Ref sig .tc := ⟨.hbm, 42, rfl⟩
abbrev main_v22 : Ref sig .tc := ⟨.hbm, 43, rfl⟩
abbrev main_c_2 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_3 : Ref sig .tc := ⟨.hbm, 51, rfl⟩
abbrev main_v29 : Ref sig .tc := ⟨.hbm, 52, rfl⟩
abbrev main_v30 : Ref sig .tc := ⟨.hbm, 53, rfl⟩
abbrev main_c_4 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_5 : Ref sig .tc := ⟨.hbm, 61, rfl⟩
abbrev main_v37 : Ref sig .tc := ⟨.hbm, 62, rfl⟩
abbrev main_v38 : Ref sig .tc := ⟨.hbm, 63, rfl⟩
abbrev main_c_6 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_call1_cst : Ref sig .tc := ⟨.hbm, 75, rfl⟩
abbrev main_call1_v0 : Ref sig .tc := ⟨.hbm, 76, rfl⟩
abbrev main_v49 : Ref sig .tc := ⟨.hbm, 77, rfl⟩
abbrev main_cst : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_call2_cst : Ref sig .tc := ⟨.hbm, 86, rfl⟩
abbrev main_call2_v0 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_7 : Ref sig .tc := ⟨.hbm, 94, rfl⟩
abbrev main_v63 : Ref sig .tc := ⟨.hbm, 95, rfl⟩
abbrev main_v64 : Ref sig .tc := ⟨.hbm, 96, rfl⟩
abbrev main_cst_8 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_9 : Ref sig .tc := ⟨.hbm, 107, rfl⟩
abbrev main_v74 : Ref sig .tc := ⟨.hbm, 108, rfl⟩
abbrev main_v75 : Ref sig .tc := ⟨.hbm, 109, rfl⟩
abbrev main_cst_10 : Ref sig .tc := ⟨.hbm, 110, rfl⟩
abbrev main_v76 : Ref sig .tc := ⟨.hbm, 111, rfl⟩
abbrev main_v77 : Ref sig .tc := ⟨.hbm, 112, rfl⟩
abbrev main_c_11 : Ref sig .tc := ⟨.hbm, 113, rfl⟩
abbrev main_call4_cst : Ref sig .tc := ⟨.hbm, 114, rfl⟩
abbrev main_call4_v0 : Ref sig .tc := ⟨.hbm, 115, rfl⟩
abbrev main_call4_v1 : Ref sig .tc := ⟨.hbm, 116, rfl⟩
abbrev main_call4_cst_0 : Ref sig .tc := ⟨.hbm, 117, rfl⟩
abbrev main_call4_v2 : Ref sig .tc := ⟨.hbm, 118, rfl⟩
abbrev main_call4_v3 : Ref sig .tc := ⟨.hbm, 119, rfl⟩
abbrev main_call4_v4 : Ref sig .tc := ⟨.hbm, 120, rfl⟩
abbrev main_call4_v5 : Ref sig .tc := ⟨.hbm, 121, rfl⟩
abbrev main_call4_v6 : Ref sig .tc := ⟨.hbm, 122, rfl⟩
abbrev main_call4_v7 : Ref sig .tc := ⟨.hbm, 123, rfl⟩
abbrev main_call4_cst_1 : Ref sig .tc := ⟨.hbm, 124, rfl⟩
abbrev main_call4_v8 : Ref sig .tc := ⟨.hbm, 125, rfl⟩
abbrev main_call4_cst_2 : Ref sig .tc := ⟨.hbm, 126, rfl⟩
abbrev main_call4_v9 : Ref sig .tc := ⟨.hbm, 127, rfl⟩
abbrev main_call4_v10 : Ref sig .tc := ⟨.hbm, 128, rfl⟩
abbrev main_call4_v11 : Ref sig .tc := ⟨.hbm, 129, rfl⟩
abbrev main_call4_v12 : Ref sig .tc := ⟨.hbm, 130, rfl⟩
abbrev main_call4_cst_3 : Ref sig .tc := ⟨.hbm, 131, rfl⟩
abbrev main_call4_v13 : Ref sig .tc := ⟨.hbm, 132, rfl⟩
abbrev main_call4_cst_4 : Ref sig .tc := ⟨.hbm, 133, rfl⟩
abbrev main_call4_call0_v0 : Ref sig .tc := ⟨.hbm, 134, rfl⟩
abbrev main_call4_call0_v1 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_cst_12 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x3_S1600000x128_S1600000x131_d1 : Shape.Concatenates [S1600000x3, S1600000x128] S1600000x131 1
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  slices_S100000x256_S100000x128_0_0 : S100000x256.Slices ![0, 0] S100000x128
  slices_S100000x256_S100000x128_0_128 : S100000x256.Slices ![0, 128] S100000x128
  reducesTo_S100000x128_S128_d0 : S100000x128.ReducesTo [0] S128
  h_S_ : 0 < S_.numel
  bcast_S_S1x128 : S_.BroadcastsInDim S1x128 (![] : Fin 0 → Fin S1x128.rank)
  dot_S100000x128_S128x128_S100000x128_1_0_0_1_n_n_wf : DotDims.WF S100000x128 S128x128 S100000x128 [1] [0] [0] [1] [] []
  dot_S100000x128_S128x3_S100000x3_1_0_0_1_n_n_wf : DotDims.WF S100000x128 S128x3 S100000x3 [1] [0] [0] [1] [] []
  gather_S100000x3_S1600000x1_S1600000x3_1_0_n_n_0_1_13_wf : GatherDims.WF S100000x3 S1600000x1 S1600000x3 [1] [0] [] [0] [] 1 ![1, 3]
  gather_S100000x128_S1600000x1_S1600000x128_1_0_n_n_0_1_1128_wf : GatherDims.WF S100000x128 S1600000x1 S1600000x128 [1] [0] [] [0] [] 1 ![1, 128]
  dot_S1600000x131_S131x128_S1600000x128_1_0_0_1_n_n_wf : DotDims.WF S1600000x131 S131x128 S1600000x128 [1] [0] [0] [1] [] []
  scatter_S100000x128_S1600000x1_S1600000x128_1_0_0_1_wf : ScatterDims.WF S100000x128 S1600000x1 S1600000x128 [1] [0] [0] 1
  dot_S100000x128_S128x256_S100000x256_1_0_0_1_n_n_wf : DotDims.WF S100000x128 S128x256 S100000x256 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x3_S100000x3_1_0_0_1_n_n : DotDims S100000x128 S128x3 S100000x3 where
  lhsContracting := [1]
  rhsContracting := [0]
  lhsNonContracting := [0]
  rhsNonContracting := [1]
  lhsBatch := []
  rhsBatch := []
  wf := dot_S100000x128_S128x3_S100000x3_1_0_0_1_n_n_wf
def gather_S100000x3_S1600000x1_S1600000x3_1_0_n_n_0_1_13 : GatherDims S100000x3 S1600000x1 S1600000x3 where
  offsetDims := [1]
  collapsedSliceDims := [0]
  operandBatchingDims := []
  startIndicesBatchingDims := []
  startIndexMap := [0]
  indexVectorDim := 1
  sliceSizes := ![1, 3]
  wf := gather_S100000x3_S1600000x1_S1600000x3_1_0_n_n_0_1_13_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S1600000x131_S131x128_S1600000x128_1_0_0_1_n_n : DotDims S1600000x131 S131x128 S1600000x128 where
  lhsContracting := [1]
  rhsContracting := [0]
  lhsNonContracting := [0]
  rhsNonContracting := [1]
  lhsBatch := []
  rhsBatch := []
  wf := dot_S1600000x131_S131x128_S1600000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf

class Facts : Prop extends Facts₀ where

variable [Facts]
-- ==== Proof.RefRun.lean ====
/- The reference program's @main as the list of its 131 host operations, in order, the five calls unfolded at
   their sites (a callee's operations over that call's own record of buffers), and its run: on every device, from
   any memory with zero counters, every weakly fair execution terminates with each TensorCore buffer at the fold
   of the operations' results over the launch contents. The list is stated as ten consecutive segments, so that
   the fold can be read one segment at a time (`after` over a concatenation is the composition of the folds). -/
import proofs.«150243_j31774168056051_1_alg».proof.Proof.Gen.ReferenceIdeal
import Idealize.ShloMosaic.Lib.StableHlo.Run
import Idealize.ShloMosaic.Lib.Pipeline.Frame

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The operations, segment by segment -/

/-- The two rows of the edge table, each as a vector of 1600000 node indices (statements %0 … %3). 4 operations. -/
abbrev opsA : List (HloOp τ sig (Elt F)) :=
  [ unary main_arg3 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg3 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000 ]

/-- The first dense layer on the node features, its rectifier (the call's three operations over the call's own buffers), the three-column layer and its hyperbolic tangent (%4 … %13). 12 operations. -/
abbrev opsD : List (HloOp τ sig (Elt F)) :=
  [ binary main_arg0 main_arg4 main_v4 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg5 main_v5 (broadcastInDim S1x128 ![1] bcast_S128_S1x128_1 : (⟨S128, .f32⟩ : BufTy).Contents (Elt F) → (⟨S1x128, .f32⟩ : BufTy).Contents (Elt F)),
    unary main_v5 main_v6 (broadcastInDim S100000x128 ![0, 1] bcast_S1x128_S100000x128_0_1 : (⟨S1x128, .f32⟩ : BufTy).Contents (Elt F) → (⟨S100000x128, .f32⟩ : BufTy).Contents (Elt F)),
    binary main_v4 main_v6 main_v7 (addf : (⟨S100000x128, .f32⟩ : BufTy).Contents (Elt F) → (⟨S100000x128, .f32⟩ : BufTy).Contents (Elt F) → (⟨S100000x128, .f32⟩ : BufTy).Contents (Elt F)),
    TRef.nullary main_call0.cst (constant S_ .f32 0x00000000#32),
    TRef.unary main_call0.cst main_call0.v0 (broadcastInDim S100000x128 ![] bcast_S_S100000x128),
    TRef.binary (.of main_v7 : StableHlo.TRef sig ⟨S100000x128, .f32⟩) main_call0.v0 main_call0.v1 maximumf,
    binary main_v8 main_arg6 main_v9 ((fun l r => Host.dotGeneral dot_S100000x128_S128x3_S100000x3_1_0_0_1_n_n none l r) : (⟨S100000x128, .f32⟩ : BufTy).Contents (Elt F) → (⟨S128x3, .f32⟩ : BufTy).Contents (Elt F) → (⟨S100000x3, .f32⟩ : BufTy).Contents (Elt F)),
    unary main_arg7 main_v10 (broadcastInDim S1x3 ![1] bcast_S3_S1x3_1 : (⟨S3, .f32⟩ : BufTy).Contents (Elt F) → (⟨S1x3, .f32⟩ : BufTy).Contents (Elt F)),
    unary main_v10 main_v11 (broadcastInDim S100000x3 ![0, 1] bcast_S1x3_S100000x3_0_1 : (⟨S1x3, .f32⟩ : BufTy).Contents (Elt F) → (⟨S100000x3, .f32⟩ : BufTy).Contents (Elt F)),
    binary main_v9 main_v11 main_v12 (addf : (⟨S100000x3, .f32⟩ : BufTy).Contents (Elt F) → (⟨S100000x3, .f32⟩ : BufTy).Contents (Elt F) → (⟨S100000x3, .f32⟩ : BufTy).Contents (Elt F)),
    unary main_v12 main_v13 (Host.tanh : (⟨S100000x3, .f32⟩ : BufTy).Contents (Elt F) → (⟨S100000x3, .f32⟩ : BufTy).Contents (Elt F)) ]

/-- The edge inputs: four times a negative index is moved up by the node count and the rows gathered; the gathered coordinates are subtracted, the gathered displacement added, and the result set beside the gathered node features (%c … %44). 39 operations. -/
abbrev opsE : List (HloOp τ sig (Elt F)) :=
  [ nullary main_c (constantI S_ 32 0#32),
    unary main_c main_v14 (broadcastInDim S1600000 ![] bcast_S_S1600000 : (⟨S_, .i32⟩ : BufTy).Contents (Elt F) → (⟨S1600000, .i32⟩ : BufTy).Contents (Elt F)),
    binary main_v1 main_v14 main_v15 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v16 (broadcastInDim S1600000 ![] bcast_S_S1600000 : (⟨S_, .i32⟩ : BufTy).Contents (Elt F) → (⟨S1600000, .i32⟩ : BufTy).Contents (Elt F)),
    binary main_v1 main_v16 main_v17 (addi : (⟨S1600000, .i32⟩ : BufTy).Contents (Elt F) → (⟨S1600000, .i32⟩ : BufTy).Contents (Elt F) → (⟨S1600000, .i32⟩ : BufTy).Contents (Elt F)),
    ternary main_v15 main_v17 main_v1 main_v18 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v18 main_v19 (broadcastInDim S1600000x1 ![0] bcast_S1600000_S1600000x1_0 : (⟨S1600000, .i32⟩ : BufTy).Contents (Elt F) → (⟨S1600000x1, .i32⟩ : BufTy).Contents (Elt F)),
    binary main_arg1 main_v19 main_v20 ((fun x i => Host.gather gather_S100000x3_S1600000x1_S1600000x3_1_0_n_n_0_1_13 x i) : (⟨S100000x3, .f32⟩ : BufTy).Contents (Elt F) → (⟨S1600000x1, .i32⟩ : BufTy).Contents (Elt F) → (⟨S1600000x3, .f32⟩ : BufTy).Contents (Elt F)),
    nullary main_c_1 (constantI S_ 32 0#32),
    unary main_c_1 main_v21 (broadcastInDim S1600000 ![] bcast_S_S1600000 : (⟨S_, .i32⟩ : BufTy).Contents (Elt F) → (⟨S1600000, .i32⟩ : BufTy).Contents (Elt F)),
    binary main_v3 main_v21 main_v22 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v23 (broadcastInDim S1600000 ![] bcast_S_S1600000 : (⟨S_, .i32⟩ : BufTy).Contents (Elt F) → (⟨S1600000, .i32⟩ : BufTy).Contents (Elt F)),
    binary main_v3 main_v23 main_v24 (addi : (⟨S1600000, .i32⟩ : BufTy).Contents (Elt F) → (⟨S1600000, .i32⟩ : BufTy).Contents (Elt F) → (⟨S1600000, .i32⟩ : BufTy).Contents (Elt F)),
    ternary main_v22 main_v24 main_v3 main_v25 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v25 main_v26 (broadcastInDim S1600000x1 ![0] bcast_S1600000_S1600000x1_0 : (⟨S1600000, .i32⟩ : BufTy).Contents (Elt F) → (⟨S1600000x1, .i32⟩ : BufTy).Contents (Elt F)),
    binary main_arg1 main_v26 main_v27 ((fun x i => Host.gather gather_S100000x3_S1600000x1_S1600000x3_1_0_n_n_0_1_13 x i) : (⟨S100000x3, .f32⟩ : BufTy).Contents (Elt F) → (⟨S1600000x1, .i32⟩ : BufTy).Contents (Elt F) → (⟨S1600000x3, .f32⟩ : BufTy).Contents (Elt F)),
    binary main_v20 main_v27 main_v28 (subf : (⟨S1600000x3, .f32⟩ : BufTy).Contents (Elt F) → (⟨S1600000x3, .f32⟩ : BufTy).Contents (Elt F) → (⟨S1600000x3, .f32⟩ : BufTy).Contents (Elt F)),
    nullary main_c_3 (constantI S_ 32 0#32),
    unary main_c_3 main_v29 (broadcastInDim S1600000 ![] bcast_S_S1600000 : (⟨S_, .i32⟩ : BufTy).Contents (Elt F) → (⟨S1600000, .i32⟩ : BufTy).Contents (Elt F)),
    binary main_v3 main_v29 main_v30 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v31 (broadcastInDim S1600000 ![] bcast_S_S1600000 : (⟨S_, .i32⟩ : BufTy).Contents (Elt F) → (⟨S1600000, .i32⟩ : BufTy).Contents (Elt F)),
    binary main_v3 main_v31 main_v32 (addi : (⟨S1600000, .i32⟩ : BufTy).Contents (Elt F) → (⟨S1600000, .i32⟩ : BufTy).Contents (Elt F) → (⟨S1600000, .i32⟩ : BufTy).Contents (Elt F)),
    ternary main_v30 main_v32 main_v3 main_v33 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v33 main_v34 (broadcastInDim S1600000x1 ![0] bcast_S1600000_S1600000x1_0 : (⟨S1600000, .i32⟩ : BufTy).Contents (Elt F) → (⟨S1600000x1, .i32⟩ : BufTy).Contents (Elt F)),
    binary main_v13 main_v34 main_v35 ((fun x i => Host.gather gather_S100000x3_S1600000x1_S1600000x3_1_0_n_n_0_1_13 x i) : (⟨S100000x3, .f32⟩ : BufTy).Contents (Elt F) → (⟨S1600000x1, .i32⟩ : BufTy).Contents (Elt F) → (⟨S1600000x3, .f32⟩ : BufTy).Contents (Elt F)),
    binary main_v28 main_v35 main_v36 (addf : (⟨S1600000x3, .f32⟩ : BufTy).Contents (Elt F) → (⟨S1600000x3, .f32⟩ : BufTy).Contents (Elt F) → (⟨S1600000x3, .f32⟩ : BufTy).Contents (Elt F)),
    nullary main_c_5 (constantI S_ 32 0#32),
    unary main_c_5 main_v37 (broadcastInDim S1600000 ![] bcast_S_S1600000 : (⟨S_, .i32⟩ : BufTy).Contents (Elt F) → (⟨S1600000, .i32⟩ : BufTy).Contents (Elt F)),
    binary main_v1 main_v37 main_v38 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v39 (broadcastInDim S1600000 ![] bcast_S_S1600000 : (⟨S_, .i32⟩ : BufTy).Contents (Elt F) → (⟨S1600000, .i32⟩ : BufTy).Contents (Elt F)),
    binary main_v1 main_v39 main_v40 (addi : (⟨S1600000, .i32⟩ : BufTy).Contents (Elt F) → (⟨S1600000, .i32⟩ : BufTy).Contents (Elt F) → (⟨S1600000, .i32⟩ : BufTy).Contents (Elt F)),
    ternary main_v38 main_v40 main_v1 main_v41 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v41 main_v42 (broadcastInDim S1600000x1 ![0] bcast_S1600000_S1600000x1_0 : (⟨S1600000, .i32⟩ : BufTy).Contents (Elt F) → (⟨S1600000x1, .i32⟩ : BufTy).Contents (Elt F)),
    binary main_arg0 main_v42 main_v43 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    binary main_v36 main_v43 main_v44 ((fun a b => concatenate S1600000x131 1 [⟨S1600000x3, a⟩, ⟨S1600000x128, b⟩] concatenates_S1600000x3_S1600000x128_S1600000x131_d1) : (⟨S1600000x3, .f32⟩ : BufTy).Contents (Elt F) → (⟨S1600000x128, .f32⟩ : BufTy).Contents (Elt F) → (⟨S1600000x131, .f32⟩ : BufTy).Contents (Elt F)) ]

/-- The edge layer and its rectifier (%45 … %49). 7 operations. -/
abbrev opsM : List (HloOp τ sig (Elt F)) :=
  [ binary main_v44 main_arg8 main_v45 ((fun l r => Host.dotGeneral dot_S1600000x131_S131x128_S1600000x128_1_0_0_1_n_n none l r) : (⟨S1600000x131, .f32⟩ : BufTy).Contents (Elt F) → (⟨S131x128, .f32⟩ : BufTy).Contents (Elt F) → (⟨S1600000x128, .f32⟩ : BufTy).Contents (Elt F)),
    unary main_arg9 main_v46 (broadcastInDim S1x128 ![1] bcast_S128_S1x128_1 : (⟨S128, .f32⟩ : BufTy).Contents (Elt F) → (⟨S1x128, .f32⟩ : BufTy).Contents (Elt F)),
    unary main_v46 main_v47 (broadcastInDim S1600000x128 ![0, 1] bcast_S1x128_S1600000x128_0_1 : (⟨S1x128, .f32⟩ : BufTy).Contents (Elt F) → (⟨S1600000x128, .f32⟩ : BufTy).Contents (Elt F)),
    binary main_v45 main_v47 main_v48 (addf : (⟨S1600000x128, .f32⟩ : BufTy).Contents (Elt F) → (⟨S1600000x128, .f32⟩ : BufTy).Contents (Elt F) → (⟨S1600000x128, .f32⟩ : BufTy).Contents (Elt F)),
    TRef.nullary main_call1.cst (constant S_ .f32 0x00000000#32),
    TRef.unary main_call1.cst main_call1.v0 (broadcastInDim S1600000x128 ![] bcast_S_S1600000x128),
    TRef.binary (.of main_v48 : StableHlo.TRef sig ⟨S1600000x128, .f32⟩) main_call1.v0 main_call1.v1 maximumf ]

/-- The zero table, the receiver indices as a column, and the sum of the edge rows into their receivers' rows (%cst, %50 … %52). 4 operations. -/
abbrev opsS : List (HloOp τ sig (Elt F)) :=
  [ nullary main_cst (constant S_ .f32 0x00000000#32),
    unary main_cst main_v50 (broadcastInDim S100000x128 ![] bcast_S_S100000x128 : (⟨S_, .f32⟩ : BufTy).Contents (Elt F) → (⟨S100000x128, .f32⟩ : BufTy).Contents (Elt F)),
    unary main_v3 main_v51 (broadcastInDim S1600000x1 ![0] bcast_S1600000_S1600000x1_0 : (⟨S1600000, .i32⟩ : BufTy).Contents (Elt F) → (⟨S1600000x1, .i32⟩ : BufTy).Contents (Elt F)),
    ternary main_v50 main_v51 main_v49 main_v52 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- The two node layers with the rectifier between them, the residual sum, and the leaky rectifier: the comparison with zero, the scaled copy, and the selection (%53 … %67). 19 operations. -/
abbrev opsO : List (HloOp τ sig (Elt F)) :=
  [ binary main_v52 main_arg10 main_v53 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg11 main_v54 (broadcastInDim S1x128 ![1] bcast_S128_S1x128_1 : (⟨S128, .f32⟩ : BufTy).Contents (Elt F) → (⟨S1x128, .f32⟩ : BufTy).Contents (Elt F)),
    unary main_v54 main_v55 (broadcastInDim S100000x128 ![0, 1] bcast_S1x128_S100000x128_0_1 : (⟨S1x128, .f32⟩ : BufTy).Contents (Elt F) → (⟨S100000x128, .f32⟩ : BufTy).Contents (Elt F)),
    binary main_v53 main_v55 main_v56 (addf : (⟨S100000x128, .f32⟩ : BufTy).Contents (Elt F) → (⟨S100000x128, .f32⟩ : BufTy).Contents (Elt F) → (⟨S100000x128, .f32⟩ : BufTy).Contents (Elt F)),
    TRef.nullary main_call2.cst (constant S_ .f32 0x00000000#32),
    TRef.unary main_call2.cst main_call2.v0 (broadcastInDim S100000x128 ![] bcast_S_S100000x128),
    TRef.binary (.of main_v56 : StableHlo.TRef sig ⟨S100000x128, .f32⟩) main_call2.v0 main_call2.v1 maximumf,
    binary main_v57 main_arg12 main_v58 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg13 main_v59 (broadcastInDim S1x128 ![1] bcast_S128_S1x128_1 : (⟨S128, .f32⟩ : BufTy).Contents (Elt F) → (⟨S1x128, .f32⟩ : BufTy).Contents (Elt F)),
    unary main_v59 main_v60 (broadcastInDim S100000x128 ![0, 1] bcast_S1x128_S100000x128_0_1 : (⟨S1x128, .f32⟩ : BufTy).Contents (Elt F) → (⟨S100000x128, .f32⟩ : BufTy).Contents (Elt F)),
    binary main_v58 main_v60 main_v61 (addf : (⟨S100000x128, .f32⟩ : BufTy).Contents (Elt F) → (⟨S100000x128, .f32⟩ : BufTy).Contents (Elt F) → (⟨S100000x128, .f32⟩ : BufTy).Contents (Elt F)),
    binary main_v61 main_arg0 main_v62 (addf : (⟨S100000x128, .f32⟩ : BufTy).Contents (Elt F) → (⟨S100000x128, .f32⟩ : BufTy).Contents (Elt F) → (⟨S100000x128, .f32⟩ : BufTy).Contents (Elt F)),
    nullary main_cst_7 (constant S_ .f32 0x00000000#32),
    unary main_cst_7 main_v63 (broadcastInDim S100000x128 ![] bcast_S_S100000x128 : (⟨S_, .f32⟩ : BufTy).Contents (Elt F) → (⟨S100000x128, .f32⟩ : BufTy).Contents (Elt F)),
    binary main_v62 main_v63 main_v64 (cmpf .oge : (⟨S100000x128, .f32⟩ : BufTy).Contents (Elt F) → (⟨S100000x128, .f32⟩ : BufTy).Contents (Elt F) → (⟨S100000x128, .i1⟩ : BufTy).Contents (Elt F)),
    nullary main_cst_8 (constant S_ .f32 0x3E4CCCCD#32),
    unary main_cst_8 main_v65 (broadcastInDim S100000x128 ![] bcast_S_S100000x128 : (⟨S_, .f32⟩ : BufTy).Contents (Elt F) → (⟨S100000x128, .f32⟩ : BufTy).Contents (Elt F)),
    binary main_v65 main_v62 main_v66 (mulf : (⟨S100000x128, .f32⟩ : BufTy).Contents (Elt F) → (⟨S100000x128, .f32⟩ : BufTy).Contents (Elt F) → (⟨S100000x128, .f32⟩ : BufTy).Contents (Elt F)),
    TRef.ternary (.of main_v64 : StableHlo.TRef sig ⟨S100000x128, .i1⟩) (.of main_v62 : StableHlo.TRef sig ⟨S100000x128, .f32⟩) (.of main_v66 : StableHlo.TRef sig ⟨S100000x128, .f32⟩) main_call3.v0 select ]

/-- The conditioning layer and its two halves (%68 … %73). 6 operations. -/
abbrev opsG : List (HloOp τ sig (Elt F)) :=
  [ binary main_arg2 main_arg14 main_v68 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    unary main_arg15 main_v69 (broadcastInDim S1x256 ![1] bcast_S256_S1x256_1 : (⟨S256, .f32⟩ : BufTy).Contents (Elt F) → (⟨S1x256, .f32⟩ : BufTy).Contents (Elt F)),
    unary main_v69 main_v70 (broadcastInDim S100000x256 ![0, 1] bcast_S1x256_S100000x256_0_1 : (⟨S1x256, .f32⟩ : BufTy).Contents (Elt F) → (⟨S100000x256, .f32⟩ : BufTy).Contents (Elt F)),
    binary main_v68 main_v70 main_v71 (addf : (⟨S100000x256, .f32⟩ : BufTy).Contents (Elt F) → (⟨S100000x256, .f32⟩ : BufTy).Contents (Elt F) → (⟨S100000x256, .f32⟩ : BufTy).Contents (Elt F)),
    unary main_v71 main_v72 ((extractStridedSlice S100000x128 ![0, 0] · slices_S100000x256_S100000x128_0_0) : (⟨S100000x256, .f32⟩ : BufTy).Contents (Elt F) → (⟨S100000x128, .f32⟩ : BufTy).Contents (Elt F)),
    unary main_v71 main_v73 ((extractStridedSlice S100000x128 ![0, 128] · slices_S100000x256_S100000x128_0_128) : (⟨S100000x256, .f32⟩ : BufTy).Contents (Elt F) → (⟨S100000x128, .f32⟩ : BufTy).Contents (Elt F)) ]

/-- The column means: the column sums, as a row, divided by the row count; and the zero passed to the variance (%cst_9 … %c_11). 7 operations. -/
abbrev opsMu : List (HloOp τ sig (Elt F)) :=
  [ nullary main_cst_9 (constant S_ .f32 0x00000000#32),
    binary main_v67 main_cst_9 main_v74 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    unary main_v74 main_v75 (broadcastInDim S1x128 ![1] bcast_S128_S1x128_1 : (⟨S128, .f32⟩ : BufTy).Contents (Elt F) → (⟨S1x128, .f32⟩ : BufTy).Contents (Elt F)),
    nullary main_cst_10 (constant S_ .f32 0x47C35000#32),
    unary main_cst_10 main_v76 (broadcastInDim S1x128 ![] bcast_S_S1x128 : (⟨S_, .f32⟩ : BufTy).Contents (Elt F) → (⟨S1x128, .f32⟩ : BufTy).Contents (Elt F)),
    binary main_v75 main_v76 main_v77 (Host.divf : (⟨S1x128, .f32⟩ : BufTy).Contents (Elt F) → (⟨S1x128, .f32⟩ : BufTy).Contents (Elt F) → (⟨S1x128, .f32⟩ : BufTy).Contents (Elt F)),
    nullary main_c_11 (constantI S_ 32 0#32) ]

/-- The column variances, the call unfolded: the column means again, the squared deviations, their column sums divided by the row count less the given offset, and the selection of that quotient where the divisor is positive, of the not-a-number constant otherwise (the inner call's three operations last) (%78). 23 operations. -/
abbrev opsV : List (HloOp τ sig (Elt F)) :=
  [ TRef.nullary main_call4.cst (constant S_ .f32 0x00000000#32),
    TRef.binary (.of main_v67 : StableHlo.TRef sig ⟨S100000x128, .f32⟩) main_call4.cst main_call4.v0 (fun x v => Host.reduceAdd x v reducesTo_S100000x128_S128_d0 h_S_),
    TRef.unary main_call4.v0 main_call4.v1 (broadcastInDim S1x128 ![1] bcast_S128_S1x128_1),
    TRef.nullary main_call4.cst_0 (constant S_ .f32 0x47C35000#32),
    TRef.unary main_call4.cst_0 main_call4.v2 (broadcastInDim S1x128 ![] bcast_S_S1x128),
    TRef.binary main_call4.v1 main_call4.v2 main_call4.v3 Host.divf,
    TRef.unary main_call4.v3 main_call4.v4 (broadcastInDim S100000x128 ![0, 1] bcast_S1x128_S100000x128_0_1),
    TRef.binary (.of main_v67 : StableHlo.TRef sig ⟨S100000x128, .f32⟩) main_call4.v4 main_call4.v5 subf,
    TRef.binary main_call4.v5 main_call4.v5 main_call4.v6 mulf,
    TRef.unary (.of main_c_11 : StableHlo.TRef sig ⟨S_, .i32⟩) main_call4.v7 (sitofp .f32),
    TRef.nullary main_call4.cst_1 (constant S_ .f32 0x47C35000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S100000x128_S128_d0 h_S_),
    TRef.unary main_call4.v9 main_call4.v10 (broadcastInDim S1x128 ![1] bcast_S128_S1x128_1),
    TRef.unary main_call4.v8 main_call4.v11 (broadcastInDim S1x128 ![] bcast_S_S1x128),
    TRef.binary main_call4.v10 main_call4.v11 main_call4.v12 Host.divf,
    TRef.nullary main_call4.cst_3 (constant S_ .f32 0x00000000#32),
    TRef.binary main_call4.v8 main_call4.cst_3 main_call4.v13 (cmpf .ogt),
    TRef.nullary main_call4.cst_4 (constant S_ .f32 0x7FC00000#32),
    TRef.unary main_call4.cst_4 main_call4.call0.v0 id,
    TRef.unary main_call4.call0.v0 main_call4.call0.v1 (broadcastInDim S1x128 ![] bcast_S_S1x128),
    TRef.ternary main_call4.v13 main_call4.v12 main_call4.call0.v1 main_call4.call0.v2 (fun p a b => select (broadcastInDim S1x128 ![] bcast_S_S1x128 p) a b) ]

/-- The normalization: the deviation from the column mean over the root of the variance plus the small constant, scaled and shifted by the two halves of the conditioning (%79 … %87). 10 operations. -/
abbrev opsF : List (HloOp τ sig (Elt F)) :=
  [ unary main_v77 main_v79 (broadcastInDim S100000x128 ![0, 1] bcast_S1x128_S100000x128_0_1 : (⟨S1x128, .f32⟩ : BufTy).Contents (Elt F) → (⟨S100000x128, .f32⟩ : BufTy).Contents (Elt F)),
    binary main_v67 main_v79 main_v80 (subf : (⟨S100000x128, .f32⟩ : BufTy).Contents (Elt F) → (⟨S100000x128, .f32⟩ : BufTy).Contents (Elt F) → (⟨S100000x128, .f32⟩ : BufTy).Contents (Elt F)),
    nullary main_cst_12 (constant S_ .f32 0x3727C5AC#32),
    unary main_cst_12 main_v81 (broadcastInDim S1x128 ![] bcast_S_S1x128 : (⟨S_, .f32⟩ : BufTy).Contents (Elt F) → (⟨S1x128, .f32⟩ : BufTy).Contents (Elt F)),
    binary main_v78 main_v81 main_v82 (addf : (⟨S1x128, .f32⟩ : BufTy).Contents (Elt F) → (⟨S1x128, .f32⟩ : BufTy).Contents (Elt F) → (⟨S1x128, .f32⟩ : BufTy).Contents (Elt F)),
    unary main_v82 main_v83 (Host.sqrt : (⟨S1x128, .f32⟩ : BufTy).Contents (Elt F) → (⟨S1x128, .f32⟩ : BufTy).Contents (Elt F)),
    unary main_v83 main_v84 (broadcastInDim S100000x128 ![0, 1] bcast_S1x128_S100000x128_0_1 : (⟨S1x128, .f32⟩ : BufTy).Contents (Elt F) → (⟨S100000x128, .f32⟩ : BufTy).Contents (Elt F)),
    binary main_v80 main_v84 main_v85 (Host.divf : (⟨S100000x128, .f32⟩ : BufTy).Contents (Elt F) → (⟨S100000x128, .f32⟩ : BufTy).Contents (Elt F) → (⟨S100000x128, .f32⟩ : BufTy).Contents (Elt F)),
    binary main_v72 main_v85 main_v86 (mulf : (⟨S100000x128, .f32⟩ : BufTy).Contents (Elt F) → (⟨S100000x128, .f32⟩ : BufTy).Contents (Elt F) → (⟨S100000x128, .f32⟩ : BufTy).Contents (Elt F)),
    binary main_v86 main_v73 main_v87 (addf : (⟨S100000x128, .f32⟩ : BufTy).Contents (Elt F) → (⟨S100000x128, .f32⟩ : BufTy).Contents (Elt F) → (⟨S100000x128, .f32⟩ : BufTy).Contents (Elt F)) ]

/-- @main's 131 operations, in order. -/
abbrev ops : List (HloOp τ sig (Elt F)) :=
  opsA ++ opsD ++ opsE ++ opsM ++ opsS ++ opsO ++ opsG ++ opsMu ++ opsV ++ opsF

/-! ## Every operation touches TensorCore references only -/

theorem opsA_sub : (opsA : List (HloOp τ sig (Elt F))).Forall fun op => op.bufs ⊆ tcRefs τ sig :=
  ⟨unary_bufs_sub .., reshape_bufs_sub .., unary_bufs_sub .., reshape_bufs_sub ..⟩

theorem opsD_sub : (opsD : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub ..⟩

theorem opsE_sub : (opsE : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

theorem opsM_sub : (opsM : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub ..⟩

theorem opsS_sub : (opsS : List (HloOp τ sig (Elt F))).Forall fun op => op.bufs ⊆ tcRefs τ sig :=
  ⟨nullary_bufs_sub .., unary_bufs_sub .., unary_bufs_sub .., ternary_bufs_sub ..⟩

theorem opsO_sub : (opsO : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub ..⟩

theorem opsG_sub : (opsG : List (HloOp τ sig (Elt F))).Forall fun op => op.bufs ⊆ tcRefs τ sig :=
  ⟨binary_bufs_sub .., unary_bufs_sub .., unary_bufs_sub .., binary_bufs_sub .., unary_bufs_sub .., unary_bufs_sub ..⟩

theorem opsMu_sub : (opsMu : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub ..⟩

theorem opsV_sub : (opsV : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩

theorem opsF_sub : (opsF : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub .., binary_bufs_sub .., binary_bufs_sub ..⟩

/-! ## @main is that straight line -/

set_option maxRecDepth 8192 in
set_option maxHeartbeats 4000000 in
/-- @main is the straight line of `ops`: the two windows in order, each callee's definition unfolded at its call and
    the call's record at its fields; once sequencing is re-associated (`bind_assoc`, `pure_bind`) and the
    concatenation of the segments is read as one list, both sides are one chain of `hlo` steps. -/
theorem main_eq (c : Dev nD) : main (F := F) c = seq ops := by
  simp only [main, main_part0, main_part1, fn_relu.body, fn_relu_0.body, fn_where.body, fn_where_1.body, fn_var.body,
    ops, opsA, opsD, opsE, opsM, opsS, opsO, opsG, opsMu, opsV, opsF, List.cons_append, List.nil_append, seq, bind_assoc, pure_bind]

/-! ## The run -/

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.2 ⟨List.forall_append.2 ⟨List.forall_append.2 ⟨List.forall_append.2 ⟨List.forall_append.2 ⟨List.forall_append.2 ⟨List.forall_append.2 ⟨List.forall_append.2 ⟨List.forall_append.2 ⟨opsA_sub, opsD_sub⟩, opsE_sub⟩, opsM_sub⟩, opsS_sub⟩, opsO_sub⟩, opsG_sub⟩, opsMu_sub⟩, opsV_sub⟩, opsF_sub⟩

/-- The fold over @main's operations is the ten segments' folds, one after the other. -/
theorem after_ops (V : Valuation τ sig (Elt F)) :
    after ops V = after opsF (after opsV (after opsMu (after opsG (after opsO (after opsS (after opsM (after opsE (after opsD (after opsA V))))))))) := by
  simp only [ops, after_append]

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.HandRun

end
-- ==== Proof.RefKeep.lean ====
/-
  No operation of the reference program writes one of its sixteen argument arrays: after the whole line of
  operations each argument buffer holds what it held at launch.
-/
import proofs.«150243_j31774168056051_1_alg».proof.Proof.RefRun

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Read a buffer through the segments: each operation's result at its own buffer, anything else passed through. -/
macro "read_fold" : tactic =>
  `(tactic| (simp only [opsA, opsD, opsE, opsM, opsS, opsO, opsG, opsMu, opsV, opsF]
             after_results_simp))

theorem keep_arg0 (V : Valuation τ sig (Elt F)) : after ops V (main_arg0 : DevRef τ sig) = V (main_arg0 : DevRef τ sig) := by
  rw [after_ops]; read_fold
theorem keep_arg1 (V : Valuation τ sig (Elt F)) : after ops V (main_arg1 : DevRef τ sig) = V (main_arg1 : DevRef τ sig) := by
  rw [after_ops]; read_fold
theorem keep_arg2 (V : Valuation τ sig (Elt F)) : after ops V (main_arg2 : DevRef τ sig) = V (main_arg2 : DevRef τ sig) := by
  rw [after_ops]; read_fold
theorem keep_arg3 (V : Valuation τ sig (Elt F)) : after ops V (main_arg3 : DevRef τ sig) = V (main_arg3 : DevRef τ sig) := by
  rw [after_ops]; read_fold
theorem keep_arg4 (V : Valuation τ sig (Elt F)) : after ops V (main_arg4 : DevRef τ sig) = V (main_arg4 : DevRef τ sig) := by
  rw [after_ops]; read_fold
theorem keep_arg5 (V : Valuation τ sig (Elt F)) : after ops V (main_arg5 : DevRef τ sig) = V (main_arg5 : DevRef τ sig) := by
  rw [after_ops]; read_fold
theorem keep_arg6 (V : Valuation τ sig (Elt F)) : after ops V (main_arg6 : DevRef τ sig) = V (main_arg6 : DevRef τ sig) := by
  rw [after_ops]; read_fold
theorem keep_arg7 (V : Valuation τ sig (Elt F)) : after ops V (main_arg7 : DevRef τ sig) = V (main_arg7 : DevRef τ sig) := by
  rw [after_ops]; read_fold
theorem keep_arg8 (V : Valuation τ sig (Elt F)) : after ops V (main_arg8 : DevRef τ sig) = V (main_arg8 : DevRef τ sig) := by
  rw [after_ops]; read_fold
theorem keep_arg9 (V : Valuation τ sig (Elt F)) : after ops V (main_arg9 : DevRef τ sig) = V (main_arg9 : DevRef τ sig) := by
  rw [after_ops]; read_fold
theorem keep_arg10 (V : Valuation τ sig (Elt F)) : after ops V (main_arg10 : DevRef τ sig) = V (main_arg10 : DevRef τ sig) := by
  rw [after_ops]; read_fold
theorem keep_arg11 (V : Valuation τ sig (Elt F)) : after ops V (main_arg11 : DevRef τ sig) = V (main_arg11 : DevRef τ sig) := by
  rw [after_ops]; read_fold
theorem keep_arg12 (V : Valuation τ sig (Elt F)) : after ops V (main_arg12 : DevRef τ sig) = V (main_arg12 : DevRef τ sig) := by
  rw [after_ops]; read_fold
theorem keep_arg13 (V : Valuation τ sig (Elt F)) : after ops V (main_arg13 : DevRef τ sig) = V (main_arg13 : DevRef τ sig) := by
  rw [after_ops]; read_fold
theorem keep_arg14 (V : Valuation τ sig (Elt F)) : after ops V (main_arg14 : DevRef τ sig) = V (main_arg14 : DevRef τ sig) := by
  rw [after_ops]; read_fold
theorem keep_arg15 (V : Valuation τ sig (Elt F)) : after ops V (main_arg15 : DevRef τ sig) = V (main_arg15 : DevRef τ sig) := by
  rw [after_ops]; read_fold

end Cert.ReferenceIdeal.HandRun

end
-- ==== Proof.KRun.lean ====
/- The kernel program's run with its result named: at the compiled mesh, from any memory with zero counters, every
   weakly fair execution of @main on the TensorCores terminates, nothing faulting, and every final state has the
   result array `main_v47` at the last boundary's contents `W9` — the fold of the host stretches' results and the
   regions' write-backs from the launch memory — and each of the sixteen argument arrays as launched. -/
import proofs.«150243_j31774168056051_1_alg».proof.Proof.Gen.KernelIdeal.Frame

set_option maxRecDepth 16384

noncomputable section

namespace Cert.KernelIdeal.HandRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the nine segments from the launch memory, read at the end against the final state: every unscoped
    TensorCore buffer is at the last boundary's contents `W9 m ρ c`. Kept of that: the result buffer `main_v47`
    at `W9`, and each argument buffer, which no segment writes, at its launch contents. -/
theorem run_main : θ_run defs (onTc (τ := τ) (main (F := F))) ⟨m, fun _ => 0, ρ⟩ (fun r => ∀ c : Dev nD,
      r.2.mem ((c.tc : Thread nD τ).loc main_v47) = W9 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v47 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c)⟩)

end Cert.KernelIdeal.HandRun

end
-- ==== Proof.Spec.lean ====
/-
  The four dense stages of the network, each as ONE function of whole arrays, written with the host's
  operations (the product of a whole matrix with a weight matrix, a bias row added to every row, the
  positive part, tanh, the leaky slope, the style affine and the normalisation):
  * `delta`  : tanh (relu (h · W₁ + b₁) · W₂ + b₂), one 3-vector per node;
  * `msg`    : relu (e · W_f + b_f), one 128-vector per edge;
  * `outraw` : leaky (relu (a · W₁ + b₁) · W₂ + b₂ + h), slope 0.2 on the negative side;
  * `adainR` : γ · ((o − μ) / √(v + ε)) + β, with (γ | β) = style · W_s + b_s split at column 128;
  * `adainK` : the same with the product by (v + ε)^(-1/2) in place of the quotient by the root.
  The two normalisations agree wherever v + ε is positive (`adain_eq`), in particular when v is a
  mean of squares.
-/
import proofs.«150243_j31774168056051_1_alg».proof.Proof.Gen.ReferenceIdeal
import Idealize.ShloMosaic.PureOps.Ideal

noncomputable section

namespace Cert.Spec

open Idealize.ShloMosaic Cert.ReferenceIdeal Cert.ReferenceIdeal.Facts₀

/-- A float array of shape `S` over the extended reals. -/
abbrev A (S : Shape) := FVec Ideal S .f32

/-- A bias row of 128 entries added to each of 100000 rows. -/
def rows100 (b : A S128) : A S100000x128 :=
  broadcastInDim S100000x128 ![0, 1] bcast_S1x128_S100000x128_0_1 (broadcastInDim S1x128 ![1] bcast_S128_S1x128_1 b)

/-- The array of zeros, 100000 × 128. -/
def zeros100 : A S100000x128 :=
  broadcastInDim S100000x128 ![] bcast_S_S100000x128 (constant (F := Ideal) S_ .f32 0x00000000#32)

/-- Node offsets: tanh (relu (h · W₁ + b₁) · W₂ + b₂). -/
def delta (h : A S100000x128) (W1 : A S128x128) (b1 : A S128) (W2 : A S128x3) (b2 : A S3) : A S100000x3 :=
  Host.tanh (addf
    (Host.dotGeneral dot_S100000x128_S128x3_S100000x3_1_0_0_1_n_n none
      (maximumf (addf (Host.dotGeneral dot_S100000x128_S128x128_S100000x128_1_0_0_1_n_n none h W1) (rows100 b1)) zeros100) W2)
    (broadcastInDim S100000x3 ![0, 1] bcast_S1x3_S100000x3_0_1 (broadcastInDim S1x3 ![1] bcast_S3_S1x3_1 b2)))

/-- Edge messages: relu (e · W_f + b_f). -/
def msg (e : A S1600000x131) (Wf : A S131x128) (bf : A S128) : A S1600000x128 :=
  maximumf
    (addf (Host.dotGeneral dot_S1600000x131_S131x128_S1600000x128_1_0_0_1_n_n none e Wf)
      (broadcastInDim S1600000x128 ![0, 1] bcast_S1x128_S1600000x128_0_1 (broadcastInDim S1x128 ![1] bcast_S128_S1x128_1 bf)))
    (broadcastInDim S1600000x128 ![] bcast_S_S1600000x128 (constant (F := Ideal) S_ .f32 0x00000000#32))

/-- The residual sum before the slope: relu (a · W₁ + b₁) · W₂ + b₂ + h. -/
def pre (a h : A S100000x128) (W1 : A S128x128) (b1 : A S128) (W2 : A S128x128) (b2 : A S128) : A S100000x128 :=
  addf (addf
    (Host.dotGeneral dot_S100000x128_S128x128_S100000x128_1_0_0_1_n_n none
      (maximumf (addf (Host.dotGeneral dot_S100000x128_S128x128_S100000x128_1_0_0_1_n_n none a W1) (rows100 b1)) zeros100) W2)
    (rows100 b2)) h

/-- The leaky slope: x where x ≥ 0, 0.2 · x elsewhere. -/
def leaky (x : A S100000x128) : A S100000x128 :=
  select (cmpf .oge x zeros100)
    x (mulf (broadcastInDim S100000x128 ![] bcast_S_S100000x128 (constant (F := Ideal) S_ .f32 0x3E4CCCCD#32)) x)

/-- Node features before normalisation. -/
def outraw (a h : A S100000x128) (W1 : A S128x128) (b1 : A S128) (W2 : A S128x128) (b2 : A S128) : A S100000x128 :=
  leaky (pre a h W1 b1 W2 b2)

/-- The style affine, both halves side by side: style · W_s + b_s. -/
def affine (style : A S100000x128) (Ws : A S128x256) (bs : A S256) : A S100000x256 :=
  addf (Host.dotGeneral dot_S100000x128_S128x256_S100000x256_1_0_0_1_n_n none style Ws)
    (broadcastInDim S100000x256 ![0, 1] bcast_S1x256_S100000x256_0_1 (broadcastInDim S1x256 ![1] bcast_S256_S1x256_1 bs))

/-- A 1 × 128 row repeated over 100000 rows. -/
def rep (r : A S1x128) : A S100000x128 := broadcastInDim S100000x128 ![0, 1] bcast_S1x128_S100000x128_0_1 r

/-- v + ε, ε the single-precision 1e-5. -/
def shifted (v : A S1x128) : A S1x128 :=
  addf v (broadcastInDim S1x128 ![] bcast_S_S1x128 (constant (F := Ideal) S_ .f32 0x3727C5AC#32))

/-- γ · ((o − μ) / √(v + ε)) + β. -/
def adainR (o style : A S100000x128) (Ws : A S128x256) (bs : A S256) (mu v : A S1x128) : A S100000x128 :=
  addf (mulf (extractStridedSlice S100000x128 ![0, 0] (affine style Ws bs) slices_S100000x256_S100000x128_0_0)
      (Host.divf (subf o (rep mu)) (rep (Host.sqrt (shifted v)))))
    (extractStridedSlice S100000x128 ![0, 128] (affine style Ws bs) slices_S100000x256_S100000x128_0_128)

/-- γ · ((o − μ) · (v + ε)^(-1/2)) + β. -/
def adainK (o style : A S100000x128) (Ws : A S128x256) (bs : A S256) (mu v : A S1x128) : A S100000x128 :=
  addf (mulf (extractStridedSlice S100000x128 ![0, 0] (affine style Ws bs) slices_S100000x256_S100000x128_0_0)
      (mulf (subf o (rep mu)) (rep (Host.rsqrt (shifted v)))))
    (extractStridedSlice S100000x128 ![0, 128] (affine style Ws bs) slices_S100000x256_S100000x128_0_128)

end Cert.Spec

end
-- ==== Proof.LibTile.lean ====
/-
  Row tiles. A T × C array `x` is the tile of an M × C array `X` at row offset r0 when x (p, l) = X (r0 + p, l).
  The operations of a dense layer keep that relation, the tile's side written with a kernel's vector operations
  and the whole array's side with the host's: a product with a weight matrix (row r0 + p of X · W only reads
  row r0 + p of X), a bias row added to every row, a splat constant, the pointwise operations, a comparison
  feeding a select, a change of float format (the identity on the extended reals), a column slice, and a
  1 × C row repeated down the rows. A layer's output tile is then the tile of the layer's whole output by
  composing these, one step per operation.
-/
import Idealize.ShloMosaic.PureOps.Ideal.Laws
import Idealize.ShloMosaic.Lib.ValueIdx
import Idealize.ShloMosaic.Lib.Pipeline.Value

noncomputable section

namespace Cert.Tile

open Idealize.ShloMosaic Idealize.ShloMosaic.ValueIdx

/-- In a plain M×K by K×N product the left operand is read at (row of the result, k). -/
theorem plain_lhs {M K N : Nat} (j : (⟨2, ![M, N]⟩ : Shape).Idx) (k : (DotDims.plain M K N).contr.Idx) :
    (DotDims.plain M K N).lhsIdx j k = ix2 (j 0) (k ⟨0, Nat.one_pos⟩) := by
  funext a
  match a with
  | ⟨0, _⟩ => rfl
  | ⟨1, _⟩ => rfl

/-- … and the right operand at (k, column of the result). -/
theorem plain_rhs {M K N : Nat} (j : (⟨2, ![M, N]⟩ : Shape).Idx) (k : (DotDims.plain M K N).contr.Idx) :
    (DotDims.plain M K N).rhsIdx j k = ix2 (k ⟨0, Nat.one_pos⟩) (j 1) := by
  funext a
  match a with
  | ⟨0, _⟩ => rfl
  | ⟨1, _⟩ => rfl

/-- `x` is rows [r0, r0 + T) of `X`. -/
def IsTile {T M C : Nat} (r0 : Nat) (hr : r0 + T ≤ M) (x : (⟨2, ![T, C]⟩ : Shape).Idx → EReal)
    (X : (⟨2, ![M, C]⟩ : Shape).Idx → EReal) : Prop :=
  ∀ (p : Fin T) (l : Fin C), x (ix2 p l) = X (ix2 ⟨r0 + p.val, by omega⟩ l)

variable {T M : Nat} {r0 : Nat} {hr : r0 + T ≤ M}

/-- Row r0 + p of X · W is row p of (tile of X) · W: the contraction over k reads the same products. -/
theorem matmul {K N : Nat} {x : (⟨2, ![T, K]⟩ : Shape).Idx → EReal} {X : (⟨2, ![M, K]⟩ : Shape).Idx → EReal}
    (W : (⟨2, ![K, N]⟩ : Shape).Idx → EReal) (hx : IsTile r0 hr x X) :
    IsTile r0 hr (Ideal.matmul (DotDims.plain T K N) x W (fun _ => Ideal.ofBits .f32 0x00000000#32))
      (Ideal.matmul (DotDims.plain M K N) X W (fun _ => 0)) := by
  intro p q
  unfold Ideal.matmul
  rw [Ideal.ofBits_zero_f32]
  refine congrArg (fun s => (0 : EReal) + s) (Finset.sum_congr rfl fun k _ => ?_)
  have e1 := plain_lhs (K := K) (ix2 p q) k
  have e2 := plain_rhs (K := K) (ix2 p q) k
  have e3 : (DotDims.plain M K N).lhsIdx (ix2 ⟨r0 + p.val, by omega⟩ q) k = ix2 ⟨r0 + p.val, by omega⟩ (k ⟨0, Nat.one_pos⟩) :=
    plain_lhs (M := M) (K := K) (N := N) (ix2 ⟨r0 + p.val, by omega⟩ q) k
  have e4 : (DotDims.plain M K N).rhsIdx (ix2 ⟨r0 + p.val, by omega⟩ q) k = ix2 (k ⟨0, Nat.one_pos⟩) q :=
    plain_rhs (M := M) (K := K) (N := N) (ix2 ⟨r0 + p.val, by omega⟩ q) k
  exact congrArg₂ (· * ·) ((congrArg x e1).trans ((hx p _).trans (congrArg X e3.symm))) (congrArg W (e2.trans e4.symm))

/-- A bias of C entries, viewed 1 × C and repeated down T rows, against the same bias broadcast to 1 × C and then to
    M × C: both read entry l in column l. -/
theorem bias {C : Nat} (b : (⟨1, ![C]⟩ : Shape).Idx → EReal)
    (h1 : (⟨1, ![C]⟩ : Shape).ShapeCasts ⟨2, ![1, C]⟩) (h2 : (⟨2, ![1, C]⟩ : Shape).Broadcasts ⟨2, ![T, C]⟩)
    (g1 : (⟨1, ![C]⟩ : Shape).BroadcastsInDim ⟨2, ![1, C]⟩ ![1])
    (g2 : (⟨2, ![1, C]⟩ : Shape).BroadcastsInDim ⟨2, ![M, C]⟩ ![0, 1]) :
    IsTile r0 hr (broadcastTo ⟨2, ![T, C]⟩ (shapeCast ⟨2, ![1, C]⟩ b h1) h2)
      (broadcastInDim ⟨2, ![M, C]⟩ ![0, 1] g2 (broadcastInDim ⟨2, ![1, C]⟩ ![1] g1 b)) := by
  intro p l
  have hl := l.isLt
  have eL : broadcastTo ⟨2, ![T, C]⟩ (shapeCast ⟨2, ![1, C]⟩ b h1) h2 (ix2 p l) = b (ix1 l) := by
    refine (broadcastTo_apply _ h2 (ix2 p l) (ix2 ⟨0, Nat.one_pos⟩ l) fun a => ?_).trans ?_
    · match a with
      | ⟨0, _⟩ => rfl
      | ⟨1, _⟩ =>
        show l.val = if C = 1 then 0 else l.val
        split <;> omega
    · refine (shapeCast_apply b h1 (ix2 ⟨0, Nat.one_pos⟩ l) (ix1 l) ?_)
      rw [Shape.rowMajor_val_one, Shape.rowMajor_val_two]
      show l.val = 0 * C + l.val
      omega
  have eR : broadcastInDim ⟨2, ![M, C]⟩ ![0, 1] g2 (broadcastInDim ⟨2, ![1, C]⟩ ![1] g1 b) (ix2 ⟨r0 + p.val, by omega⟩ l) = b (ix1 l) := by
    refine (broadcastInDim_apply _ g2 _ (ix2 ⟨r0 + p.val, by omega⟩ l) (ix2 ⟨0, Nat.one_pos⟩ l) fun a => ?_).trans ?_
    · match a with
      | ⟨0, _⟩ => rfl
      | ⟨1, _⟩ =>
        show l.val = if C = 1 then 0 else l.val
        split <;> omega
    · refine (broadcastInDim_apply _ g1 b (ix2 ⟨0, Nat.one_pos⟩ l) (ix1 l) fun a => ?_)
      match a with
      | ⟨0, _⟩ =>
        show l.val = if C = 1 then 0 else l.val
        split <;> omega
  exact eL.trans eR.symm

/-- A splat of one value over the tile, against the same value broadcast over the whole array. -/
theorem splat {C : Nat} (v : EReal) (s : (⟨0, ![]⟩ : Shape).Idx → EReal) (hs : s ix0 = v)
    (g : (⟨0, ![]⟩ : Shape).BroadcastsInDim ⟨2, ![M, C]⟩ ![]) :
    IsTile r0 hr (broadcast ⟨2, ![T, C]⟩ v) (broadcastInDim ⟨2, ![M, C]⟩ ![] g s) := by
  intro p l
  show v = _
  rw [← hs]
  exact (broadcastInDim_apply _ g s _ ix0 fun a => a.elim0).symm

/-- A 1 × C row repeated down the tile's rows, against the same row repeated down the whole array's. -/
theorem rowRep {C : Nat} (r : (⟨2, ![1, C]⟩ : Shape).Idx → EReal)
    (h2 : (⟨2, ![1, C]⟩ : Shape).Broadcasts ⟨2, ![T, C]⟩)
    (g2 : (⟨2, ![1, C]⟩ : Shape).BroadcastsInDim ⟨2, ![M, C]⟩ ![0, 1]) :
    IsTile r0 hr (broadcastTo ⟨2, ![T, C]⟩ r h2) (broadcastInDim ⟨2, ![M, C]⟩ ![0, 1] g2 r) := by
  intro p l
  have hl := l.isLt
  have eL : broadcastTo ⟨2, ![T, C]⟩ r h2 (ix2 p l) = r (ix2 ⟨0, Nat.one_pos⟩ l) := by
    refine (broadcastTo_apply _ h2 (ix2 p l) (ix2 ⟨0, Nat.one_pos⟩ l) fun a => ?_)
    match a with
    | ⟨0, _⟩ => rfl
    | ⟨1, _⟩ =>
      show l.val = if C = 1 then 0 else l.val
      split <;> omega
  have eR : broadcastInDim ⟨2, ![M, C]⟩ ![0, 1] g2 r (ix2 ⟨r0 + p.val, by omega⟩ l) = r (ix2 ⟨0, Nat.one_pos⟩ l) := by
    refine (broadcastInDim_apply _ g2 _ (ix2 ⟨r0 + p.val, by omega⟩ l) (ix2 ⟨0, Nat.one_pos⟩ l) fun a => ?_)
    match a with
    | ⟨0, _⟩ => rfl
    | ⟨1, _⟩ =>
      show l.val = if C = 1 then 0 else l.val
      split <;> omega
  exact eL.trans eR.symm

section Pointwise
variable {C : Nat} {x y : (⟨2, ![T, C]⟩ : Shape).Idx → EReal} {X Y : (⟨2, ![M, C]⟩ : Shape).Idx → EReal}

/-- An operation applied entry by entry keeps tiles. -/
theorem map (f : EReal → EReal) (hx : IsTile r0 hr x X) : IsTile r0 hr (fun i => f (x i)) (fun i => f (X i)) :=
  fun p l => congrArg f (hx p l)

/-- A two-operand operation applied entry by entry keeps tiles. -/
theorem map₂ (f : EReal → EReal → EReal) (hx : IsTile r0 hr x X) (hy : IsTile r0 hr y Y) :
    IsTile r0 hr (fun i => f (x i) (y i)) (fun i => f (X i) (Y i)) :=
  fun p l => congrArg₂ f (hx p l) (hy p l)

/-- A comparison of two tiles choosing between two others, entry by entry. -/
theorem sel {u v : (⟨2, ![T, C]⟩ : Shape).Idx → EReal} {U V : (⟨2, ![M, C]⟩ : Shape).Idx → EReal}
    (f : EReal → EReal → EReal → EReal → EReal)
    (hx : IsTile r0 hr x X) (hy : IsTile r0 hr y Y) (hu : IsTile r0 hr u U) (hv : IsTile r0 hr v V) :
    IsTile r0 hr (fun i => f (x i) (y i) (u i) (v i)) (fun i => f (X i) (Y i) (U i) (V i)) :=
  fun p l => by show f _ _ _ _ = f _ _ _ _; rw [hx p l, hy p l, hu p l, hv p l]

end Pointwise

/-- Columns [o, o + C) of a tile are the tile of the same columns of the whole array. -/
theorem cols {C D : Nat} (o : Nat) {x : (⟨2, ![T, D]⟩ : Shape).Idx → EReal} {X : (⟨2, ![M, D]⟩ : Shape).Idx → EReal}
    (h : (⟨2, ![T, D]⟩ : Shape).Slices ![0, o] ⟨2, ![T, C]⟩) (g : (⟨2, ![M, D]⟩ : Shape).Slices ![0, o] ⟨2, ![M, C]⟩)
    (hx : IsTile r0 hr x X) :
    IsTile r0 hr (extractStridedSlice ⟨2, ![T, C]⟩ ![0, o] x h) (extractStridedSlice ⟨2, ![M, C]⟩ ![0, o] X g) := by
  intro p l
  have hD : o + l.val < D := by
    have h2 : o + C ≤ D := h.2 (1 : Fin 2)
    have hl := l.isLt
    omega
  have eL : extractStridedSlice ⟨2, ![T, C]⟩ ![0, o] x h (ix2 p l) = x (ix2 p ⟨o + l.val, hD⟩) := by
    refine extractStridedSlice_apply _ x h (ix2 p l) (ix2 p ⟨o + l.val, hD⟩) fun a => ?_
    match a with
    | ⟨0, _⟩ => show p.val = 0 + p.val; omega
    | ⟨1, _⟩ => rfl
  have eR : extractStridedSlice ⟨2, ![M, C]⟩ ![0, o] X g (ix2 ⟨r0 + p.val, by omega⟩ l) = X (ix2 ⟨r0 + p.val, by omega⟩ ⟨o + l.val, hD⟩) := by
    refine extractStridedSlice_apply _ X g _ (ix2 ⟨r0 + p.val, by omega⟩ ⟨o + l.val, hD⟩) fun a => ?_
    match a with
    | ⟨0, _⟩ => show r0 + p.val = 0 + (r0 + p.val); omega
    | ⟨1, _⟩ => rfl
  exact eL.trans ((hx p _).trans eR.symm)

end Cert.Tile

end
-- ==== Proof.Region0.lean ====
/-
  The first dense stage: each grid point takes 5000 rows of the node features h, multiplies by W₁, adds b₁, keeps the
  positive part, multiplies by W₂, adds b₂ and applies tanh; the point's block of the output is rows [5000 t, 5000 t + 5000)
  of tanh (relu (h · W₁ + b₁) · W₂ + b₂) over the whole array, because each step only reads the matching rows. The twenty
  blocks cover the 100000 rows, so the output array after the run is that function of the arrays the stage finds.
-/
import proofs.«150243_j31774168056051_1_alg».proof.Proof.Gen.KernelIdeal.Frame
import proofs.«150243_j31774168056051_1_alg».proof.Proof.Spec
import proofs.«150243_j31774168056051_1_alg».proof.Proof.LibTile
import Idealize.ShloMosaic.Lib.ValueIdx
import Idealize.ShloMosaic.Lib.Pipeline.Value
import Idealize.ShloMosaic.PureOps.Ideal.Laws

set_option maxRecDepth 16384

noncomputable section

namespace Cert.KernelIdeal.Region0

open Idealize.ShloMosaic Idealize.ShloMosaic.TcCoe Idealize.SL.Sem Idealize.ShloMosaic.ValueIdx
open Cert.KernelIdeal Cert.KernelIdeal.Gen
open Idealize.ShloMosaic.Pipeline (Dat Cfg Window)
open Cert.Tile

/-- The body's value on a row tile of h is the row tile of the whole-array function. -/
theorem pay_tile {r0 : Nat} {hr : r0 + 5000 ≤ 100000} (x0 : Vec Ideal S5000x128 .f32) (X : Cert.Spec.A Cert.ReferenceIdeal.S100000x128)
    (W1 : Vec Ideal S128x128 .f32) (b1 : Vec Ideal S128 .f32) (W2 : Vec Ideal S128x3 .f32) (b2 : Vec Ideal S3 .f32)
    (hx : IsTile r0 hr x0 X) :
    IsTile r0 hr (k0_pay1 (F := Ideal) x0 W1 b1 W2 b2) (Cert.Spec.delta X W1 b1 W2 b2) := by
  unfold k0_pay1 Cert.Spec.delta Cert.Spec.rows100 Cert.Spec.zeros100
  exact Tile.map Ideal.tanh (Tile.map₂ (· + ·)
    (Tile.matmul W2 (Tile.map₂ max (Tile.map₂ (· + ·) (Tile.matmul W1 hx) (Tile.bias b1 _ _ _ _)) (Tile.splat (Ideal.ofBits .f32 0x00000000#32) (constant (F := Ideal) Cert.ReferenceIdeal.S_ .f32 0x00000000#32) rfl _)))
    (Tile.bias b2 _ _ _ _))

theorem hz2 : (![0, 0] : Fin 2 → Nat) = fun _ => 0 := funext fun a => by fin_cases a <;> rfl
theorem hz1 : (![0] : Fin 1 → Nat) = fun _ => 0 := funext fun a => by fin_cases a <;> rfl

/-- The index maps over the grid: the tiled windows sit at block row t, everything else at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

section
variable (V : (c : Dev nD) → (b : Ref sig .tc) → Buf (Elt Ideal) ((c : Thread nD τ).loc b)) (c : Dev nD)

/-- The whole-array function the stage computes, of the arrays it finds. -/
abbrev G : Buf (Elt Ideal) ((c : Thread nD τ).loc main_v4) :=
  Cert.Spec.delta (V c main_arg0) (V c main_arg4) (V c main_arg5) (V c main_arg6) (V c main_arg7)

/-- What point t writes back is block t of that function. -/
theorem flushed_eq (t : Fin cfg0.N) :
    (dat0 (F := Ideal) V c).flushed 5 t = ((cfg0.win 5).blk t).view.read (Elt Ideal) (G V c) := by
  show (cfg0.win 5).cut (grid0.coords t) ((dat0 V c).after 5 t) = _
  rw [after0_5]
  unfold out0_5
  rw [View.canon_unit_zero hz2]
  simp only [View.ld_unit_zero (S := S5000x128) hz2, View.ld_unit_zero (S := S128x128) hz2, View.ld_unit_zero (S := S128) hz1,
    View.ld_unit_zero (S := S128x3) hz2, View.ld_unit_zero (S := S3) hz1]
  obtain ⟨e00, e01, e10, e11, e20, e30, e31, e40, e50, e51⟩ := idx_facts t
  have hN : t.val < 20 := lt_of_lt_of_eq t.isLt N_0
  funext j
  show k0_pay1 (iblk0 V c 0 t) (iblk0 V c 1 t) (iblk0 V c 2 t) (iblk0 V c 3 t) (iblk0 V c 4 t) j
      = G V c (((cfg0.win 5).blk t).view.emb j)
  have hj0 : (j 0).val < 5000 := (j 0).isLt
  have hj1 : (j 1).val < 3 := (j 1).isLt
  -- the weights and biases are whole blocks
  have w1 : iblk0 V c 1 t = V c main_arg4 := by
    funext y
    show V c main_arg4 (((cfg0.win 1).blk t).view.emb y) = V c main_arg4 y
    refine congrArg _ (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  have w2 : iblk0 V c 2 t = V c main_arg5 := by
    funext y
    show V c main_arg5 (((cfg0.win 2).blk t).view.emb y) = V c main_arg5 y
    refine congrArg _ (funext fun a => Fin.ext ?_)
    match a with
    | ⟨0, _⟩ => show win0_2.index t (0 : Fin 1) * 128 + 1 * (y 0).val = (y 0).val; omega
  have w3 : iblk0 V c 3 t = V c main_arg6 := by
    funext y
    show V c main_arg6 (((cfg0.win 3).blk t).view.emb y) = V c main_arg6 y
    refine congrArg _ (funext fun a => Fin.ext ?_)
    match a with
    | ⟨0, _⟩ => show win0_3.index t (0 : Fin 2) * 128 + 1 * (y 0).val = (y 0).val; omega
    | ⟨1, _⟩ => show win0_3.index t (1 : Fin 2) * 3 + 1 * (y 1).val = (y 1).val; omega
  have w4 : iblk0 V c 4 t = V c main_arg7 := by
    funext y
    show V c main_arg7 (((cfg0.win 4).blk t).view.emb y) = V c main_arg7 y
    refine congrArg _ (funext fun a => Fin.ext ?_)
    match a with
    | ⟨0, _⟩ => show win0_4.index t (0 : Fin 1) * 3 + 1 * (y 0).val = (y 0).val; omega
  have hr : t.val * 5000 + 5000 ≤ 100000 := by omega
  have hx : IsTile (t.val * 5000) hr (iblk0 V c 0 t) (V c main_arg0) := by
    intro p l
    show V c main_arg0 (((cfg0.win 0).blk t).view.emb (ix2 p l)) = V c main_arg0 (ix2 ⟨t.val * 5000 + p.val, by omega⟩ l)
    refine congrArg _ (funext fun a => Fin.ext ?_)
    match a with
    | ⟨0, _⟩ => show win0_0.index t (0 : Fin 2) * 5000 + 1 * p.val = t.val * 5000 + p.val; rw [e00]; omega
    | ⟨1, _⟩ => show win0_0.index t (1 : Fin 2) * 128 + 1 * l.val = l.val; omega
  rw [w1, w2, w3, w4]
  have key := pay_tile (iblk0 V c 0 t) (V c main_arg0) (V c main_arg4) (V c main_arg5) (V c main_arg6) (V c main_arg7) hx
    ⟨(j 0).val, hj0⟩ ⟨(j 1).val, hj1⟩
  have ej : j = ix2 (⟨(j 0).val, hj0⟩ : Fin 5000) (⟨(j 1).val, hj1⟩ : Fin 3) := by
    funext a
    match a with
    | ⟨0, _⟩ => rfl
    | ⟨1, _⟩ => rfl
  have ee : ((cfg0.win 5).blk t).view.emb j = ix2 (⟨t.val * 5000 + (j 0).val, by omega⟩ : Fin 100000) (⟨(j 1).val, hj1⟩ : Fin 3) := by
    funext a
    apply Fin.ext
    match a with
    | ⟨0, _⟩ => show win0_5.index t (0 : Fin 2) * 5000 + 1 * (j 0).val = t.val * 5000 + (j 0).val; rw [e50]; omega
    | ⟨1, _⟩ => show win0_5.index t (1 : Fin 2) * 3 + 1 * (j 1).val = (j 1).val; omega
  exact (congrArg _ ej).trans (key.trans (congrArg (G V c) ee.symm))

/-- An index of the array is in point t's block iff each coordinate is in the block's range on its axis. -/
theorem mem_blk (t : Fin cfg0.N) (i : S100000x3.Idx) :
    i ∈ ((cfg0.win 5).blk t).view.set ↔ ∀ a : Fin 2, win0_5.index t a * S5000x3.size a ≤ (i a).val ∧ (i a).val < win0_5.index t a * S5000x3.size a + S5000x3.size a := by
  show i ∈ ((View.whole main_v4).slice (win0_5.rect t)).set ↔ _
  rw [View.set_slice_whole, Rect.mem_set_unit]
  exact Iff.rfl

/-- Every block row is some point's. -/
theorem idx_onto : ∀ q : Fin 20, ∃ t : Fin cfg0.N, win0_5.index t = ![q.val, 0] :=
  (by decide +kernel : ∀ q : Fin 20, ∃ t : Fin grid0.N, win0_5.index t = ![q.val, 0])

/-- Row r lies in the block of point r / 5000: the blocks cover the array. -/
theorem cover (i : S100000x3.Idx) : ∃ t : Fin cfg0.N, (cfg0.win 5).flush t = true ∧ i ∈ ((cfg0.win 5).blk t).view.set := by
  have hi0 : (i 0).val < 100000 := (i 0).isLt
  have hi1 : (i 1).val < 3 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 3 ≤ (i 1).val ∧ (i 1).val < win0_5.index t (1 : Fin 2) * 3 + 3; omega

/-- The output array after the run is the whole-array function of the arrays the stage finds. -/
theorem final : (dat0 (F := Ideal) V c).arrAt 5 cfg0.N
    = Cert.Spec.delta (V c main_arg0) (V c main_arg4) (V c main_arg5) (V c main_arg6) (V c main_arg7) :=
  (dat0 V c).arrAt_eq_of_cover 5 (G V c) (fun t _ => flushed_eq V c t) cover

end

end Cert.KernelIdeal.Region0

end
-- ==== Proof.Region1.lean ====
/-
  The second dense stage (edge messages), as the row-tiled run leaves it: the output array after the run is
  relu (e · W_f + b_f) of the WHOLE arrays the region finds, `Cert.Spec.msg`.

  The grid has 125 points; point t reads rows [12800 t, 12800 (t + 1)) of the 1600000 × 131 input, the whole
  131 × 128 weight matrix and the whole bias, and writes rows [12800 t, 12800 (t + 1)) of the 1600000 × 128 output.
  * Entry (p, q) of what the body computes from a tile x, weights W and bias b is
    max (∑ₖ x[p, k] · W[k, q] + b[q]) 0 (`pay_apply`): the product into a zero accumulator is the plain sum over the
    contracted coordinate, the format changes are the identity on extended reals, the bias row is read at its column.
  * Entry (r, q) of the whole-array function is the same expression over the whole input's row r (`msg_apply`).
  * Row p of tile t is row 12800 t + p of the array, so the two agree entry by entry (`tile_eq`), hence what point t
    writes back is tile t of the whole-array function (`flushed_eq`).
  * The tiles cover the output (row r lies in tile r / 12800) and every point writes back, so the array ends as the
    whole-array function (`final`).
-/
import proofs.«150243_j31774168056051_1_alg».proof.Proof.Gen.KernelIdeal.Frame
import proofs.«150243_j31774168056051_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Region1

open Idealize.ShloMosaic Idealize.ShloMosaic.TcCoe Idealize.SL.Sem Idealize.ShloMosaic.ValueIdx Cert.KernelIdeal Cert.KernelIdeal.Gen
open Idealize.ShloMosaic.Pipeline (Dat Cfg Window)
open scoped BigOperators

/-! ## A plain matrix product read at an index

For dimension numbers that contract the left operand's axis 1 with the right operand's axis 0 (no batch axes), the
sum over the contraction index is the sum over the contracted coordinate of the products of the entries. -/

section Plain
variable {m k n : Nat}

/-- The contraction's sum, re-indexed by the contracted coordinate. -/
theorem sum_plain (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (a : Fin m) (b : Fin n) :
    (∑ c : (⟨[1], [0], [0], [1], [], [], w⟩ : DotDims ⟨2, ![m, k]⟩ ⟨2, ![k, n]⟩ ⟨2, ![m, n]⟩).contr.Idx,
        A ((⟨[1], [0], [0], [1], [], [], w⟩ : DotDims ⟨2, ![m, k]⟩ ⟨2, ![k, n]⟩ ⟨2, ![m, n]⟩).lhsIdx (ix2 a b) c)
          * B ((⟨[1], [0], [0], [1], [], [], w⟩ : DotDims ⟨2, ![m, k]⟩ ⟨2, ![k, n]⟩ ⟨2, ![m, n]⟩).rhsIdx (ix2 a b) c))
      = ∑ c : Fin k, A (ix2 a c) * B (ix2 c b) := by
  rw [← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The kernel's product into the zero accumulator, at an index. -/
theorem matmul_plain_apply {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply]
  exact sum_plain w A B a b

/-- The host's product, at an index. -/
theorem dotGeneral_plain_apply' {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec _ A B (ix2 a b) = _
  rw [Ideal.dotGeneral_apply]
  exact sum_plain w A B a b

end Plain

/-- The kernel's product of a row tile with the weights, at an index. -/
theorem mm_apply (A : FVec Ideal S12800x131 .bf16) (B : FVec Ideal S131x128 .bf16) (p : Fin 12800) (q : Fin 128) :
    matmul dot_S12800x131_S131x128_S12800x128_1_0_0_1_n_n none A B (constant S12800x128 .f32 0x00000000#32) (ix2 p q)
      = ∑ k : Fin 131, A (ix2 p k) * B (ix2 k q) :=
  matmul_plain_apply Gen.dot_S12800x131_S131x128_S12800x128_1_0_0_1_n_n_wf none A B p q

/-- The bias row, viewed [1,128] and repeated over the tile's rows, at an index. -/
theorem bias_apply (x2 : Vec Ideal S128 .f32) (p : Fin 12800) (q : Fin 128) :
    broadcastTo S12800x128 (shapeCast S1x128 x2 shapeCasts_S128_S1x128) broadcasts_S1x128_S12800x128 (ix2 p q) = x2 (ix1 q) := by
  refine (broadcastTo_apply _ _ (ix2 p q) (ix2 (0 : Fin 1) q) (fun a => ?_)).trans ?_
  · match a with
    | ⟨0, _⟩ => rfl
    | ⟨1, _⟩ => rfl
  · refine (shapeCast_addUnit_apply (n := 1) ![128] x2 _ (ix2 (0 : Fin 1) q)).trans ?_
    congr 1; funext a; match a with | ⟨0, _⟩ => rfl

/-- The body's payload at row p, column q of the tile: the positive part of the row's product with the weights'
    column plus the bias entry. -/
theorem pay_apply (x0 : Vec Ideal S12800x131 .bf16) (x1 : Vec Ideal S131x128 .f32) (x2 : Vec Ideal S128 .f32)
    (p : Fin 12800) (q : Fin 128) :
    k1_pay1 x0 x1 x2 (ix2 p q) = max ((∑ k : Fin 131, x0 (ix2 p k) * x1 (ix2 k q)) + x2 (ix1 q)) 0 := by
  unfold k1_pay1
  simp only [shapeCast_self]
  rw [maximumf_apply, addf_apply, broadcast_apply, mm_apply, bias_apply]
  show max _ (Ideal.ofBits .f32 0x00000000#32) = _
  rw [Ideal.ofBits_zero_f32]
  rfl

/-- The whole-array function at row r, column q: the same positive part, over the whole input's row r. -/
theorem msg_apply (e : Cert.Spec.A Cert.ReferenceIdeal.S1600000x131) (Wf : Cert.Spec.A Cert.ReferenceIdeal.S131x128)
    (bf : Cert.Spec.A Cert.ReferenceIdeal.S128) (r : Fin 1600000) (q : Fin 128) :
    Cert.Spec.msg e Wf bf (ix2 r q) = max ((∑ k : Fin 131, e (ix2 r k) * Wf (ix2 k q)) + bf (ix1 q)) 0 := by
  unfold Cert.Spec.msg
  rw [maximumf_apply, addf_apply]
  have hd : Host.dotGeneral Cert.ReferenceIdeal.dot_S1600000x131_S131x128_S1600000x128_1_0_0_1_n_n none e Wf (ix2 r q)
      = ∑ k : Fin 131, e (ix2 r k) * Wf (ix2 k q) :=
    dotGeneral_plain_apply' Cert.ReferenceIdeal.Facts₀.dot_S1600000x131_S131x128_S1600000x128_1_0_0_1_n_n_wf none e Wf r q
  have hb : broadcastInDim Cert.ReferenceIdeal.S1600000x128 ![0, 1] Cert.ReferenceIdeal.Facts₀.bcast_S1x128_S1600000x128_0_1
      (broadcastInDim Cert.ReferenceIdeal.S1x128 ![1] Cert.ReferenceIdeal.Facts₀.bcast_S128_S1x128_1 bf) (ix2 r q) = bf (ix1 q) := by
    refine (broadcastInDim_apply _ _ _ (ix2 r q) (ix2 (0 : Fin 1) q) (fun a => ?_)).trans ?_
    · match a with
      | ⟨0, _⟩ => rfl
      | ⟨1, _⟩ => rfl
    · refine broadcastInDim_apply _ _ _ (ix2 (0 : Fin 1) q) (ix1 q) (fun a => ?_)
      match a with
      | ⟨0, _⟩ => rfl
  have hz : broadcastInDim Cert.ReferenceIdeal.S1600000x128 ![] Cert.ReferenceIdeal.Facts₀.bcast_S_S1600000x128
      (constant (F := Ideal) Cert.ReferenceIdeal.S_ .f32 0x00000000#32) (ix2 r q) = 0 := by
    refine (broadcastInDim_apply _ _ _ (ix2 r q) ix0 (fun a => a.elim0)).trans ?_
    rw [constant_apply, Ideal.ofBits_zero_f32]
  rw [hd, hb, hz]

/-! ## The blocks -/

theorem hz : (![0, 0] : Fin 2 → Nat) = fun _ => 0 := funext fun a => by fin_cases a <;> rfl
theorem hz1 : (![0] : Fin 1 → Nat) = fun _ => 0 := funext fun a => by fin_cases a <;> rfl

/-- The index maps over the grid's 125 points: the input tile and the output tile are both row tile number t, the
    weights and the bias are the whole arrays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

theorem t_lt (t : Fin cfg1.N) : t.val < 125 := lt_of_lt_of_eq t.isLt N_1

/-- Row p of tile t is row 12800 t + p of the array. -/
def row (t : Fin cfg1.N) (p : Fin 12800) : Fin 1600000 :=
  ⟨t.val * 12800 + p.val, by have := t_lt t; have := p.isLt; omega⟩

/-- The input tile's index (p, k) in the whole input. -/
theorem emb0 (t : Fin cfg1.N) (p : Fin 12800) (k : Fin 131) :
    (((cfg1.win 0).blk t).view.emb (ix2 p k) : S1600000x131.Idx) = ix2 (row t p) k := by
  obtain ⟨e0, e1, -⟩ := idx_facts t
  funext a; apply Fin.ext
  match a with
  | ⟨0, _⟩ => show win1_0.index t (0 : Fin 2) * 12800 + 1 * p.val = t.val * 12800 + p.val; rw [e0]; omega
  | ⟨1, _⟩ => show win1_0.index t (1 : Fin 2) * 131 + 1 * k.val = k.val; rw [e1]; omega

/-- The weights' block is the whole weight matrix. -/
theorem emb1 (t : Fin cfg1.N) (k : Fin 131) (q : Fin 128) :
    (((cfg1.win 1).blk t).view.emb (ix2 k q) : S131x128.Idx) = ix2 k q := by
  obtain ⟨-, -, e2, e3, -⟩ := idx_facts t
  funext a; apply Fin.ext
  match a with
  | ⟨0, _⟩ => show win1_1.index t (0 : Fin 2) * 131 + 1 * k.val = k.val; rw [e2]; omega
  | ⟨1, _⟩ => show win1_1.index t (1 : Fin 2) * 128 + 1 * q.val = q.val; rw [e3]; omega

/-- The bias's block is the whole bias. -/
theorem emb2 (t : Fin cfg1.N) (q : Fin 128) :
    (((cfg1.win 2).blk t).view.emb (ix1 q) : S128.Idx) = ix1 q := by
  obtain ⟨-, -, -, -, e4, -⟩ := idx_facts t
  funext a; apply Fin.ext
  match a with
  | ⟨0, _⟩ => show win1_2.index t (0 : Fin 1) * 128 + 1 * q.val = q.val; rw [e4]; omega

/-- The output tile's index (p, q) in the whole output. -/
theorem emb3 (t : Fin cfg1.N) (p : Fin 12800) (q : Fin 128) :
    (((cfg1.win 3).blk t).view.emb (ix2 p q) : S1600000x128.Idx) = ix2 (row t p) q := by
  obtain ⟨-, -, -, -, -, e5, e6⟩ := idx_facts t
  funext a; apply Fin.ext
  match a with
  | ⟨0, _⟩ => show win1_3.index t (0 : Fin 2) * 12800 + 1 * p.val = t.val * 12800 + p.val; rw [e5]; omega
  | ⟨1, _⟩ => show win1_3.index t (1 : Fin 2) * 128 + 1 * q.val = q.val; rw [e6]; omega

section Region
variable (V : (c : Dev nD) → (b : Ref sig .tc) → Buf (Elt Ideal) ((c : Thread nD τ).loc b))

/-- The input tile at point t, read at (p, k), is the whole input at row 12800 t + p. -/
theorem iblk0_apply (c : Dev nD) (t : Fin cfg1.N) (p : Fin 12800) (k : Fin 131) :
    iblk1 V c 0 t (ix2 p k) = V c main_v36 (ix2 (row t p) k) := by
  unfold iblk1
  rw [View.read_apply]
  exact congrArg (V c main_v36) (emb0 t p k)

/-- The weights' block is the weight matrix. -/
theorem iblk1_apply (c : Dev nD) (t : Fin cfg1.N) (k : Fin 131) (q : Fin 128) :
    iblk1 V c 1 t (ix2 k q) = V c main_arg8 (ix2 k q) := by
  unfold iblk1
  rw [View.read_apply]
  exact congrArg (V c main_arg8) (emb1 t k q)

/-- The bias's block is the bias. -/
theorem iblk2_apply (c : Dev nD) (t : Fin cfg1.N) (q : Fin 128) :
    iblk1 V c 2 t (ix1 q) = V c main_arg9 (ix1 q) := by
  unfold iblk1
  rw [View.read_apply]
  exact congrArg (V c main_arg9) (emb2 t q)

/-- The payload of point t's blocks at (p, q) is the whole-array function at row 12800 t + p, column q. -/
theorem tile_eq (c : Dev nD) (t : Fin cfg1.N) (p : Fin 12800) (q : Fin 128) :
    k1_pay1 (iblk1 V c 0 t) (iblk1 V c 1 t) (iblk1 V c 2 t) (ix2 p q)
      = Cert.Spec.msg (V c main_v36) (V c main_arg8) (V c main_arg9) (ix2 (row t p) q) := by
  refine (pay_apply _ _ _ p q).trans ((msg_apply _ _ _ (row t p) q).trans ?_).symm
  rw [iblk2_apply V c t q]
  refine congrArg (fun s => max (s + V c main_arg9 (ix1 q)) 0) (Finset.sum_congr rfl fun k _ => ?_)
  rw [iblk0_apply V c t p k, iblk1_apply V c t k q]

/-- What point t writes back is tile t of the whole-array function of the arrays the region finds. -/
theorem flushed_eq (c : Dev nD) (t : Fin cfg1.N) :
    (dat1 V c).flushed 3 t
      = ((cfg1.win 3).blk t).view.read (Elt Ideal) (Cert.Spec.msg (V c main_v36) (V c main_arg8) (V c main_arg9)) := by
  show (cfg1.win 3).cut (grid1.coords t) ((dat1 V c).after 3 t) = _
  rw [after1_3]
  unfold out1_3
  rw [View.canon_unit_zero hz]
  simp only [View.ld_unit_zero (S := S12800x131) hz, View.ld_unit_zero (S := S131x128) hz, View.ld_unit_zero (S := S128) hz1]
  funext j
  obtain ⟨p, q, rfl⟩ : ∃ (p : Fin 12800) (q : Fin 128), j = ix2 p q := ⟨j 0, j 1, eq_ix2 j⟩
  rw [View.read_apply]
  show k1_pay1 (iblk1 V c 0 t) (iblk1 V c 1 t) (iblk1 V c 2 t) (ix2 p q)
    = Cert.Spec.msg (V c main_v36) (V c main_arg8) (V c main_arg9) (((cfg1.win 3).blk t).view.emb (ix2 p q))
  rw [emb3 t p q]
  exact tile_eq V c t p q

end Region

/-! ## The cover and the array after the run -/

/-- An index of the output array is in point t's block iff each coordinate is in the block's range on its axis. -/
theorem mem_blk (t : Fin cfg1.N) (i : S1600000x128.Idx) :
    i ∈ ((cfg1.win 3).blk t).view.set ↔ ∀ a : Fin 2, win1_3.index t a * S12800x128.size a ≤ (i a).val
      ∧ (i a).val < win1_3.index t a * S12800x128.size a + S12800x128.size a := by
  show i ∈ ((View.whole main_v37).slice (win1_3.rect t)).set ↔ _
  rw [View.set_slice_whole, Rect.mem_set_unit]
  exact Iff.rfl

/-- Every row r of the output is in the tile of point r / 12800, and every point writes its tile back. -/
theorem cover (i : S1600000x128.Idx) :
    ∃ t : Fin cfg1.N, (cfg1.win 3).flush t = true ∧ i ∈ ((cfg1.win 3).blk t).view.set := by
  have hi0 : (i 0).val < 1600000 := (i 0).isLt
  have hi1 : (i 1).val < 128 := (i 1).isLt
  have ht : (i 0).val / 12800 < cfg1.N := by
    rw [show cfg1.N = 125 from N_1]; omega
  obtain ⟨-, -, -, -, -, e5, e6⟩ := idx_facts ⟨(i 0).val / 12800, ht⟩
  have e5' : win1_3.index ⟨(i 0).val / 12800, ht⟩ (0 : Fin 2) = (i 0).val / 12800 := e5
  refine ⟨⟨(i 0).val / 12800, ht⟩, flush1_3 _, ?_⟩
  rw [mem_blk]
  intro a
  match a with
  | ⟨0, _⟩ =>
    show win1_3.index ⟨(i 0).val / 12800, ht⟩ (0 : Fin 2) * 12800 ≤ (i 0).val
      ∧ (i 0).val < win1_3.index ⟨(i 0).val / 12800, ht⟩ (0 : Fin 2) * 12800 + 12800
    rw [e5']; omega
  | ⟨1, _⟩ =>
    show win1_3.index ⟨(i 0).val / 12800, ht⟩ (1 : Fin 2) * 128 ≤ (i 1).val
      ∧ (i 1).val < win1_3.index ⟨(i 0).val / 12800, ht⟩ (1 : Fin 2) * 128 + 128
    rw [e6]; omega

/-- THE OUTPUT ARRAY after the run: the whole-array function of the arrays the region finds. -/
theorem final (V : (c : Dev nD) → (b : Ref sig .tc) → Buf (Elt Ideal) ((c : Thread nD τ).loc b)) (c : Dev nD) :
    (Gen.dat1 (F := Ideal) V c).arrAt 3 cfg1.N = Cert.Spec.msg (V c main_v36) (V c main_arg8) (V c main_arg9) :=
  (dat1 V c).arrAt_eq_of_cover 3 (Cert.Spec.msg (V c main_v36) (V c main_arg8) (V c main_arg9))
    (fun t _ => flushed_eq V c t) cover

end Cert.KernelIdeal.Region1

end
-- ==== Proof.Region2.lean ====
/-
  The third kernel call (the residual two-layer perceptron with the leaky slope) as ONE function of whole arrays.
  The call runs over 20 row tiles of 5000 rows. On a tile, the body's value at (p, q) only reads row p of the two
  tiled inputs: each dense layer is a product with a 128 × 128 weight matrix whose row p is a sum over the 128
  columns of row p of the operand, a bias row is the same in every row, and the positive part, the residual sum
  and the slope act entry by entry. So the tile's value at (p, q) is the whole-array function at row r0 + p when
  the tile holds rows r0 … r0 + 4999 (`pay_tile`). The window blocks at grid point t are rows 5000 t … of the
  tiled arrays and the whole weight and bias arrays, what point t writes back is block t of the whole-array
  function (`flushed_eq`), the blocks cover the array (row r is in block r / 5000), and therefore the output
  array after the run is the whole-array function of the arrays the region finds (`final`).
-/
import proofs.«150243_j31774168056051_1_alg».proof.Proof.Gen.KernelIdeal.Frame
import proofs.«150243_j31774168056051_1_alg».proof.Proof.Spec
import Idealize.ShloMosaic.Lib.ValueIdx
import Idealize.ShloMosaic.Lib.Pipeline.Value
import Idealize.ShloMosaic.Lib.ValueLayout
import Idealize.ShloMosaic.Lib.KernelVsHost
import Idealize.ShloMosaic.PureOps.Ideal.Laws

set_option maxRecDepth 16384

noncomputable section

namespace Cert.KernelIdeal.Region2

open Idealize.ShloMosaic Idealize.ShloMosaic.TcCoe Idealize.SL.Sem Idealize.ShloMosaic.ValueIdx Cert.KernelIdeal Cert.KernelIdeal.Gen
open Idealize.ShloMosaic.Pipeline (Dat Cfg Window)
open scoped BigOperators

/-- The two one-axis contractions: a 5000-row tile and the whole 100000 rows against a 128 × 128 matrix. -/
abbrev Dt := dot_S5000x128_S128x128_S5000x128_1_0_0_1_n_n
abbrev Dw := Cert.ReferenceIdeal.dot_S100000x128_S128x128_S100000x128_1_0_0_1_n_n

/-- The contraction index of each product, from its one coordinate. -/
abbrev kt (k : Fin 128) : Dt.contr.Idx := (contrEquiv1 Dt 128 rfl rfl).symm k
abbrev kw (k : Fin 128) : Dw.contr.Idx := (contrEquiv1 Dw 128 rfl rfl).symm k

theorem Dt_lhs (p : Fin 5000) (q k : Fin 128) : Dt.lhsIdx (ix2 p q) (kt k) = ix2 p k := by
  funext a
  match a with
  | ⟨0, _⟩ => rfl
  | ⟨1, _⟩ => rfl

theorem Dt_rhs (p : Fin 5000) (q k : Fin 128) : Dt.rhsIdx (ix2 p q) (kt k) = ix2 k q := by
  funext a
  match a with
  | ⟨0, _⟩ => rfl
  | ⟨1, _⟩ => rfl

theorem Dw_lhs (p : Fin 100000) (q k : Fin 128) : Dw.lhsIdx (ix2 p q) (kw k) = ix2 p k := by
  funext a
  match a with
  | ⟨0, _⟩ => rfl
  | ⟨1, _⟩ => rfl

theorem Dw_rhs (p : Fin 100000) (q k : Fin 128) : Dw.rhsIdx (ix2 p q) (kw k) = ix2 k q := by
  funext a
  match a with
  | ⟨0, _⟩ => rfl
  | ⟨1, _⟩ => rfl

/-- A bias row laid under a one-row cast and broadcast down a tile reads the bias at the column. -/
theorem biasT_apply (b : FVec Ideal S128 .f32) (p : Fin 5000) (q : Fin 128) :
    broadcastTo S5000x128 (shapeCast S1x128 b shapeCasts_S128_S1x128) broadcasts_S1x128_S5000x128 (ix2 p q) = b (ix1 q) :=
  (broadcastTo_1b_ab_apply _ _ p q).trans (shapeCast_a_1a_apply b _ 0 q)

/-- A vector of 128 entries as a one-row matrix reads the vector at the column. -/
theorem oneRow_apply {n : Nat} (h : (⟨1, ![n]⟩ : Shape).BroadcastsInDim ⟨2, ![1, n]⟩ ![1]) (b : (⟨1, ![n]⟩ : Shape).Idx → EReal) (u : Fin 1) (q : Fin n) :
    broadcastInDim ⟨2, ![1, n]⟩ ![1] h b (ix2 u q) = b (ix1 q) := by
  refine broadcastInDim_apply ![1] h b (ix2 u q) (ix1 q) fun a => ?_
  match a with
  | ⟨0, _⟩ =>
    show q.val = if n = 1 then 0 else q.val
    split
    · have := q.isLt; omega
    · rfl

/-- The whole array's bias rows read the bias at the column. -/
theorem rows100_apply (b : Cert.Spec.A Cert.ReferenceIdeal.S128) (p : Fin 100000) (q : Fin 128) :
    Cert.Spec.rows100 b (ix2 p q) = b (ix1 q) :=
  (broadcastInDim_oneRow_apply _ _ p q).trans (oneRow_apply _ b 0 q)

/-- ONE DENSE LAYER ON A ROW TILE: the tile's product with the weights plus the bias, at (p, q), is the whole array's
    at row r0 + p, when the tile holds rows r0 … r0 + 4999 of the array. -/
theorem dense_tile (X : Cert.Spec.A Cert.ReferenceIdeal.S100000x128) (x0 : FVec Ideal S5000x128 .f32)
    (W : FVec Ideal S128x128 .f32) (b : FVec Ideal S128 .f32) (r0 : Nat) (hr : r0 + 5000 ≤ 100000)
    (hx : ∀ (p : Fin 5000) (l : Fin 128), x0 (ix2 p l) = X (ix2 ⟨r0 + p.val, by omega⟩ l))
    (p : Fin 5000) (q : Fin 128) :
    addf (matmul Dt none (truncf .bf16 x0 bitsLt_bf16_f32) (truncf .bf16 W bitsLt_bf16_f32) (constant S5000x128 .f32 0x00000000#32))
        (broadcastTo S5000x128 (shapeCast S1x128 b shapeCasts_S128_S1x128) broadcasts_S1x128_S5000x128) (ix2 p q)
      = addf (Host.dotGeneral Dw none X W) (Cert.Spec.rows100 b) (ix2 ⟨r0 + p.val, by omega⟩ q) := by
  show FloatOps.matmul Dt none (truncf .bf16 x0 bitsLt_bf16_f32) (truncf .bf16 W bitsLt_bf16_f32) (constant S5000x128 .f32 0x00000000#32) (ix2 p q)
        + broadcastTo S5000x128 (shapeCast S1x128 b shapeCasts_S128_S1x128) broadcasts_S1x128_S5000x128 (ix2 p q)
      = FloatOps.dotGeneral Dw none _ X W (ix2 ⟨r0 + p.val, by omega⟩ q) + Cert.Spec.rows100 b (ix2 ⟨r0 + p.val, by omega⟩ q)
  rw [biasT_apply, rows100_apply, Ideal.matmul_constant_zero_apply, Ideal.dotGeneral_apply,
    ← Equiv.sum_comp (contrEquiv1 Dt 128 rfl rfl).symm, ← Equiv.sum_comp (contrEquiv1 Dw 128 rfl rfl).symm]
  refine congrArg (· + b (ix1 q)) (Finset.sum_congr rfl fun k _ => ?_)
  show truncf .bf16 x0 bitsLt_bf16_f32 (Dt.lhsIdx (ix2 p q) (kt k)) * truncf .bf16 W bitsLt_bf16_f32 (Dt.rhsIdx (ix2 p q) (kt k))
      = X (Dw.lhsIdx (ix2 ⟨r0 + p.val, by omega⟩ q) (kw k)) * W (Dw.rhsIdx (ix2 ⟨r0 + p.val, by omega⟩ q) (kw k))
  rw [Dt_lhs, Dt_rhs, Dw_lhs, Dw_rhs]
  show x0 (ix2 p k) * W (ix2 k q) = _
  rw [hx]

/-- The hidden layer of a tile: the positive part of the first dense layer. -/
abbrev hidT (x0 : FVec Ideal S5000x128 .f32) (W : FVec Ideal S128x128 .f32) (b : FVec Ideal S128 .f32) : FVec Ideal S5000x128 .f32 :=
  maximumf (addf (matmul Dt none (truncf .bf16 x0 bitsLt_bf16_f32) (truncf .bf16 W bitsLt_bf16_f32) (constant S5000x128 .f32 0x00000000#32))
      (broadcastTo S5000x128 (shapeCast S1x128 b shapeCasts_S128_S1x128) broadcasts_S1x128_S5000x128))
    (broadcast S5000x128 (Scalar.ofBits .f32 0x00000000#32))

/-- The hidden layer of the whole array. -/
abbrev hidW (X : Cert.Spec.A Cert.ReferenceIdeal.S100000x128) (W : FVec Ideal S128x128 .f32) (b : FVec Ideal S128 .f32) :
    Cert.Spec.A Cert.ReferenceIdeal.S100000x128 :=
  maximumf (addf (Host.dotGeneral Dw none X W) (Cert.Spec.rows100 b)) Cert.Spec.zeros100

theorem hid_tile (X : Cert.Spec.A Cert.ReferenceIdeal.S100000x128) (x0 : FVec Ideal S5000x128 .f32)
    (W : FVec Ideal S128x128 .f32) (b : FVec Ideal S128 .f32) (r0 : Nat) (hr : r0 + 5000 ≤ 100000)
    (hx : ∀ (p : Fin 5000) (l : Fin 128), x0 (ix2 p l) = X (ix2 ⟨r0 + p.val, by omega⟩ l))
    (p : Fin 5000) (q : Fin 128) :
    hidT x0 W b (ix2 p q) = hidW X W b (ix2 ⟨r0 + p.val, by omega⟩ q) := by
  show max (addf (matmul Dt none (truncf .bf16 x0 bitsLt_bf16_f32) (truncf .bf16 W bitsLt_bf16_f32) (constant S5000x128 .f32 0x00000000#32))
        (broadcastTo S5000x128 (shapeCast S1x128 b shapeCasts_S128_S1x128) broadcasts_S1x128_S5000x128) (ix2 p q)) (Ideal.ofBits .f32 0x00000000#32)
      = max (addf (Host.dotGeneral Dw none X W) (Cert.Spec.rows100 b) (ix2 ⟨r0 + p.val, by omega⟩ q)) (Ideal.ofBits .f32 0x00000000#32)
  rw [dense_tile X x0 W b r0 hr hx p q]

/-- The residual sum of a tile, before the slope. -/
abbrev preT (a0 h0 : FVec Ideal S5000x128 .f32) (W1 : FVec Ideal S128x128 .f32) (b1 : FVec Ideal S128 .f32)
    (W2 : FVec Ideal S128x128 .f32) (b2 : FVec Ideal S128 .f32) : FVec Ideal S5000x128 .f32 :=
  addf (addf (matmul Dt none (truncf .bf16 (hidT a0 W1 b1) bitsLt_bf16_f32) (truncf .bf16 W2 bitsLt_bf16_f32) (constant S5000x128 .f32 0x00000000#32))
      (broadcastTo S5000x128 (shapeCast S1x128 b2 shapeCasts_S128_S1x128) broadcasts_S1x128_S5000x128)) h0

theorem pre_tile (A H : Cert.Spec.A Cert.ReferenceIdeal.S100000x128) (a0 h0 : FVec Ideal S5000x128 .f32)
    (W1 : FVec Ideal S128x128 .f32) (b1 : FVec Ideal S128 .f32) (W2 : FVec Ideal S128x128 .f32) (b2 : FVec Ideal S128 .f32)
    (r0 : Nat) (hr : r0 + 5000 ≤ 100000)
    (ha : ∀ (p : Fin 5000) (l : Fin 128), a0 (ix2 p l) = A (ix2 ⟨r0 + p.val, by omega⟩ l))
    (hh : ∀ (p : Fin 5000) (l : Fin 128), h0 (ix2 p l) = H (ix2 ⟨r0 + p.val, by omega⟩ l))
    (p : Fin 5000) (q : Fin 128) :
    preT a0 h0 W1 b1 W2 b2 (ix2 p q) = Cert.Spec.pre A H W1 b1 W2 b2 (ix2 ⟨r0 + p.val, by omega⟩ q) := by
  show addf (matmul Dt none (truncf .bf16 (hidT a0 W1 b1) bitsLt_bf16_f32) (truncf .bf16 W2 bitsLt_bf16_f32) (constant S5000x128 .f32 0x00000000#32))
        (broadcastTo S5000x128 (shapeCast S1x128 b2 shapeCasts_S128_S1x128) broadcasts_S1x128_S5000x128) (ix2 p q) + h0 (ix2 p q)
      = addf (Host.dotGeneral Dw none (hidW A W1 b1) W2) (Cert.Spec.rows100 b2) (ix2 ⟨r0 + p.val, by omega⟩ q) + H (ix2 ⟨r0 + p.val, by omega⟩ q)
  rw [dense_tile (hidW A W1 b1) (hidT a0 W1 b1) W2 b2 r0 hr (hid_tile A a0 W1 b1 r0 hr ha) p q, hh]

/-- The slope of a tile's entry is the slope of the array's, when the entries agree. -/
theorem leaky_tile (x : FVec Ideal S5000x128 .f32) (y : Cert.Spec.A Cert.ReferenceIdeal.S100000x128)
    (i : S5000x128.Idx) (i' : Cert.ReferenceIdeal.S100000x128.Idx) (h : x i = y i') :
    select (cmpf .oge x (broadcast S5000x128 (Scalar.ofBits .f32 0x00000000#32))) x
        (mulf (broadcast S5000x128 (Scalar.ofBits .f32 0x3E4CCCCD#32)) x) i = Cert.Spec.leaky y i' := by
  show Scalar.select (FloatOps.cmpf .oge (x i) (Ideal.ofBits .f32 0x00000000#32)) (x i) (Ideal.ofBits .f32 0x3E4CCCCD#32 * x i)
      = Scalar.select (FloatOps.cmpf .oge (y i') (Ideal.ofBits .f32 0x00000000#32)) (y i') (Ideal.ofBits .f32 0x3E4CCCCD#32 * y i')
  rw [h]

/-- THE BODY'S VALUE ON A ROW TILE: at (p, q) it is the whole-array function at row r0 + p. -/
theorem pay_tile (A H : Cert.Spec.A Cert.ReferenceIdeal.S100000x128) (a0 h0 : FVec Ideal S5000x128 .f32)
    (W1 : FVec Ideal S128x128 .f32) (b1 : FVec Ideal S128 .f32) (W2 : FVec Ideal S128x128 .f32) (b2 : FVec Ideal S128 .f32)
    (r0 : Nat) (hr : r0 + 5000 ≤ 100000)
    (ha : ∀ (p : Fin 5000) (l : Fin 128), a0 (ix2 p l) = A (ix2 ⟨r0 + p.val, by omega⟩ l))
    (hh : ∀ (p : Fin 5000) (l : Fin 128), h0 (ix2 p l) = H (ix2 ⟨r0 + p.val, by omega⟩ l))
    (p : Fin 5000) (q : Fin 128) :
    Gen.k2_pay1 a0 W1 b1 W2 b2 h0 (ix2 p q) = Cert.Spec.outraw A H W1 b1 W2 b2 (ix2 ⟨r0 + p.val, by omega⟩ q) :=
  leaky_tile (preT (shapeCast S5000x128 a0 shapeCasts_S5000x128_S5000x128) h0 W1 b1 W2 b2) (Cert.Spec.pre A H W1 b1 W2 b2) _ _
    (pre_tile A H (shapeCast S5000x128 a0 shapeCasts_S5000x128_S5000x128) h0 W1 b1 W2 b2 r0 hr
      (fun p l => (congrFun (shapeCast_self a0 shapeCasts_S5000x128_S5000x128) (ix2 p l)).trans (ha p l)) hh p q)

/-! ## The region: what each point writes back, the cover, the array after the run -/

section Region
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The index maps over the grid: the three row-tiled windows sit at block (t, 0), the weights and biases at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0 :=
  (by decide +kernel : ∀ t : Fin grid2.N, _)

theorem rows_le (t : Fin cfg2.N) : t.val * 5000 + 5000 ≤ 100000 := by
  have h : t.val < grid2.N := t.isLt
  have hN : grid2.N = 20 := Gen.N_2
  omega

/-- Window 0's block at point t is rows 5000 t … of the array. -/
theorem blk0_tile (c : Dev nD) (t : Fin cfg2.N) (p : Fin 5000) (l : Fin 128) :
    (Gen.iblk2 V c 0 t : FVec Ideal S5000x128 .f32) (ix2 p l) = V c main_v40 (ix2 ⟨t.val * 5000 + p.val, by have := rows_le t; omega⟩ l) := by
  obtain ⟨e0, e1, -⟩ := idx_facts t
  unfold Gen.iblk2
  rw [View.read_apply]
  show V c main_v40 _ = V c main_v40 _
  refine congrArg (V c main_v40) ?_
  funext a
  apply Fin.ext
  match a with
  | ⟨0, _⟩ => show win2_0.index t (0 : Fin 2) * 5000 + 1 * p.val = t.val * 5000 + p.val; rw [e0]; omega
  | ⟨1, _⟩ => show win2_0.index t (1 : Fin 2) * 128 + 1 * l.val = l.val; rw [e1]; omega

/-- Window 1's block at point t is rows 5000 t … of the array. -/
theorem blk1_tile (c : Dev nD) (t : Fin cfg2.N) (p : Fin 5000) (l : Fin 128) :
    (Gen.iblk2 V c 1 t : FVec Ideal S5000x128 .f32) (ix2 p l) = V c main_arg0 (ix2 ⟨t.val * 5000 + p.val, by have := rows_le t; omega⟩ l) := by
  obtain ⟨-, -, e0, e1, -⟩ := idx_facts t
  unfold Gen.iblk2
  rw [View.read_apply]
  show V c main_arg0 _ = V c main_arg0 _
  refine congrArg (V c main_arg0) ?_
  funext a
  apply Fin.ext
  match a with
  | ⟨0, _⟩ => show win2_1.index t (0 : Fin 2) * 5000 + 1 * p.val = t.val * 5000 + p.val; rw [e0]; omega
  | ⟨1, _⟩ => show win2_1.index t (1 : Fin 2) * 128 + 1 * l.val = l.val; rw [e1]; omega

/-- The weight and bias windows hold their whole arrays at every point. -/
theorem blk2_whole (c : Dev nD) (t : Fin cfg2.N) : (Gen.iblk2 V c 2 t : FVec Ideal S128x128 .f32) = V c main_arg10 := by
  obtain ⟨-, -, -, -, e0, e1, -⟩ := idx_facts t
  funext j
  unfold Gen.iblk2
  rw [View.read_apply]
  show V c main_arg10 _ = V c main_arg10 _
  refine congrArg (V c main_arg10) ?_
  funext a
  apply Fin.ext
  match a with
  | ⟨0, _⟩ => show win2_2.index t (0 : Fin 2) * 128 + 1 * (j 0).val = (j 0).val; rw [e0]; omega
  | ⟨1, _⟩ => show win2_2.index t (1 : Fin 2) * 128 + 1 * (j 1).val = (j 1).val; rw [e1]; omega

theorem blk3_whole (c : Dev nD) (t : Fin cfg2.N) : (Gen.iblk2 V c 3 t : FVec Ideal S128 .f32) = V c main_arg11 := by
  obtain ⟨-, -, -, -, -, -, e0, -⟩ := idx_facts t
  funext j
  unfold Gen.iblk2
  rw [View.read_apply]
  show V c main_arg11 _ = V c main_arg11 _
  refine congrArg (V c main_arg11) ?_
  funext a
  apply Fin.ext
  match a with
  | ⟨0, _⟩ => show win2_3.index t (0 : Fin 1) * 128 + 1 * (j 0).val = (j 0).val; rw [e0]; omega

theorem blk4_whole (c : Dev nD) (t : Fin cfg2.N) : (Gen.iblk2 V c 4 t : FVec Ideal S128x128 .f32) = V c main_arg12 := by
  obtain ⟨-, -, -, -, -, -, -, e0, e1, -⟩ := idx_facts t
  funext j
  unfold Gen.iblk2
  rw [View.read_apply]
  show V c main_arg12 _ = V c main_arg12 _
  refine congrArg (V c main_arg12) ?_
  funext a
  apply Fin.ext
  match a with
  | ⟨0, _⟩ => show win2_4.index t (0 : Fin 2) * 128 + 1 * (j 0).val = (j 0).val; rw [e0]; omega
  | ⟨1, _⟩ => show win2_4.index t (1 : Fin 2) * 128 + 1 * (j 1).val = (j 1).val; rw [e1]; omega

theorem blk5_whole (c : Dev nD) (t : Fin cfg2.N) : (Gen.iblk2 V c 5 t : FVec Ideal S128 .f32) = V c main_arg13 := by
  obtain ⟨-, -, -, -, -, -, -, -, -, e0, -⟩ := idx_facts t
  funext j
  unfold Gen.iblk2
  rw [View.read_apply]
  show V c main_arg13 _ = V c main_arg13 _
  refine congrArg (V c main_arg13) ?_
  funext a
  apply Fin.ext
  match a with
  | ⟨0, _⟩ => show win2_5.index t (0 : Fin 1) * 128 + 1 * (j 0).val = (j 0).val; rw [e0]; omega

/-- The whole-array function the output window's array ends holding. -/
abbrev G (c : Dev nD) : Cert.Spec.A Cert.ReferenceIdeal.S100000x128 :=
  Cert.Spec.outraw (V c main_v40) (V c main_arg0) (V c main_arg10) (V c main_arg11) (V c main_arg12) (V c main_arg13)

/-- The body's value on the blocks of point t, at (p, q), is the whole-array function at row 5000 t + p. -/
theorem pay_blocks (c : Dev nD) (t : Fin cfg2.N) (p : Fin 5000) (q : Fin 128) :
    Gen.k2_pay1 (Gen.iblk2 V c 0 t) (Gen.iblk2 V c 2 t) (Gen.iblk2 V c 3 t) (Gen.iblk2 V c 4 t) (Gen.iblk2 V c 5 t) (Gen.iblk2 V c 1 t) (ix2 p q)
      = G V c (ix2 ⟨t.val * 5000 + p.val, by have := rows_le t; omega⟩ q) := by
  rw [blk2_whole, blk3_whole, blk4_whole, blk5_whole]
  exact pay_tile (V c main_v40) (V c main_arg0) (Gen.iblk2 V c 0 t) (Gen.iblk2 V c 1 t) (V c main_arg10) (V c main_arg11) (V c main_arg12) (V c main_arg13)
    (t.val * 5000) (rows_le t) (blk0_tile V c t) (blk1_tile V c t) p q

/-- WHAT POINT t WRITES BACK is block t of the whole-array function. -/
theorem flushed_eq (c : Dev nD) (t : Fin cfg2.N) :
    (Gen.dat2 V c).flushed 6 t = ((cfg2.win 6).blk t).view.read (Elt Ideal) (G V c) := by
  show (cfg2.win 6).cut (grid2.coords t) ((Gen.dat2 V c).after 6 t) = _
  rw [Gen.after2_6]
  unfold Gen.out2_6
  rw [View.canon_unit_zero hz2]
  simp only [View.ld_unit_zero (S := S5000x128) hz2, View.ld_unit_zero (S := S128x128) hz2, View.ld_unit_zero (S := S128) hz1]
  obtain ⟨-, -, -, -, -, -, -, -, -, -, e0, e1⟩ := idx_facts t
  funext j
  obtain ⟨p, q, rfl⟩ : ∃ (p : Fin 5000) (q : Fin 128), j = ix2 p q := ⟨j 0, j 1, eq_ix2 j⟩
  show Gen.k2_pay1 (Gen.iblk2 V c 0 t) (Gen.iblk2 V c 2 t) (Gen.iblk2 V c 3 t) (Gen.iblk2 V c 4 t) (Gen.iblk2 V c 5 t) (Gen.iblk2 V c 1 t) (ix2 p q)
      = G V c (((cfg2.win 6).blk t).view.emb (ix2 p q))
  rw [pay_blocks V c t p q]
  refine congrArg (G V c) ?_
  funext a
  apply Fin.ext
  match a with
  | ⟨0, _⟩ => show t.val * 5000 + p.val = win2_6.index t (0 : Fin 2) * 5000 + 1 * p.val; rw [e0]; omega
  | ⟨1, _⟩ => show q.val = win2_6.index t (1 : Fin 2) * 128 + 1 * q.val; rw [e1]; omega

/-- An index of the array is in point t's block iff each coordinate is in the block's range on its axis. -/
theorem mem_blk (t : Fin cfg2.N) (i : S100000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v41).slice (win2_6.rect t)).set ↔ _
  rw [View.set_slice_whole, Rect.mem_set_unit]
  exact Iff.rfl

/-- Row r of the array is in the block of point r / 5000. -/
theorem cover (i : S100000x128.Idx) : ∃ t : Fin cfg2.N, (cfg2.win 6).flush t = true ∧ i ∈ ((cfg2.win 6).blk t).view.set := by
  have hi0 : (i 0).val < 100000 := (i 0).isLt
  have hi1 : (i 1).val < 128 := (i 1).isLt
  have hN : grid2.N = 20 := Gen.N_2
  have ht : (i 0).val / 5000 < cfg2.N := by show _ < grid2.N; rw [hN]; omega
  obtain ⟨-, -, -, -, -, -, -, -, -, -, e0, e1⟩ := idx_facts ⟨(i 0).val / 5000, ht⟩
  refine ⟨⟨(i 0).val / 5000, ht⟩, Gen.flush2_6 _, ?_⟩
  rw [mem_blk]
  intro a
  match a with
  | ⟨0, _⟩ =>
    show win2_6.index ⟨(i 0).val / 5000, ht⟩ (0 : Fin 2) * 5000 ≤ (i 0).val ∧ (i 0).val < win2_6.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win2_6.index ⟨(i 0).val / 5000, ht⟩ (1 : Fin 2) * 128 ≤ (i 1).val ∧ (i 1).val < win2_6.index ⟨(i 0).val / 5000, ht⟩ (1 : Fin 2) * 128 + 128
    rw [e1]; omega

end Region

/-- THE ARRAY AFTER THE RUN: the output window's array holds the residual layer of the arrays the region finds. -/
theorem final (V : (c : Dev nD) → (b : Ref sig .tc) → Buf (Elt Ideal) ((c : Thread nD τ).loc b)) (c : Dev nD) :
    (Gen.dat2 (F := Ideal) V c).arrAt 6 cfg2.N = Cert.Spec.outraw (V c main_v40) (V c main_arg0) (V c main_arg10) (V c main_arg11) (V c main_arg12) (V c main_arg13) :=
  (Gen.dat2 (F := Ideal) V c).arrAt_eq_of_cover 6 (G V c) (fun t _ => flushed_eq V c t) cover

end Cert.KernelIdeal.Region2

end
-- ==== Proof.Region3.lean ====
/-
  The fourth kernel call (the style normalisation) as ONE function of whole arrays. The call runs over 20 row
  tiles of 5000 rows. On a tile, the body's value at (p, q) only reads row p of the two tiled inputs: the style
  affine is a product with a 128 × 256 weight matrix whose row p is a sum over the 128 columns of row p of the
  style tile, plus a bias row that is the same in every row; its two halves are the column ranges 0 … 127 and
  128 … 255; the mean row and the reciprocal root of the shifted variance row are 1 × 128 rows repeated down the
  rows; and the difference, the two products and the sum act entry by entry. So the tile's value at (p, q) is the
  whole-array function at row r0 + p when the tile holds rows r0 … r0 + 4999 (`pay_tile`). The window blocks at
  grid point t are rows 5000 t … of the tiled arrays and the whole weight, bias and statistics arrays, what point t
  writes back is block t of the whole-array function (`flushed_eq`), the blocks cover the array (row r is in block
  r / 5000), and therefore the output array after the run is the whole-array function of the arrays the region
  finds (`final`).
-/
import proofs.«150243_j31774168056051_1_alg».proof.Proof.Gen.KernelIdeal.Frame
import proofs.«150243_j31774168056051_1_alg».proof.Proof.Spec
import Idealize.ShloMosaic.Lib.ValueIdx
import Idealize.ShloMosaic.Lib.Pipeline.Value
import Idealize.ShloMosaic.Lib.ValueLayout
import Idealize.ShloMosaic.Lib.KernelVsHost
import Idealize.ShloMosaic.PureOps.Ideal.Laws

set_option maxRecDepth 16384

noncomputable section

namespace Cert.KernelIdeal.Region3

open Idealize.ShloMosaic Idealize.ShloMosaic.TcCoe Idealize.SL.Sem Idealize.ShloMosaic.ValueIdx Cert.KernelIdeal Cert.KernelIdeal.Gen
open Idealize.ShloMosaic.Pipeline (Dat Cfg Window)
open scoped BigOperators

/-- The two one-axis contractions: a 5000-row tile and the whole 100000 rows against a 128 × 256 matrix. -/
abbrev Dt := dot_S5000x128_S128x256_S5000x256_1_0_0_1_n_n
abbrev Dw := Cert.ReferenceIdeal.dot_S100000x128_S128x256_S100000x256_1_0_0_1_n_n

/-- The contraction index of each product, from its one coordinate. -/
abbrev kt (k : Fin 128) : Dt.contr.Idx := (contrEquiv1 Dt 128 rfl rfl).symm k
abbrev kw (k : Fin 128) : Dw.contr.Idx := (contrEquiv1 Dw 128 rfl rfl).symm k

theorem Dt_lhs (p : Fin 5000) (q : Fin 256) (k : Fin 128) : Dt.lhsIdx (ix2 p q) (kt k) = ix2 p k := by
  funext a
  match a with
  | ⟨0, _⟩ => rfl
  | ⟨1, _⟩ => rfl

theorem Dt_rhs (p : Fin 5000) (q : Fin 256) (k : Fin 128) : Dt.rhsIdx (ix2 p q) (kt k) = ix2 k q := by
  funext a
  match a with
  | ⟨0, _⟩ => rfl
  | ⟨1, _⟩ => rfl

theorem Dw_lhs (p : Fin 100000) (q : Fin 256) (k : Fin 128) : Dw.lhsIdx (ix2 p q) (kw k) = ix2 p k := by
  funext a
  match a with
  | ⟨0, _⟩ => rfl
  | ⟨1, _⟩ => rfl

theorem Dw_rhs (p : Fin 100000) (q : Fin 256) (k : Fin 128) : Dw.rhsIdx (ix2 p q) (kw k) = ix2 k q := by
  funext a
  match a with
  | ⟨0, _⟩ => rfl
  | ⟨1, _⟩ => rfl

/-- A bias row laid under a one-row cast and broadcast down a tile reads the bias at the column. -/
theorem biasT_apply (b : FVec Ideal S256 .f32) (p : Fin 5000) (q : Fin 256) :
    broadcastTo S5000x256 (shapeCast S1x256 b shapeCasts_S256_S1x256) broadcasts_S1x256_S5000x256 (ix2 p q) = b (ix1 q) :=
  (broadcastTo_1b_ab_apply _ _ p q).trans (shapeCast_a_1a_apply b _ 0 q)

/-- A vector of n entries as a one-row matrix reads the vector at the column. -/
theorem oneRow_apply {n : Nat} (h : (⟨1, ![n]⟩ : Shape).BroadcastsInDim ⟨2, ![1, n]⟩ ![1]) (b : (⟨1, ![n]⟩ : Shape).Idx → EReal) (u : Fin 1) (q : Fin n) :
    broadcastInDim ⟨2, ![1, n]⟩ ![1] h b (ix2 u q) = b (ix1 q) := by
  refine broadcastInDim_apply ![1] h b (ix2 u q) (ix1 q) fun a => ?_
  match a with
  | ⟨0, _⟩ =>
    show q.val = if n = 1 then 0 else q.val
    split
    · have := q.isLt; omega
    · rfl

/-- The tile's style affine: the product with the 128 × 256 weights plus the bias row. -/
abbrev affT (s0 : FVec Ideal S5000x128 .f32) (Ws : FVec Ideal S128x256 .f32) (bs : FVec Ideal S256 .f32) : FVec Ideal S5000x256 .f32 :=
  addf (matmul Dt none (truncf .bf16 s0 bitsLt_bf16_f32) (truncf .bf16 Ws bitsLt_bf16_f32) (constant S5000x256 .f32 0x00000000#32))
    (broadcastTo S5000x256 (shapeCast S1x256 bs shapeCasts_S256_S1x256) broadcasts_S1x256_S5000x256)

/-- THE STYLE AFFINE ON A ROW TILE: at (p, q) it is the whole array's at row r0 + p, when the tile holds rows
    r0 … r0 + 4999 of the style array. -/
theorem affine_tile (S : Cert.Spec.A Cert.ReferenceIdeal.S100000x128) (s0 : FVec Ideal S5000x128 .f32)
    (Ws : FVec Ideal S128x256 .f32) (bs : FVec Ideal S256 .f32) (r0 : Nat) (hr : r0 + 5000 ≤ 100000)
    (hs : ∀ (p : Fin 5000) (l : Fin 128), s0 (ix2 p l) = S (ix2 ⟨r0 + p.val, by omega⟩ l))
    (p : Fin 5000) (q : Fin 256) :
    affT s0 Ws bs (ix2 p q) = Cert.Spec.affine S Ws bs (ix2 ⟨r0 + p.val, by omega⟩ q) := by
  show FloatOps.matmul Dt none (truncf .bf16 s0 bitsLt_bf16_f32) (truncf .bf16 Ws bitsLt_bf16_f32) (constant S5000x256 .f32 0x00000000#32) (ix2 p q)
        + broadcastTo S5000x256 (shapeCast S1x256 bs shapeCasts_S256_S1x256) broadcasts_S1x256_S5000x256 (ix2 p q)
      = FloatOps.dotGeneral Dw none _ S Ws (ix2 ⟨r0 + p.val, by omega⟩ q)
        + broadcastInDim Cert.ReferenceIdeal.S100000x256 ![0, 1] _ (broadcastInDim Cert.ReferenceIdeal.S1x256 ![1] _ bs) (ix2 ⟨r0 + p.val, by omega⟩ q)
  rw [biasT_apply, broadcastInDim_oneRow_apply, oneRow_apply, Ideal.matmul_constant_zero_apply, Ideal.dotGeneral_apply,
    ← Equiv.sum_comp (contrEquiv1 Dt 128 rfl rfl).symm, ← Equiv.sum_comp (contrEquiv1 Dw 128 rfl rfl).symm]
  refine congrArg (· + bs (ix1 q)) (Finset.sum_congr rfl fun k _ => ?_)
  show truncf .bf16 s0 bitsLt_bf16_f32 (Dt.lhsIdx (ix2 p q) (kt k)) * truncf .bf16 Ws bitsLt_bf16_f32 (Dt.rhsIdx (ix2 p q) (kt k))
      = S (Dw.lhsIdx (ix2 ⟨r0 + p.val, by omega⟩ q) (kw k)) * Ws (Dw.rhsIdx (ix2 ⟨r0 + p.val, by omega⟩ q) (kw k))
  rw [Dt_lhs, Dt_rhs, Dw_lhs, Dw_rhs]
  show s0 (ix2 p k) * Ws (ix2 k q) = _
  rw [hs]

/-- A 1 × 128 row repeated down a tile reads the row at the column. -/
theorem rowT_apply (r : FVec Ideal S1x128 .f32) (p : Fin 5000) (q : Fin 128) :
    broadcastTo S5000x128 r broadcasts_S1x128_S5000x128 (ix2 p q) = r (ix2 (0 : Fin 1) q) :=
  broadcastTo_1b_ab_apply _ _ p q

/-- A 1 × 128 row repeated down the whole array reads the row at the column. -/
theorem rep_apply (r : Cert.Spec.A Cert.ReferenceIdeal.S1x128) (p : Fin 100000) (q : Fin 128) :
    Cert.Spec.rep r (ix2 p q) = r (ix2 (0 : Fin 1) q) :=
  broadcastInDim_oneRow_apply _ _ p q

/-- The reciprocal root of the shifted variance row: the body's and the host's are one function of the row. -/
theorem rs_row (v : FVec Ideal S1x128 .f32) (i : S1x128.Idx) :
    rsqrt (addf (shapeCast S1x128 v shapeCasts_S1x128_S1x128) (broadcast S1x128 (Scalar.ofBits .f32 0x3727C5AC#32))) i
      = Host.rsqrt (Cert.Spec.shifted v) i := by
  rw [shapeCast_self]
  rfl

/-- THE BODY'S VALUE ON A ROW TILE: at (p, q) it is the whole-array function at row r0 + p. -/
theorem pay_tile (O S : Cert.Spec.A Cert.ReferenceIdeal.S100000x128) (o0 s0 : FVec Ideal S5000x128 .f32)
    (Ws : FVec Ideal S128x256 .f32) (bs : FVec Ideal S256 .f32) (mu v : FVec Ideal S1x128 .f32)
    (r0 : Nat) (hr : r0 + 5000 ≤ 100000)
    (ho : ∀ (p : Fin 5000) (l : Fin 128), o0 (ix2 p l) = O (ix2 ⟨r0 + p.val, by omega⟩ l))
    (hs : ∀ (p : Fin 5000) (l : Fin 128), s0 (ix2 p l) = S (ix2 ⟨r0 + p.val, by omega⟩ l))
    (p : Fin 5000) (q : Fin 128) :
    Gen.k3_pay1 s0 Ws bs o0 mu v (ix2 p q) = Cert.Spec.adainK O S Ws bs mu v (ix2 ⟨r0 + p.val, by omega⟩ q) := by
  have e1 : extractStridedSlice S5000x128 ![0, 0] (affT s0 Ws bs) slices_S5000x256_o0_0_S5000x128 (ix2 p q)
      = extractStridedSlice Cert.ReferenceIdeal.S100000x128 ![0, 0] (Cert.Spec.affine S Ws bs) Cert.ReferenceIdeal.Facts₀.slices_S100000x256_S100000x128_0_0 (ix2 ⟨r0 + p.val, by omega⟩ q) :=
    (slice2_axis1_eq 0 (affT s0 Ws bs) _ p q).trans
      ((affine_tile S s0 Ws bs r0 hr hs p _).trans (slice2_axis1_eq 0 (Cert.Spec.affine S Ws bs) _ ⟨r0 + p.val, by omega⟩ q).symm)
  have e5 : extractStridedSlice S5000x128 ![0, 128] (affT s0 Ws bs) slices_S5000x256_o0_128_S5000x128 (ix2 p q)
      = extractStridedSlice Cert.ReferenceIdeal.S100000x128 ![0, 128] (Cert.Spec.affine S Ws bs) Cert.ReferenceIdeal.Facts₀.slices_S100000x256_S100000x128_0_128 (ix2 ⟨r0 + p.val, by omega⟩ q) :=
    (slice2_axis1_eq 128 (affT s0 Ws bs) _ p q).trans
      ((affine_tile S s0 Ws bs r0 hr hs p _).trans (slice2_axis1_eq 128 (Cert.Spec.affine S Ws bs) _ ⟨r0 + p.val, by omega⟩ q).symm)
  have e2 : shapeCast S5000x128 o0 shapeCasts_S5000x128_S5000x128 (ix2 p q) = O (ix2 ⟨r0 + p.val, by omega⟩ q) :=
    (congrFun (shapeCast_self o0 _) _).trans (ho p q)
  have e3 : broadcastTo S5000x128 (shapeCast S1x128 mu shapeCasts_S1x128_S1x128) broadcasts_S1x128_S5000x128 (ix2 p q)
      = Cert.Spec.rep mu (ix2 ⟨r0 + p.val, by omega⟩ q) :=
    (rowT_apply _ p q).trans ((congrFun (shapeCast_self mu _) _).trans (rep_apply mu _ q).symm)
  have e4 : broadcastTo S5000x128 (rsqrt (addf (shapeCast S1x128 v shapeCasts_S1x128_S1x128) (broadcast S1x128 (Scalar.ofBits .f32 0x3727C5AC#32)))) broadcasts_S1x128_S5000x128 (ix2 p q)
      = Cert.Spec.rep (Host.rsqrt (Cert.Spec.shifted v)) (ix2 ⟨r0 + p.val, by omega⟩ q) :=
    (rowT_apply _ p q).trans ((rs_row v _).trans (rep_apply _ _ q).symm)
  exact congrArg₂ (· + ·) (congrArg₂ (· * ·) e1 (congrArg₂ (· * ·) (congrArg₂ (· - ·) e2 e3) e4)) e5

/-! ## The region: what each point writes back, the cover, the array after the run -/

section Region
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The index maps over the grid: the three row-tiled windows sit at block (t, 0), the weights, the bias and the
    two statistics rows at block 0. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

theorem rows_le (t : Fin cfg3.N) : t.val * 5000 + 5000 ≤ 100000 := by
  have h : t.val < grid3.N := t.isLt
  have hN : grid3.N = 20 := Gen.N_3
  omega

/-- Window 0's block at point t is rows 5000 t … of the array. -/
theorem blk0_tile (c : Dev nD) (t : Fin cfg3.N) (p : Fin 5000) (l : Fin 128) :
    (Gen.iblk3 V c 0 t : FVec Ideal S5000x128 .f32) (ix2 p l) = V c main_v41 (ix2 ⟨t.val * 5000 + p.val, by have := rows_le t; omega⟩ l) := by
  obtain ⟨e0, e1, -⟩ := idx_facts t
  unfold Gen.iblk3
  rw [View.read_apply]
  show V c main_v41 _ = V c main_v41 _
  refine congrArg (V c main_v41) ?_
  funext a
  apply Fin.ext
  match a with
  | ⟨0, _⟩ => show win3_0.index t (0 : Fin 2) * 5000 + 1 * p.val = t.val * 5000 + p.val; rw [e0]; omega
  | ⟨1, _⟩ => show win3_0.index t (1 : Fin 2) * 128 + 1 * l.val = l.val; rw [e1]; omega

/-- Window 1's block at point t is rows 5000 t … of the array. -/
theorem blk1_tile (c : Dev nD) (t : Fin cfg3.N) (p : Fin 5000) (l : Fin 128) :
    (Gen.iblk3 V c 1 t : FVec Ideal S5000x128 .f32) (ix2 p l) = V c main_arg2 (ix2 ⟨t.val * 5000 + p.val, by have := rows_le t; omega⟩ l) := by
  obtain ⟨-, -, e0, e1, -⟩ := idx_facts t
  unfold Gen.iblk3
  rw [View.read_apply]
  show V c main_arg2 _ = V c main_arg2 _
  refine congrArg (V c main_arg2) ?_
  funext a
  apply Fin.ext
  match a with
  | ⟨0, _⟩ => show win3_1.index t (0 : Fin 2) * 5000 + 1 * p.val = t.val * 5000 + p.val; rw [e0]; omega
  | ⟨1, _⟩ => show win3_1.index t (1 : Fin 2) * 128 + 1 * l.val = l.val; rw [e1]; omega

/-- The weight, bias and statistics windows hold their whole arrays at every point. -/
theorem blk2_whole (c : Dev nD) (t : Fin cfg3.N) : (Gen.iblk3 V c 2 t : FVec Ideal S128x256 .f32) = V c main_arg14 := by
  obtain ⟨-, -, -, -, e0, e1, -⟩ := idx_facts t
  funext j
  unfold Gen.iblk3
  rw [View.read_apply]
  show V c main_arg14 _ = V c main_arg14 _
  refine congrArg (V c main_arg14) ?_
  funext a
  apply Fin.ext
  match a with
  | ⟨0, _⟩ => show win3_2.index t (0 : Fin 2) * 128 + 1 * (j 0).val = (j 0).val; rw [e0]; omega
  | ⟨1, _⟩ => show win3_2.index t (1 : Fin 2) * 256 + 1 * (j 1).val = (j 1).val; rw [e1]; omega

theorem blk3_whole (c : Dev nD) (t : Fin cfg3.N) : (Gen.iblk3 V c 3 t : FVec Ideal S256 .f32) = V c main_arg15 := by
  obtain ⟨-, -, -, -, -, -, e0, -⟩ := idx_facts t
  funext j
  unfold Gen.iblk3
  rw [View.read_apply]
  show V c main_arg15 _ = V c main_arg15 _
  refine congrArg (V c main_arg15) ?_
  funext a
  apply Fin.ext
  match a with
  | ⟨0, _⟩ => show win3_3.index t (0 : Fin 1) * 256 + 1 * (j 0).val = (j 0).val; rw [e0]; omega

theorem blk4_whole (c : Dev nD) (t : Fin cfg3.N) : (Gen.iblk3 V c 4 t : FVec Ideal S1x128 .f32) = V c main_v45 := by
  obtain ⟨-, -, -, -, -, -, -, e0, e1, -⟩ := idx_facts t
  funext j
  unfold Gen.iblk3
  rw [View.read_apply]
  show V c main_v45 _ = V c main_v45 _
  refine congrArg (V c main_v45) ?_
  funext a
  apply Fin.ext
  match a with
  | ⟨0, _⟩ => show win3_4.index t (0 : Fin 2) * 1 + 1 * (j 0).val = (j 0).val; rw [e0]; omega
  | ⟨1, _⟩ => show win3_4.index t (1 : Fin 2) * 128 + 1 * (j 1).val = (j 1).val; rw [e1]; omega

theorem blk5_whole (c : Dev nD) (t : Fin cfg3.N) : (Gen.iblk3 V c 5 t : FVec Ideal S1x128 .f32) = V c main_v46 := by
  obtain ⟨-, -, -, -, -, -, -, -, -, e0, e1, -⟩ := idx_facts t
  funext j
  unfold Gen.iblk3
  rw [View.read_apply]
  show V c main_v46 _ = V c main_v46 _
  refine congrArg (V c main_v46) ?_
  funext a
  apply Fin.ext
  match a with
  | ⟨0, _⟩ => show win3_5.index t (0 : Fin 2) * 1 + 1 * (j 0).val = (j 0).val; rw [e0]; omega
  | ⟨1, _⟩ => show win3_5.index t (1 : Fin 2) * 128 + 1 * (j 1).val = (j 1).val; rw [e1]; omega

/-- The whole-array function the output window's array ends holding. -/
abbrev G (c : Dev nD) : Cert.Spec.A Cert.ReferenceIdeal.S100000x128 :=
  Cert.Spec.adainK (V c main_v41) (V c main_arg2) (V c main_arg14) (V c main_arg15) (V c main_v45) (V c main_v46)

/-- The body's value on the blocks of point t, at (p, q), is the whole-array function at row 5000 t + p. -/
theorem pay_blocks (c : Dev nD) (t : Fin cfg3.N) (p : Fin 5000) (q : Fin 128) :
    Gen.k3_pay1 (Gen.iblk3 V c 1 t) (Gen.iblk3 V c 2 t) (Gen.iblk3 V c 3 t) (Gen.iblk3 V c 0 t) (Gen.iblk3 V c 4 t) (Gen.iblk3 V c 5 t) (ix2 p q)
      = G V c (ix2 ⟨t.val * 5000 + p.val, by have := rows_le t; omega⟩ q) := by
  rw [blk2_whole, blk3_whole, blk4_whole, blk5_whole]
  exact pay_tile (V c main_v41) (V c main_arg2) (Gen.iblk3 V c 0 t) (Gen.iblk3 V c 1 t) (V c main_arg14) (V c main_arg15) (V c main_v45) (V c main_v46)
    (t.val * 5000) (rows_le t) (blk0_tile V c t) (blk1_tile V c t) p q

/-- WHAT POINT t WRITES BACK is block t of the whole-array function. -/
theorem flushed_eq (c : Dev nD) (t : Fin cfg3.N) :
    (Gen.dat3 V c).flushed 6 t = ((cfg3.win 6).blk t).view.read (Elt Ideal) (G V c) := by
  show (cfg3.win 6).cut (grid3.coords t) ((Gen.dat3 V c).after 6 t) = _
  rw [Gen.after3_6]
  unfold Gen.out3_6
  rw [View.canon_unit_zero hz2]
  simp only [View.ld_unit_zero (S := S5000x128) hz2, View.ld_unit_zero (S := S128x256) hz2, View.ld_unit_zero (S := S256) hz1,
    View.ld_unit_zero (S := S1x128) hz2]
  obtain ⟨-, -, -, -, -, -, -, -, -, -, -, e0, e1⟩ := idx_facts t
  funext j
  obtain ⟨p, q, rfl⟩ : ∃ (p : Fin 5000) (q : Fin 128), j = ix2 p q := ⟨j 0, j 1, eq_ix2 j⟩
  show Gen.k3_pay1 (Gen.iblk3 V c 1 t) (Gen.iblk3 V c 2 t) (Gen.iblk3 V c 3 t) (Gen.iblk3 V c 0 t) (Gen.iblk3 V c 4 t) (Gen.iblk3 V c 5 t) (ix2 p q)
      = G V c (((cfg3.win 6).blk t).view.emb (ix2 p q))
  rw [pay_blocks V c t p q]
  refine congrArg (G V c) ?_
  funext a
  apply Fin.ext
  match a with
  | ⟨0, _⟩ => show t.val * 5000 + p.val = win3_6.index t (0 : Fin 2) * 5000 + 1 * p.val; rw [e0]; omega
  | ⟨1, _⟩ => show q.val = win3_6.index t (1 : Fin 2) * 128 + 1 * q.val; rw [e1]; omega

/-- An index of the array is in point t's block iff each coordinate is in the block's range on its axis. -/
theorem mem_blk (t : Fin cfg3.N) (i : S100000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v47).slice (win3_6.rect t)).set ↔ _
  rw [View.set_slice_whole, Rect.mem_set_unit]
  exact Iff.rfl

/-- Row r of the array is in the block of point r / 5000. -/
theorem cover (i : S100000x128.Idx) : ∃ t : Fin cfg3.N, (cfg3.win 6).flush t = true ∧ i ∈ ((cfg3.win 6).blk t).view.set := by
  have hi0 : (i 0).val < 100000 := (i 0).isLt
  have hi1 : (i 1).val < 128 := (i 1).isLt
  have hN : grid3.N = 20 := Gen.N_3
  have ht : (i 0).val / 5000 < cfg3.N := by show _ < grid3.N; rw [hN]; omega
  obtain ⟨-, -, -, -, -, -, -, -, -, -, -, e0, e1⟩ := idx_facts ⟨(i 0).val / 5000, ht⟩
  refine ⟨⟨(i 0).val / 5000, ht⟩, Gen.flush3_6 _, ?_⟩
  rw [mem_blk]
  intro a
  match a with
  | ⟨0, _⟩ =>
    show win3_6.index ⟨(i 0).val / 5000, ht⟩ (0 : Fin 2) * 5000 ≤ (i 0).val ∧ (i 0).val < win3_6.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win3_6.index ⟨(i 0).val / 5000, ht⟩ (1 : Fin 2) * 128 ≤ (i 1).val ∧ (i 1).val < win3_6.index ⟨(i 0).val / 5000, ht⟩ (1 : Fin 2) * 128 + 128
    rw [e1]; omega

end Region

/-- THE ARRAY AFTER THE RUN: the output window's array holds the style normalisation of the arrays the region finds. -/
theorem final (V : (c : Dev nD) → (b : Ref sig .tc) → Buf (Elt Ideal) ((c : Thread nD τ).loc b)) (c : Dev nD) :
    (Gen.dat3 (F := Ideal) V c).arrAt 6 cfg3.N = Cert.Spec.adainK (V c main_v41) (V c main_arg2) (V c main_arg14) (V c main_arg15) (V c main_v45) (V c main_v46) :=
  (Gen.dat3 (F := Ideal) V c).arrAt_eq_of_cover 6 (G V c) (fun t _ => flushed_eq V c t) cover

end Cert.KernelIdeal.Region3

end
-- ==== Proof.KStages.lean ====
/-
  The kernel program's buffer contents, stage by stage. Through the fold of the buffer contents along the program
  (a host stretch rewrites the buffers its operations write; a region rewrites its output arrays and leaves every other
  buffer, its input arrays included, as entered):
  * the argument arrays are as launched wherever a stage reads them;
  * the two index vectors the first host stretch builds are carried unchanged to the stages that read them;
  * each region's output array is the whole-array function of `Spec` of the arrays it finds, the arguments among them
    written as launched.
-/
import proofs.«150243_j31774168056051_1_alg».proof.Proof.Region0
import proofs.«150243_j31774168056051_1_alg».proof.Proof.Region1
import proofs.«150243_j31774168056051_1_alg».proof.Proof.Region2
import proofs.«150243_j31774168056051_1_alg».proof.Proof.Region3
import proofs.«150243_j31774168056051_1_alg».proof.Proof.Spec
import Idealize.ShloMosaic.Lib.StableHlo.Run

set_option maxRecDepth 16384

noncomputable section

namespace Cert.KernelIdeal.KStages

open Idealize.ShloMosaic Idealize.ShloMosaic.TcCoe Idealize.SL.Sem Cert.KernelIdeal Cert.KernelIdeal.Gen
open Idealize.ShloMosaic.Pipeline (Dat Cfg Window)

variable (m : (ℓ : Loc nD τ sig) → Buf (Elt Ideal) ℓ) (ρ : Dev nD → PrngReg) (c : Dev nD)

/-- A buffer that no operation of a host stretch writes holds after the stretch what it held before: closes
    `StableHlo.after ops V b = V b` for the named stretch and a literal reference `b`. -/
macro "host_keeps " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## The arguments, as launched, where the stages read them

Each step is one of three: a host stretch none of whose operations writes the buffer; a region none of whose windows
is the buffer; a region that reads the buffer through an input window (which it leaves as entered). -/

/-! ### After the first host stretch (region 0's entry) -/

theorem W1_arg0 : W1 m ρ c (Proc.devRef .tc main_arg0) = m ((c : Thread nD τ).loc main_arg0) :=
  (by host_keeps hostOps0 : W1 m ρ c (Proc.devRef .tc main_arg0) = W0 m ρ c (Proc.devRef .tc main_arg0)).trans rfl
theorem W1_arg1 : W1 m ρ c (Proc.devRef .tc main_arg1) = m ((c : Thread nD τ).loc main_arg1) :=
  (by host_keeps hostOps0 : W1 m ρ c (Proc.devRef .tc main_arg1) = W0 m ρ c (Proc.devRef .tc main_arg1)).trans rfl
theorem W1_arg2 : W1 m ρ c (Proc.devRef .tc main_arg2) = m ((c : Thread nD τ).loc main_arg2) :=
  (by host_keeps hostOps0 : W1 m ρ c (Proc.devRef .tc main_arg2) = W0 m ρ c (Proc.devRef .tc main_arg2)).trans rfl
theorem W1_arg4 : W1 m ρ c (Proc.devRef .tc main_arg4) = m ((c : Thread nD τ).loc main_arg4) :=
  (by host_keeps hostOps0 : W1 m ρ c (Proc.devRef .tc main_arg4) = W0 m ρ c (Proc.devRef .tc main_arg4)).trans rfl
theorem W1_arg5 : W1 m ρ c (Proc.devRef .tc main_arg5) = m ((c : Thread nD τ).loc main_arg5) :=
  (by host_keeps hostOps0 : W1 m ρ c (Proc.devRef .tc main_arg5) = W0 m ρ c (Proc.devRef .tc main_arg5)).trans rfl
theorem W1_arg6 : W1 m ρ c (Proc.devRef .tc main_arg6) = m ((c : Thread nD τ).loc main_arg6) :=
  (by host_keeps hostOps0 : W1 m ρ c (Proc.devRef .tc main_arg6) = W0 m ρ c (Proc.devRef .tc main_arg6)).trans rfl
theorem W1_arg7 : W1 m ρ c (Proc.devRef .tc main_arg7) = m ((c : Thread nD τ).loc main_arg7) :=
  (by host_keeps hostOps0 : W1 m ρ c (Proc.devRef .tc main_arg7) = W0 m ρ c (Proc.devRef .tc main_arg7)).trans rfl
theorem W1_arg8 : W1 m ρ c (Proc.devRef .tc main_arg8) = m ((c : Thread nD τ).loc main_arg8) :=
  (by host_keeps hostOps0 : W1 m ρ c (Proc.devRef .tc main_arg8) = W0 m ρ c (Proc.devRef .tc main_arg8)).trans rfl
theorem W1_arg9 : W1 m ρ c (Proc.devRef .tc main_arg9) = m ((c : Thread nD τ).loc main_arg9) :=
  (by host_keeps hostOps0 : W1 m ρ c (Proc.devRef .tc main_arg9) = W0 m ρ c (Proc.devRef .tc main_arg9)).trans rfl
theorem W1_arg10 : W1 m ρ c (Proc.devRef .tc main_arg10) = m ((c : Thread nD τ).loc main_arg10) :=
  (by host_keeps hostOps0 : W1 m ρ c (Proc.devRef .tc main_arg10) = W0 m ρ c (Proc.devRef .tc main_arg10)).trans rfl
theorem W1_arg11 : W1 m ρ c (Proc.devRef .tc main_arg11) = m ((c : Thread nD τ).loc main_arg11) :=
  (by host_keeps hostOps0 : W1 m ρ c (Proc.devRef .tc main_arg11) = W0 m ρ c (Proc.devRef .tc main_arg11)).trans rfl
theorem W1_arg12 : W1 m ρ c (Proc.devRef .tc main_arg12) = m ((c : Thread nD τ).loc main_arg12) :=
  (by host_keeps hostOps0 : W1 m ρ c (Proc.devRef .tc main_arg12) = W0 m ρ c (Proc.devRef .tc main_arg12)).trans rfl
theorem W1_arg13 : W1 m ρ c (Proc.devRef .tc main_arg13) = m ((c : Thread nD τ).loc main_arg13) :=
  (by host_keeps hostOps0 : W1 m ρ c (Proc.devRef .tc main_arg13) = W0 m ρ c (Proc.devRef .tc main_arg13)).trans rfl
theorem W1_arg14 : W1 m ρ c (Proc.devRef .tc main_arg14) = m ((c : Thread nD τ).loc main_arg14) :=
  (by host_keeps hostOps0 : W1 m ρ c (Proc.devRef .tc main_arg14) = W0 m ρ c (Proc.devRef .tc main_arg14)).trans rfl
theorem W1_arg15 : W1 m ρ c (Proc.devRef .tc main_arg15) = m ((c : Thread nD τ).loc main_arg15) :=
  (by host_keeps hostOps0 : W1 m ρ c (Proc.devRef .tc main_arg15) = W0 m ρ c (Proc.devRef .tc main_arg15)).trans rfl

/-! ### At region 0's exit -/

theorem W2_arg0 : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (W1_arg0 m ρ c)
theorem W2_arg1 : W2 m ρ c (Proc.devRef .tc main_arg1) = m ((c : Thread nD τ).loc main_arg1) :=
  (W2_of_ne m ρ c main_arg1 (by decide)).trans (W1_arg1 m ρ c)
theorem W2_arg2 : W2 m ρ c (Proc.devRef .tc main_arg2) = m ((c : Thread nD τ).loc main_arg2) :=
  (W2_of_ne m ρ c main_arg2 (by decide)).trans (W1_arg2 m ρ c)
theorem W2_arg8 : W2 m ρ c (Proc.devRef .tc main_arg8) = m ((c : Thread nD τ).loc main_arg8) :=
  (W2_of_ne m ρ c main_arg8 (by decide)).trans (W1_arg8 m ρ c)
theorem W2_arg9 : W2 m ρ c (Proc.devRef .tc main_arg9) = m ((c : Thread nD τ).loc main_arg9) :=
  (W2_of_ne m ρ c main_arg9 (by decide)).trans (W1_arg9 m ρ c)
theorem W2_arg10 : W2 m ρ c (Proc.devRef .tc main_arg10) = m ((c : Thread nD τ).loc main_arg10) :=
  (W2_of_ne m ρ c main_arg10 (by decide)).trans (W1_arg10 m ρ c)
theorem W2_arg11 : W2 m ρ c (Proc.devRef .tc main_arg11) = m ((c : Thread nD τ).loc main_arg11) :=
  (W2_of_ne m ρ c main_arg11 (by decide)).trans (W1_arg11 m ρ c)
theorem W2_arg12 : W2 m ρ c (Proc.devRef .tc main_arg12) = m ((c : Thread nD τ).loc main_arg12) :=
  (W2_of_ne m ρ c main_arg12 (by decide)).trans (W1_arg12 m ρ c)
theorem W2_arg13 : W2 m ρ c (Proc.devRef .tc main_arg13) = m ((c : Thread nD τ).loc main_arg13) :=
  (W2_of_ne m ρ c main_arg13 (by decide)).trans (W1_arg13 m ρ c)
theorem W2_arg14 : W2 m ρ c (Proc.devRef .tc main_arg14) = m ((c : Thread nD τ).loc main_arg14) :=
  (W2_of_ne m ρ c main_arg14 (by decide)).trans (W1_arg14 m ρ c)
theorem W2_arg15 : W2 m ρ c (Proc.devRef .tc main_arg15) = m ((c : Thread nD τ).loc main_arg15) :=
  (W2_of_ne m ρ c main_arg15 (by decide)).trans (W1_arg15 m ρ c)

/-! ### After the second host stretch (region 1's entry) -/

theorem W3_arg0 : W3 m ρ c (Proc.devRef .tc main_arg0) = m ((c : Thread nD τ).loc main_arg0) :=
  (by host_keeps hostOps1 : W3 m ρ c (Proc.devRef .tc main_arg0) = W2 m ρ c (Proc.devRef .tc main_arg0)).trans (W2_arg0 m ρ c)
theorem W3_arg2 : W3 m ρ c (Proc.devRef .tc main_arg2) = m ((c : Thread nD τ).loc main_arg2) :=
  (by host_keeps hostOps1 : W3 m ρ c (Proc.devRef .tc main_arg2) = W2 m ρ c (Proc.devRef .tc main_arg2)).trans (W2_arg2 m ρ c)
theorem W3_arg8 : W3 m ρ c (Proc.devRef .tc main_arg8) = m ((c : Thread nD τ).loc main_arg8) :=
  (by host_keeps hostOps1 : W3 m ρ c (Proc.devRef .tc main_arg8) = W2 m ρ c (Proc.devRef .tc main_arg8)).trans (W2_arg8 m ρ c)
theorem W3_arg9 : W3 m ρ c (Proc.devRef .tc main_arg9) = m ((c : Thread nD τ).loc main_arg9) :=
  (by host_keeps hostOps1 : W3 m ρ c (Proc.devRef .tc main_arg9) = W2 m ρ c (Proc.devRef .tc main_arg9)).trans (W2_arg9 m ρ c)
theorem W3_arg10 : W3 m ρ c (Proc.devRef .tc main_arg10) = m ((c : Thread nD τ).loc main_arg10) :=
  (by host_keeps hostOps1 : W3 m ρ c (Proc.devRef .tc main_arg10) = W2 m ρ c (Proc.devRef .tc main_arg10)).trans (W2_arg10 m ρ c)
theorem W3_arg11 : W3 m ρ c (Proc.devRef .tc main_arg11) = m ((c : Thread nD τ).loc main_arg11) :=
  (by host_keeps hostOps1 : W3 m ρ c (Proc.devRef .tc main_arg11) = W2 m ρ c (Proc.devRef .tc main_arg11)).trans (W2_arg11 m ρ c)
theorem W3_arg12 : W3 m ρ c (Proc.devRef .tc main_arg12) = m ((c : Thread nD τ).loc main_arg12) :=
  (by host_keeps hostOps1 : W3 m ρ c (Proc.devRef .tc main_arg12) = W2 m ρ c (Proc.devRef .tc main_arg12)).trans (W2_arg12 m ρ c)
theorem W3_arg13 : W3 m ρ c (Proc.devRef .tc main_arg13) = m ((c : Thread nD τ).loc main_arg13) :=
  (by host_keeps hostOps1 : W3 m ρ c (Proc.devRef .tc main_arg13) = W2 m ρ c (Proc.devRef .tc main_arg13)).trans (W2_arg13 m ρ c)
theorem W3_arg14 : W3 m ρ c (Proc.devRef .tc main_arg14) = m ((c : Thread nD τ).loc main_arg14) :=
  (by host_keeps hostOps1 : W3 m ρ c (Proc.devRef .tc main_arg14) = W2 m ρ c (Proc.devRef .tc main_arg14)).trans (W2_arg14 m ρ c)
theorem W3_arg15 : W3 m ρ c (Proc.devRef .tc main_arg15) = m ((c : Thread nD τ).loc main_arg15) :=
  (by host_keeps hostOps1 : W3 m ρ c (Proc.devRef .tc main_arg15) = W2 m ρ c (Proc.devRef .tc main_arg15)).trans (W2_arg15 m ρ c)

/-! ### At region 1's exit -/

theorem W4_arg0 : W4 m ρ c (Proc.devRef .tc main_arg0) = m ((c : Thread nD τ).loc main_arg0) :=
  (W4_of_ne m ρ c main_arg0 (by decide)).trans (W3_arg0 m ρ c)
theorem W4_arg2 : W4 m ρ c (Proc.devRef .tc main_arg2) = m ((c : Thread nD τ).loc main_arg2) :=
  (W4_of_ne m ρ c main_arg2 (by decide)).trans (W3_arg2 m ρ c)
theorem W4_arg10 : W4 m ρ c (Proc.devRef .tc main_arg10) = m ((c : Thread nD τ).loc main_arg10) :=
  (W4_of_ne m ρ c main_arg10 (by decide)).trans (W3_arg10 m ρ c)
theorem W4_arg11 : W4 m ρ c (Proc.devRef .tc main_arg11) = m ((c : Thread nD τ).loc main_arg11) :=
  (W4_of_ne m ρ c main_arg11 (by decide)).trans (W3_arg11 m ρ c)
theorem W4_arg12 : W4 m ρ c (Proc.devRef .tc main_arg12) = m ((c : Thread nD τ).loc main_arg12) :=
  (W4_of_ne m ρ c main_arg12 (by decide)).trans (W3_arg12 m ρ c)
theorem W4_arg13 : W4 m ρ c (Proc.devRef .tc main_arg13) = m ((c : Thread nD τ).loc main_arg13) :=
  (W4_of_ne m ρ c main_arg13 (by decide)).trans (W3_arg13 m ρ c)
theorem W4_arg14 : W4 m ρ c (Proc.devRef .tc main_arg14) = m ((c : Thread nD τ).loc main_arg14) :=
  (W4_of_ne m ρ c main_arg14 (by decide)).trans (W3_arg14 m ρ c)
theorem W4_arg15 : W4 m ρ c (Proc.devRef .tc main_arg15) = m ((c : Thread nD τ).loc main_arg15) :=
  (W4_of_ne m ρ c main_arg15 (by decide)).trans (W3_arg15 m ρ c)

/-! ### After the third host stretch (region 2's entry) -/

theorem W5_arg0 : W5 m ρ c (Proc.devRef .tc main_arg0) = m ((c : Thread nD τ).loc main_arg0) :=
  (by host_keeps hostOps2 : W5 m ρ c (Proc.devRef .tc main_arg0) = W4 m ρ c (Proc.devRef .tc main_arg0)).trans (W4_arg0 m ρ c)
theorem W5_arg2 : W5 m ρ c (Proc.devRef .tc main_arg2) = m ((c : Thread nD τ).loc main_arg2) :=
  (by host_keeps hostOps2 : W5 m ρ c (Proc.devRef .tc main_arg2) = W4 m ρ c (Proc.devRef .tc main_arg2)).trans (W4_arg2 m ρ c)
theorem W5_arg10 : W5 m ρ c (Proc.devRef .tc main_arg10) = m ((c : Thread nD τ).loc main_arg10) :=
  (by host_keeps hostOps2 : W5 m ρ c (Proc.devRef .tc main_arg10) = W4 m ρ c (Proc.devRef .tc main_arg10)).trans (W4_arg10 m ρ c)
theorem W5_arg11 : W5 m ρ c (Proc.devRef .tc main_arg11) = m ((c : Thread nD τ).loc main_arg11) :=
  (by host_keeps hostOps2 : W5 m ρ c (Proc.devRef .tc main_arg11) = W4 m ρ c (Proc.devRef .tc main_arg11)).trans (W4_arg11 m ρ c)
theorem W5_arg12 : W5 m ρ c (Proc.devRef .tc main_arg12) = m ((c : Thread nD τ).loc main_arg12) :=
  (by host_keeps hostOps2 : W5 m ρ c (Proc.devRef .tc main_arg12) = W4 m ρ c (Proc.devRef .tc main_arg12)).trans (W4_arg12 m ρ c)
theorem W5_arg13 : W5 m ρ c (Proc.devRef .tc main_arg13) = m ((c : Thread nD τ).loc main_arg13) :=
  (by host_keeps hostOps2 : W5 m ρ c (Proc.devRef .tc main_arg13) = W4 m ρ c (Proc.devRef .tc main_arg13)).trans (W4_arg13 m ρ c)
theorem W5_arg14 : W5 m ρ c (Proc.devRef .tc main_arg14) = m ((c : Thread nD τ).loc main_arg14) :=
  (by host_keeps hostOps2 : W5 m ρ c (Proc.devRef .tc main_arg14) = W4 m ρ c (Proc.devRef .tc main_arg14)).trans (W4_arg14 m ρ c)
theorem W5_arg15 : W5 m ρ c (Proc.devRef .tc main_arg15) = m ((c : Thread nD τ).loc main_arg15) :=
  (by host_keeps hostOps2 : W5 m ρ c (Proc.devRef .tc main_arg15) = W4 m ρ c (Proc.devRef .tc main_arg15)).trans (W4_arg15 m ρ c)

/-! ### At region 2's exit, and after the two host stretches before region 3 -/

theorem W6_arg2 : W6 m ρ c (Proc.devRef .tc main_arg2) = m ((c : Thread nD τ).loc main_arg2) :=
  (W6_of_ne m ρ c main_arg2 (by decide)).trans (W5_arg2 m ρ c)
theorem W7_arg2 : W7 m ρ c (Proc.devRef .tc main_arg2) = m ((c : Thread nD τ).loc main_arg2) :=
  (by host_keeps hostOps3 : W7 m ρ c (Proc.devRef .tc main_arg2) = W6 m ρ c (Proc.devRef .tc main_arg2)).trans (W6_arg2 m ρ c)
theorem W8_arg2 : W8 m ρ c (Proc.devRef .tc main_arg2) = m ((c : Thread nD τ).loc main_arg2) :=
  (by host_keeps hostOps3_1 : W8 m ρ c (Proc.devRef .tc main_arg2) = W7 m ρ c (Proc.devRef .tc main_arg2)).trans (W7_arg2 m ρ c)
theorem W6_arg14 : W6 m ρ c (Proc.devRef .tc main_arg14) = m ((c : Thread nD τ).loc main_arg14) :=
  (W6_of_ne m ρ c main_arg14 (by decide)).trans (W5_arg14 m ρ c)
theorem W7_arg14 : W7 m ρ c (Proc.devRef .tc main_arg14) = m ((c : Thread nD τ).loc main_arg14) :=
  (by host_keeps hostOps3 : W7 m ρ c (Proc.devRef .tc main_arg14) = W6 m ρ c (Proc.devRef .tc main_arg14)).trans (W6_arg14 m ρ c)
theorem W8_arg14 : W8 m ρ c (Proc.devRef .tc main_arg14) = m ((c : Thread nD τ).loc main_arg14) :=
  (by host_keeps hostOps3_1 : W8 m ρ c (Proc.devRef .tc main_arg14) = W7 m ρ c (Proc.devRef .tc main_arg14)).trans (W7_arg14 m ρ c)
theorem W6_arg15 : W6 m ρ c (Proc.devRef .tc main_arg15) = m ((c : Thread nD τ).loc main_arg15) :=
  (W6_of_ne m ρ c main_arg15 (by decide)).trans (W5_arg15 m ρ c)
theorem W7_arg15 : W7 m ρ c (Proc.devRef .tc main_arg15) = m ((c : Thread nD τ).loc main_arg15) :=
  (by host_keeps hostOps3 : W7 m ρ c (Proc.devRef .tc main_arg15) = W6 m ρ c (Proc.devRef .tc main_arg15)).trans (W6_arg15 m ρ c)
theorem W8_arg15 : W8 m ρ c (Proc.devRef .tc main_arg15) = m ((c : Thread nD τ).loc main_arg15) :=
  (by host_keeps hostOps3_1 : W8 m ρ c (Proc.devRef .tc main_arg15) = W7 m ρ c (Proc.devRef .tc main_arg15)).trans (W7_arg15 m ρ c)

/-! ## The index vectors, carried -/

/-- Region 0 has no window on the source-index vector. -/
theorem W2_v1 : W2 m ρ c (Proc.devRef .tc main_v1) = W1 m ρ c (Proc.devRef .tc main_v1) := W2_of_ne m ρ c main_v1 (by decide)
/-- Nor on the destination-index vector. -/
theorem W2_v3 : W2 m ρ c (Proc.devRef .tc main_v3) = W1 m ρ c (Proc.devRef .tc main_v3) := W2_of_ne m ρ c main_v3 (by decide)
/-- The destination-index vector reaches region 1's exit as the first host stretch left it. -/
theorem W4_v3 : W4 m ρ c (Proc.devRef .tc main_v3) = W1 m ρ c (Proc.devRef .tc main_v3) :=
  (W4_of_ne m ρ c main_v3 (by decide)).trans
    ((by host_keeps hostOps1 : W3 m ρ c (Proc.devRef .tc main_v3) = W2 m ρ c (Proc.devRef .tc main_v3)).trans (W2_v3 m ρ c))

/-! ## What region 3 finds of the earlier stages' results -/

/-- The two host stretches before region 3 do not write region 2's output. -/
theorem W8_v41 : W8 m ρ c (Proc.devRef .tc main_v41) = W6 m ρ c (Proc.devRef .tc main_v41) :=
  (by host_keeps hostOps3_1 : W8 m ρ c (Proc.devRef .tc main_v41) = W7 m ρ c (Proc.devRef .tc main_v41)).trans
    (by host_keeps hostOps3 : W7 m ρ c (Proc.devRef .tc main_v41) = W6 m ρ c (Proc.devRef .tc main_v41))
/-- The second of them does not write the mean row. -/
theorem W8_v45 : W8 m ρ c (Proc.devRef .tc main_v45) = W7 m ρ c (Proc.devRef .tc main_v45) := by host_keeps hostOps3_1

/-! ## The regions' outputs -/

/-- Region 0 leaves the node offsets of the arguments as launched. -/
theorem k_delta : W2 m ρ c (Proc.devRef .tc main_v4)
    = Cert.Spec.delta (m ((c : Thread nD τ).loc main_arg0)) (m ((c : Thread nD τ).loc main_arg4)) (m ((c : Thread nD τ).loc main_arg5)) (m ((c : Thread nD τ).loc main_arg6)) (m ((c : Thread nD τ).loc main_arg7)) := by
  refine (W2_arr m ρ c 5).trans ?_
  rw [Region0.final (V1 m ρ) c]
  show Cert.Spec.delta (W1 m ρ c (Proc.devRef .tc main_arg0)) (W1 m ρ c (Proc.devRef .tc main_arg4)) (W1 m ρ c (Proc.devRef .tc main_arg5))
    (W1 m ρ c (Proc.devRef .tc main_arg6)) (W1 m ρ c (Proc.devRef .tc main_arg7)) = _
  rw [W1_arg0, W1_arg4, W1_arg5, W1_arg6, W1_arg7]

/-- Region 1 leaves the edge messages of the edge inputs the second host stretch built and the launched weights. -/
theorem k_msg : W4 m ρ c (Proc.devRef .tc main_v37)
    = Cert.Spec.msg (W3 m ρ c (Proc.devRef .tc main_v36)) (m ((c : Thread nD τ).loc main_arg8)) (m ((c : Thread nD τ).loc main_arg9)) := by
  refine (W4_arr m ρ c 3).trans ?_
  rw [Region1.final (V3 m ρ) c]
  show Cert.Spec.msg (W3 m ρ c (Proc.devRef .tc main_v36)) (W3 m ρ c (Proc.devRef .tc main_arg8)) (W3 m ρ c (Proc.devRef .tc main_arg9)) = _
  rw [W3_arg8, W3_arg9]

/-- Region 2 leaves the node features before normalisation, of the aggregate the third host stretch built, the
    launched node features and the launched weights. -/
theorem k_out : W6 m ρ c (Proc.devRef .tc main_v41)
    = Cert.Spec.outraw (W5 m ρ c (Proc.devRef .tc main_v40)) (m ((c : Thread nD τ).loc main_arg0)) (m ((c : Thread nD τ).loc main_arg10)) (m ((c : Thread nD τ).loc main_arg11)) (m ((c : Thread nD τ).loc main_arg12)) (m ((c : Thread nD τ).loc main_arg13)) := by
  refine (W6_arr m ρ c 6).trans ?_
  rw [Region2.final (V5 m ρ) c]
  show Cert.Spec.outraw (W5 m ρ c (Proc.devRef .tc main_v40)) (W5 m ρ c (Proc.devRef .tc main_arg0)) (W5 m ρ c (Proc.devRef .tc main_arg10))
    (W5 m ρ c (Proc.devRef .tc main_arg11)) (W5 m ρ c (Proc.devRef .tc main_arg12)) (W5 m ρ c (Proc.devRef .tc main_arg13)) = _
  rw [W5_arg0, W5_arg10, W5_arg11, W5_arg12, W5_arg13]

/-- Region 3 leaves the normalised features of region 2's output, the launched style and weights, the mean row the
    fourth host stretch built and the variance row the fifth built. -/
theorem k_fin : W9 m ρ c (Proc.devRef .tc main_v47)
    = Cert.Spec.adainK (W6 m ρ c (Proc.devRef .tc main_v41)) (m ((c : Thread nD τ).loc main_arg2)) (m ((c : Thread nD τ).loc main_arg14)) (m ((c : Thread nD τ).loc main_arg15))
        (W7 m ρ c (Proc.devRef .tc main_v45)) (W8 m ρ c (Proc.devRef .tc main_v46)) := by
  refine (W9_arr m ρ c 6).trans ?_
  rw [Region3.final (V8 m ρ) c]
  show Cert.Spec.adainK (W8 m ρ c (Proc.devRef .tc main_v41)) (W8 m ρ c (Proc.devRef .tc main_arg2)) (W8 m ρ c (Proc.devRef .tc main_arg14))
    (W8 m ρ c (Proc.devRef .tc main_arg15)) (W8 m ρ c (Proc.devRef .tc main_v45)) (W8 m ρ c (Proc.devRef .tc main_v46)) = _
  rw [W8_v41, W8_arg2, W8_arg14, W8_arg15, W8_v45]

end Cert.KernelIdeal.KStages

end
-- ==== Proof.SpecVar.lean ====
/-
  The column statistics of a 100000 × 128 array, as the host computes them: the column sums (a sum over the rows from
  zero, kept as a 1 × 128 row), the mean row (the sums divided by 100000), the centred array, and the variance row —
  the column sums of the squared centred entries divided by the count 100000 − 0, with the count's positivity test
  choosing between that quotient and the not-a-number pattern.
-/
import proofs.«150243_j31774168056051_1_alg».proof.Proof.Spec

noncomputable section

namespace Cert.Spec

open Idealize.ShloMosaic Cert.ReferenceIdeal Cert.ReferenceIdeal.Facts₀

/-- Column sums, as a 1 × 128 row. -/
def sumRow (x : A S100000x128) : A S1x128 :=
  broadcastInDim S1x128 ![1] bcast_S128_S1x128_1
    (Host.reduceAdd x (constant (F := Ideal) S_ .f32 0x00000000#32) reducesTo_S100000x128_S128_d0 h_S_)

/-- One value repeated along a 1 × 128 row. -/
def splatRow (s : A S_) : A S1x128 := broadcastInDim S1x128 ![] bcast_S_S1x128 s

/-- The column means: sums divided by 100000. -/
def meanRow (o : A S100000x128) : A S1x128 :=
  Host.divf (sumRow o) (splatRow (constant (F := Ideal) S_ .f32 0x47C35000#32))

/-- The divisor of the variance: 100000 minus the degrees-of-freedom correction 0. -/
def count : A S_ :=
  subf (constant (F := Ideal) S_ .f32 0x47C35000#32) (sitofp (F := Ideal) .f32 (constantI S_ 32 0#32))

/-- The array with its column means subtracted. -/
def centred (o : A S100000x128) : A S100000x128 := subf o (rep (meanRow o))

/-- The column variances: mean of the squared centred entries, guarded by the count's positivity. -/
def varRow (o : A S100000x128) : A S1x128 :=
  select (broadcastInDim S1x128 ![] bcast_S_S1x128 (cmpf .ogt count (constant (F := Ideal) S_ .f32 0x00000000#32)))
    (Host.divf (sumRow (mulf (centred o) (centred o))) (splatRow count))
    (splatRow (id (constant (F := Ideal) S_ .f32 0x7FC00000#32)))

end Cert.Spec

end
-- ==== Proof.RefStages.lean ====
/- The reference program's fold read stage by stage, at the extended reals: for any contents `W` of the buffers a
   segment reads, the buffer a segment's last operation writes holds the corresponding whole-array function of
   Proof/Spec.lean — the node offsets, the edge messages, the residual stage with its slope, the normalisation —
   and the row of column means and the row of column variances are the two functions of Proof/SpecVar.lean. -/
import proofs.«150243_j31774168056051_1_alg».proof.Proof.RefRun
import proofs.«150243_j31774168056051_1_alg».proof.Proof.Spec
import proofs.«150243_j31774168056051_1_alg».proof.Proof.SpecVar

noncomputable section

namespace Cert.ReferenceIdeal.Stages

open Cert.ReferenceIdeal Cert.ReferenceIdeal.Gen Cert.ReferenceIdeal.HandRun Idealize.ShloMosaic Idealize.ShloMosaic.TcCoe Idealize.SL.Sem Idealize.ShloMosaic.StableHlo

/-- The node offsets: the buffer of %13 after the first dense segment is `Spec.delta` of the node features and the two layers' weights and biases. -/
theorem refD (W : Valuation τ sig (Elt Ideal)) :
    after (opsD (F := Ideal)) W (main_v13 : DevRef τ sig)
      = Cert.Spec.delta (W (main_arg0 : DevRef τ sig)) (W (main_arg4 : DevRef τ sig)) (W (main_arg5 : DevRef τ sig)) (W (main_arg6 : DevRef τ sig)) (W (main_arg7 : DevRef τ sig)) := by
  unfold opsD
  after_results
  rfl

/-- The edge messages: the buffer of %49 after the edge layer's segment is `Spec.msg` of the edge inputs and the layer's weight and bias. -/
theorem refM (W : Valuation τ sig (Elt Ideal)) :
    after (opsM (F := Ideal)) W (main_v49 : DevRef τ sig)
      = Cert.Spec.msg (W (main_v44 : DevRef τ sig)) (W (main_arg8 : DevRef τ sig)) (W (main_arg9 : DevRef τ sig)) := by
  unfold opsM
  after_results
  rfl

/-- The node features before normalisation: the buffer of %67 is `Spec.outraw` of the aggregated messages, the node features and the two node layers. -/
theorem refO (W : Valuation τ sig (Elt Ideal)) :
    after (opsO (F := Ideal)) W (main_v67 : DevRef τ sig)
      = Cert.Spec.outraw (W (main_v52 : DevRef τ sig)) (W (main_arg0 : DevRef τ sig)) (W (main_arg10 : DevRef τ sig)) (W (main_arg11 : DevRef τ sig)) (W (main_arg12 : DevRef τ sig)) (W (main_arg13 : DevRef τ sig)) := by
  unfold opsO
  after_results_simp
  rfl

/-- The row of column means: the buffer of %77 is `Spec.meanRow` of the node features before normalisation. -/
theorem refMu (W : Valuation τ sig (Elt Ideal)) :
    after (opsMu (F := Ideal)) W (main_v77 : DevRef τ sig)
      = Cert.Spec.meanRow (W (main_v67 : DevRef τ sig)) := by
  unfold opsMu
  after_results
  rfl

/-- The row of column variances: the variance segment reads the node features, which the mean segment leaves alone, and the integer zero the mean segment's last operation makes; the buffer of %78 is `Spec.varRow` of the node features. -/
theorem refV (W : Valuation τ sig (Elt Ideal)) :
    after (opsV (F := Ideal)) (after (opsMu (F := Ideal)) W) (main_v78 : DevRef τ sig)
      = Cert.Spec.varRow (W (main_v67 : DevRef τ sig)) := by
  unfold opsV opsMu
  after_results_simp
  rfl

/-- The normalisation: after the conditioning, mean, variance and final segments the result buffer of %87 is `Spec.adainR` of the node features before normalisation, the three conditioning arguments, the mean row in the buffer of %77 and the variance row in the buffer of %78. -/
theorem refGF (W : Valuation τ sig (Elt Ideal)) :
    after (opsF (F := Ideal)) (after (opsV (F := Ideal)) (after (opsMu (F := Ideal)) (after (opsG (F := Ideal)) W))) (main_v87 : DevRef τ sig)
      = Cert.Spec.adainR (W (main_v67 : DevRef τ sig)) (W (main_arg2 : DevRef τ sig)) (W (main_arg14 : DevRef τ sig)) (W (main_arg15 : DevRef τ sig))
          (after (opsMu (F := Ideal)) (after (opsG (F := Ideal)) W) (main_v77 : DevRef τ sig))
          (after (opsV (F := Ideal)) (after (opsMu (F := Ideal)) (after (opsG (F := Ideal)) W)) (main_v78 : DevRef τ sig)) := by
  unfold opsF opsV opsMu opsG
  after_results_simp
  rfl

end Cert.ReferenceIdeal.Stages

end
-- ==== Proof.RefPersist.lean ====
/-
  The reference program's buffers carried through its ten stages. With R0 the contents the line of operations starts
  from, RA … RF are the contents after each stage in turn (RF is the contents after the whole line). A buffer that no
  operation of the stages in between writes holds at the later stage what it held at the earlier one: the argument
  arrays up to the stage that reads them, the two index vectors from the first stage to the stages that gather and
  scatter with them, and the node features before normalisation from the stage that computes them through the stage
  that computes the conditioning.
-/
import proofs.«150243_j31774168056051_1_alg».proof.Proof.RefKeep

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The contents after each stage -/

/-- After the index vectors. -/
abbrev RA (R0 : Valuation τ sig (Elt F)) : Valuation τ sig (Elt F) := after opsA R0
/-- After the displacement layers. -/
abbrev RD (R0 : Valuation τ sig (Elt F)) : Valuation τ sig (Elt F) := after opsD (RA R0)
/-- After the edge inputs. -/
abbrev RE (R0 : Valuation τ sig (Elt F)) : Valuation τ sig (Elt F) := after opsE (RD R0)
/-- After the edge layer. -/
abbrev RM (R0 : Valuation τ sig (Elt F)) : Valuation τ sig (Elt F) := after opsM (RE R0)
/-- After the sum into the receivers' rows. -/
abbrev RS (R0 : Valuation τ sig (Elt F)) : Valuation τ sig (Elt F) := after opsS (RM R0)
/-- After the node layers and the slope. -/
abbrev RO (R0 : Valuation τ sig (Elt F)) : Valuation τ sig (Elt F) := after opsO (RS R0)
/-- After the conditioning layer. -/
abbrev RG (R0 : Valuation τ sig (Elt F)) : Valuation τ sig (Elt F) := after opsG (RO R0)
/-- After the column means. -/
abbrev RMu (R0 : Valuation τ sig (Elt F)) : Valuation τ sig (Elt F) := after opsMu (RG R0)
/-- After the column variances. -/
abbrev RV (R0 : Valuation τ sig (Elt F)) : Valuation τ sig (Elt F) := after opsV (RMu R0)
/-- After the normalisation: the end of the line. -/
abbrev RF (R0 : Valuation τ sig (Elt F)) : Valuation τ sig (Elt F) := after opsF (RV R0)

/-- The contents after the whole line are the contents after the last stage. -/
theorem ops_RF (R0 : Valuation τ sig (Elt F)) : after ops R0 = RF R0 := after_ops R0

/-! ## The first stage writes no argument array -/

theorem pA_arg0 (R0 : Valuation τ sig (Elt F)) : RA R0 (main_arg0 : DevRef τ sig) = R0 (main_arg0 : DevRef τ sig) := by
  show after opsA R0 (main_arg0 : DevRef τ sig) = R0 (main_arg0 : DevRef τ sig)
  read_fold
theorem pA_arg4 (R0 : Valuation τ sig (Elt F)) : RA R0 (main_arg4 : DevRef τ sig) = R0 (main_arg4 : DevRef τ sig) := by
  show after opsA R0 (main_arg4 : DevRef τ sig) = R0 (main_arg4 : DevRef τ sig)
  read_fold
theorem pA_arg5 (R0 : Valuation τ sig (Elt F)) : RA R0 (main_arg5 : DevRef τ sig) = R0 (main_arg5 : DevRef τ sig) := by
  show after opsA R0 (main_arg5 : DevRef τ sig) = R0 (main_arg5 : DevRef τ sig)
  read_fold
theorem pA_arg6 (R0 : Valuation τ sig (Elt F)) : RA R0 (main_arg6 : DevRef τ sig) = R0 (main_arg6 : DevRef τ sig) := by
  show after opsA R0 (main_arg6 : DevRef τ sig) = R0 (main_arg6 : DevRef τ sig)
  read_fold
theorem pA_arg7 (R0 : Valuation τ sig (Elt F)) : RA R0 (main_arg7 : DevRef τ sig) = R0 (main_arg7 : DevRef τ sig) := by
  show after opsA R0 (main_arg7 : DevRef τ sig) = R0 (main_arg7 : DevRef τ sig)
  read_fold

/-! ## Through the displacement layers -/

theorem pD_arg0 (R0 : Valuation τ sig (Elt F)) : RD R0 (main_arg0 : DevRef τ sig) = R0 (main_arg0 : DevRef τ sig) := by
  show after opsD (after opsA R0) (main_arg0 : DevRef τ sig) = R0 (main_arg0 : DevRef τ sig)
  read_fold
theorem pD_arg1 (R0 : Valuation τ sig (Elt F)) : RD R0 (main_arg1 : DevRef τ sig) = R0 (main_arg1 : DevRef τ sig) := by
  show after opsD (after opsA R0) (main_arg1 : DevRef τ sig) = R0 (main_arg1 : DevRef τ sig)
  read_fold
/-- The displacement layers write neither index vector. -/
theorem pD_v1 (R0 : Valuation τ sig (Elt F)) : RD R0 (main_v1 : DevRef τ sig) = RA R0 (main_v1 : DevRef τ sig) := by
  show after opsD (RA R0) (main_v1 : DevRef τ sig) = RA R0 (main_v1 : DevRef τ sig)
  generalize RA R0 = W
  read_fold
theorem pD_v3 (R0 : Valuation τ sig (Elt F)) : RD R0 (main_v3 : DevRef τ sig) = RA R0 (main_v3 : DevRef τ sig) := by
  show after opsD (RA R0) (main_v3 : DevRef τ sig) = RA R0 (main_v3 : DevRef τ sig)
  generalize RA R0 = W
  read_fold

/-! ## Through the edge inputs -/

theorem pE_arg8 (R0 : Valuation τ sig (Elt F)) : RE R0 (main_arg8 : DevRef τ sig) = R0 (main_arg8 : DevRef τ sig) := by
  show after opsE (after opsD (after opsA R0)) (main_arg8 : DevRef τ sig) = R0 (main_arg8 : DevRef τ sig)
  read_fold
theorem pE_arg9 (R0 : Valuation τ sig (Elt F)) : RE R0 (main_arg9 : DevRef τ sig) = R0 (main_arg9 : DevRef τ sig) := by
  show after opsE (after opsD (after opsA R0)) (main_arg9 : DevRef τ sig) = R0 (main_arg9 : DevRef τ sig)
  read_fold

/-! ## Through the edge layer -/

/-- The receiver indices reach the scatter as the first stage left them. -/
theorem pM_v3 (R0 : Valuation τ sig (Elt F)) : RM R0 (main_v3 : DevRef τ sig) = RA R0 (main_v3 : DevRef τ sig) := by
  show after opsM (after opsE (after opsD (RA R0))) (main_v3 : DevRef τ sig) = RA R0 (main_v3 : DevRef τ sig)
  generalize RA R0 = W
  read_fold

/-! ## Through the sum into the receivers' rows -/

theorem pS_arg0 (R0 : Valuation τ sig (Elt F)) : RS R0 (main_arg0 : DevRef τ sig) = R0 (main_arg0 : DevRef τ sig) := by
  show after opsS (after opsM (after opsE (after opsD (after opsA R0)))) (main_arg0 : DevRef τ sig) = R0 (main_arg0 : DevRef τ sig)
  read_fold
theorem pS_arg10 (R0 : Valuation τ sig (Elt F)) : RS R0 (main_arg10 : DevRef τ sig) = R0 (main_arg10 : DevRef τ sig) := by
  show after opsS (after opsM (after opsE (after opsD (after opsA R0)))) (main_arg10 : DevRef τ sig) = R0 (main_arg10 : DevRef τ sig)
  read_fold
theorem pS_arg11 (R0 : Valuation τ sig (Elt F)) : RS R0 (main_arg11 : DevRef τ sig) = R0 (main_arg11 : DevRef τ sig) := by
  show after opsS (after opsM (after opsE (after opsD (after opsA R0)))) (main_arg11 : DevRef τ sig) = R0 (main_arg11 : DevRef τ sig)
  read_fold
theorem pS_arg12 (R0 : Valuation τ sig (Elt F)) : RS R0 (main_arg12 : DevRef τ sig) = R0 (main_arg12 : DevRef τ sig) := by
  show after opsS (after opsM (after opsE (after opsD (after opsA R0)))) (main_arg12 : DevRef τ sig) = R0 (main_arg12 : DevRef τ sig)
  read_fold
theorem pS_arg13 (R0 : Valuation τ sig (Elt F)) : RS R0 (main_arg13 : DevRef τ sig) = R0 (main_arg13 : DevRef τ sig) := by
  show after opsS (after opsM (after opsE (after opsD (after opsA R0)))) (main_arg13 : DevRef τ sig) = R0 (main_arg13 : DevRef τ sig)
  read_fold

/-! ## Through the node layers and the slope -/

theorem pO_arg2 (R0 : Valuation τ sig (Elt F)) : RO R0 (main_arg2 : DevRef τ sig) = R0 (main_arg2 : DevRef τ sig) := by
  show after opsO (after opsS (after opsM (after opsE (after opsD (after opsA R0))))) (main_arg2 : DevRef τ sig) = R0 (main_arg2 : DevRef τ sig)
  read_fold
theorem pO_arg14 (R0 : Valuation τ sig (Elt F)) : RO R0 (main_arg14 : DevRef τ sig) = R0 (main_arg14 : DevRef τ sig) := by
  show after opsO (after opsS (after opsM (after opsE (after opsD (after opsA R0))))) (main_arg14 : DevRef τ sig) = R0 (main_arg14 : DevRef τ sig)
  read_fold
theorem pO_arg15 (R0 : Valuation τ sig (Elt F)) : RO R0 (main_arg15 : DevRef τ sig) = R0 (main_arg15 : DevRef τ sig) := by
  show after opsO (after opsS (after opsM (after opsE (after opsD (after opsA R0))))) (main_arg15 : DevRef τ sig) = R0 (main_arg15 : DevRef τ sig)
  read_fold

/-! ## Through the conditioning layer -/

/-- The conditioning layer does not write the node features it will normalise. -/
theorem pG_v67 (R0 : Valuation τ sig (Elt F)) : RG R0 (main_v67 : DevRef τ sig) = RO R0 (main_v67 : DevRef τ sig) := by
  show after opsG (RO R0) (main_v67 : DevRef τ sig) = RO R0 (main_v67 : DevRef τ sig)
  generalize RO R0 = W
  read_fold

end Cert.ReferenceIdeal.HandRun

end
-- ==== Proof.HostStages.lean ====
/- The host stretches the two programs share, at the extended reals. The kernel program's host stretches are the same
   operations as segments of the reference program, over that program's own buffers: the two rows of the edge table;
   the edge inputs (followed, in the kernel program, by a change of format that is the identity at the extended
   reals); the sum of the edge messages into their receivers' rows; the row of column means; the row of column
   variances. So wherever the buffers a stretch reads hold the same arrays in the two programs, the buffer it
   writes last holds the same array in both. -/
import proofs.«150243_j31774168056051_1_alg».proof.Proof.RefRun
import proofs.«150243_j31774168056051_1_alg».proof.Proof.Gen.KernelIdeal.Frame
import Idealize.ShloMosaic.PureOps.Ideal

noncomputable section

namespace Cert.HostStages

open Idealize.ShloMosaic Idealize.ShloMosaic.TcCoe Idealize.SL.Sem Idealize.ShloMosaic.StableHlo

/-- Two arrays side by side along an axis, as a function of the two arrays: `concatenate` of the pair, with the shapes'
    relation stated of the two shapes alone. -/
def concat2 {α : Type} (t : Shape) (a : Fin t.rank) (s₁ s₂ : Shape) (x : s₁.Idx → α) (y : s₂.Idx → α)
    (h : Shape.Concatenates [s₁, s₂] t a) : t.Idx → α :=
  concatenate t a [⟨s₁, x⟩, ⟨s₂, y⟩] h

theorem concatenate_pair {α : Type} (t : Shape) (a : Fin t.rank) (s₁ s₂ : Shape) (x : s₁.Idx → α) (y : s₂.Idx → α)
    (h : Shape.Concatenates [s₁, s₂] t a) : concatenate t a [⟨s₁, x⟩, ⟨s₂, y⟩] h = concat2 t a s₁ s₂ x y h := rfl

variable (Wk : Valuation KernelIdeal.τ KernelIdeal.sig (Elt Ideal)) (Wr : Valuation ReferenceIdeal.τ ReferenceIdeal.sig (Elt Ideal))

/-- The two rows of the edge table as index vectors: equal in the two programs when the edge table is. -/
theorem stA (h3 : Wk (KernelIdeal.main_arg3 : DevRef KernelIdeal.τ KernelIdeal.sig) = Wr (ReferenceIdeal.main_arg3 : DevRef ReferenceIdeal.τ ReferenceIdeal.sig)) :
    after (KernelIdeal.Gen.hostOps0 (F := Ideal)) Wk (KernelIdeal.main_v1 : DevRef KernelIdeal.τ KernelIdeal.sig) = after (ReferenceIdeal.HandRun.opsA (F := Ideal)) Wr (ReferenceIdeal.main_v1 : DevRef ReferenceIdeal.τ ReferenceIdeal.sig)
    ∧ after (KernelIdeal.Gen.hostOps0 (F := Ideal)) Wk (KernelIdeal.main_v3 : DevRef KernelIdeal.τ KernelIdeal.sig) = after (ReferenceIdeal.HandRun.opsA (F := Ideal)) Wr (ReferenceIdeal.main_v3 : DevRef ReferenceIdeal.τ ReferenceIdeal.sig) := by
  unfold KernelIdeal.Gen.hostOps0 ReferenceIdeal.HandRun.opsA
  after_results
  rw [h3]
  exact ⟨rfl, rfl⟩

/-- The edge inputs: equal in the two programs when the coordinates, the node features, the two index vectors and the
    node offsets are; the kernel program's last operation changes the format only. -/
theorem stE (h1 : Wk (KernelIdeal.main_arg1 : DevRef KernelIdeal.τ KernelIdeal.sig) = Wr (ReferenceIdeal.main_arg1 : DevRef ReferenceIdeal.τ ReferenceIdeal.sig)) (h0 : Wk (KernelIdeal.main_arg0 : DevRef KernelIdeal.τ KernelIdeal.sig) = Wr (ReferenceIdeal.main_arg0 : DevRef ReferenceIdeal.τ ReferenceIdeal.sig))
    (hs : Wk (KernelIdeal.main_v1 : DevRef KernelIdeal.τ KernelIdeal.sig) = Wr (ReferenceIdeal.main_v1 : DevRef ReferenceIdeal.τ ReferenceIdeal.sig)) (hd : Wk (KernelIdeal.main_v3 : DevRef KernelIdeal.τ KernelIdeal.sig) = Wr (ReferenceIdeal.main_v3 : DevRef ReferenceIdeal.τ ReferenceIdeal.sig))
    (hδ : Wk (KernelIdeal.main_v4 : DevRef KernelIdeal.τ KernelIdeal.sig) = Wr (ReferenceIdeal.main_v13 : DevRef ReferenceIdeal.τ ReferenceIdeal.sig)) :
    after (KernelIdeal.Gen.hostOps1 (F := Ideal)) Wk (KernelIdeal.main_v36 : DevRef KernelIdeal.τ KernelIdeal.sig) = after (ReferenceIdeal.HandRun.opsE (F := Ideal)) Wr (ReferenceIdeal.main_v44 : DevRef ReferenceIdeal.τ ReferenceIdeal.sig) := by
  unfold KernelIdeal.Gen.hostOps1 ReferenceIdeal.HandRun.opsE
  simp only [concatenate_pair]
  after_results_simp
  rw [h1, h0, hs, hd, hδ]
  rfl

/-- The sum of the edge messages into their receivers' rows: equal when the receiver indices and the messages are. -/
theorem stS (hd : Wk (KernelIdeal.main_v3 : DevRef KernelIdeal.τ KernelIdeal.sig) = Wr (ReferenceIdeal.main_v3 : DevRef ReferenceIdeal.τ ReferenceIdeal.sig)) (hm : Wk (KernelIdeal.main_v37 : DevRef KernelIdeal.τ KernelIdeal.sig) = Wr (ReferenceIdeal.main_v49 : DevRef ReferenceIdeal.τ ReferenceIdeal.sig)) :
    after (KernelIdeal.Gen.hostOps2 (F := Ideal)) Wk (KernelIdeal.main_v40 : DevRef KernelIdeal.τ KernelIdeal.sig) = after (ReferenceIdeal.HandRun.opsS (F := Ideal)) Wr (ReferenceIdeal.main_v52 : DevRef ReferenceIdeal.τ ReferenceIdeal.sig) := by
  unfold KernelIdeal.Gen.hostOps2 ReferenceIdeal.HandRun.opsS
  after_results
  rw [hd, hm]
  rfl

/-- The row of column means: equal when the node features before normalisation are. -/
theorem stMu (ho : Wk (KernelIdeal.main_v41 : DevRef KernelIdeal.τ KernelIdeal.sig) = Wr (ReferenceIdeal.main_v67 : DevRef ReferenceIdeal.τ ReferenceIdeal.sig)) :
    after (KernelIdeal.Gen.hostOps3 (F := Ideal)) Wk (KernelIdeal.main_v45 : DevRef KernelIdeal.τ KernelIdeal.sig) = after (ReferenceIdeal.HandRun.opsMu (F := Ideal)) Wr (ReferenceIdeal.main_v77 : DevRef ReferenceIdeal.τ ReferenceIdeal.sig) := by
  unfold KernelIdeal.Gen.hostOps3 ReferenceIdeal.HandRun.opsMu
  after_results
  rw [ho]

/-- The row of column variances, after the mean stretch (which makes the integer zero the variance reads and leaves
    the node features alone): equal when the node features before normalisation are. -/
theorem stV (ho : Wk (KernelIdeal.main_v41 : DevRef KernelIdeal.τ KernelIdeal.sig) = Wr (ReferenceIdeal.main_v67 : DevRef ReferenceIdeal.τ ReferenceIdeal.sig)) :
    after (KernelIdeal.Gen.hostOps3_1 (F := Ideal)) (after (KernelIdeal.Gen.hostOps3 (F := Ideal)) Wk) (KernelIdeal.main_v46 : DevRef KernelIdeal.τ KernelIdeal.sig)
      = after (ReferenceIdeal.HandRun.opsV (F := Ideal)) (after (ReferenceIdeal.HandRun.opsMu (F := Ideal)) Wr) (ReferenceIdeal.main_v78 : DevRef ReferenceIdeal.τ ReferenceIdeal.sig) := by
  unfold KernelIdeal.Gen.hostOps3_1 KernelIdeal.Gen.hostOps3 ReferenceIdeal.HandRun.opsV ReferenceIdeal.HandRun.opsMu
  after_results_simp
  rw [ho]

end Cert.HostStages

end
-- ==== Proof.Law.lean ====
/-
  On the extended reals, the product with the reciprocal square root and the quotient by the square root agree at
  every positive argument v: for finite v both are x · (√v)⁻¹, and at v = +∞ both are 0. (They differ at v = 0 with
  x = 0 and at negative v, where each has its own conventional value.) So the two spellings of the normalisation
  agree whenever v + ε is positive.
-/
import proofs.«150243_j31774168056051_1_alg».proof.Proof.Spec

noncomputable section

namespace Cert.Spec

open Idealize.ShloMosaic Cert.ReferenceIdeal Cert.ReferenceIdeal.Facts₀

/-- x · v^(-1/2) = x / √v for 0 < v. -/
theorem rsqrt_law (x v : EReal) (hv : 0 < v) : x * Ideal.rsqrt v = Ideal.div x (Ideal.sqrt v) := by
  induction v using EReal.rec with
  | bot => exact absurd hv (by simp)
  | top =>
    show x * 0 = Ideal.div x ⊤
    unfold Ideal.div
    rw [if_neg (by simp), EReal.inv_top]
  | coe r =>
    have hr : 0 < r := by exact_mod_cast hv
    have hs : Real.sqrt r ≠ 0 := (Real.sqrt_pos.2 hr).ne'
    have e1 : Ideal.rsqrt (r : EReal) = (((Real.sqrt r)⁻¹ : ℝ) : EReal) := by
      rw [Ideal.rsqrt_coe, if_neg (not_lt.2 hr.le), if_neg hr.ne']
    have e2 : Ideal.sqrt (r : EReal) = ((Real.sqrt r : ℝ) : EReal) := by
      show (if r < 0 then ⊥ else (Real.sqrt r : EReal)) = _
      rw [if_neg (not_lt.2 hr.le)]
    rw [e1, e2]
    unfold Ideal.div
    rw [if_neg (by exact_mod_cast hs), EReal.coe_inv]

/-- ε, the single-precision 1e-5, is positive. -/
theorem eps_pos : (0 : EReal) < Ideal.ofBits .f32 0x3727C5AC#32 := by
  simp [Ideal.ofBits, Ideal.ieee, -EReal.coe_mul]

/-- Where the row v is nonnegative, the two spellings of the normalisation are one function. -/
theorem adain_eq (o style : A S100000x128) (Ws : A S128x256) (bs : A S256) (mu v : A S1x128) (hv : ∀ j, 0 ≤ v j) :
    adainK o style Ws bs mu v = adainR o style Ws bs mu v := by
  funext i
  unfold adainK adainR
  have hpos : ∀ j, 0 < shifted v j := fun j => by
    show 0 < v j + Ideal.ofBits .f32 0x3727C5AC#32
    rw [add_comm]
    exact EReal.add_pos_of_pos_of_nonneg eps_pos (hv j)
  have key : mulf (subf o (rep mu)) (rep (Host.rsqrt (shifted v))) i = Host.divf (subf o (rep mu)) (rep (Host.sqrt (shifted v))) i := by
    unfold rep broadcastInDim
    exact rsqrt_law _ _ (hpos _)
  show _ * mulf (subf o (rep mu)) (rep (Host.rsqrt (shifted v))) i + _ = _ * Host.divf (subf o (rep mu)) (rep (Host.sqrt (shifted v))) i + _
  rw [key]

end Cert.Spec

end
-- ==== Proof.VarNonneg.lean ====
/-
  The variance row is nonnegative, over the extended reals and for every array (entries may be infinite). The
  divisor 100000 − 0 is the real 100000 (the single-precision pattern denotes it; the integer 0 converts to 0), so
  the positivity guard is true and the variance is the quotient; a square x · x of an extended real is nonnegative
  (both factors have one sign); a column sum from zero of nonnegative entries is nonnegative; and the quotient by
  the positive real 100000 is the product with 1 / 100000, which keeps the sign.
-/
import proofs.«150243_j31774168056051_1_alg».proof.Proof.SpecVar
import Idealize.ShloMosaic.PureOps.Ideal.Laws
import Idealize.ShloMosaic.Lib.ValueIdx

noncomputable section

namespace Cert.Spec

open Idealize.ShloMosaic Idealize.ShloMosaic.ValueIdx Cert.ReferenceIdeal Cert.ReferenceIdeal.Facts₀

/-- The single-precision pattern of 100000.0 denotes the real 100000. -/
theorem ofBits_100000 : Ideal.ofBits .f32 0x47C35000#32 = ((100000 : ℝ) : EReal) := by
  simp [Ideal.ofBits, Ideal.ieee, -EReal.coe_mul]; norm_num

/-- The variance's divisor is 100000: the integer 0 converts to the real 0. -/
theorem count_apply (k : S_.Idx) : count k = ((100000 : ℝ) : EReal) := by
  show Ideal.ofBits .f32 0x47C35000#32 - (((0#32 : BitVec 32).toInt : ℝ) : EReal) = _
  rw [ofBits_100000]
  simp

theorem count_eq : count ix0 = ((100000 : ℝ) : EReal) := count_apply ix0

/-- A square of an extended real is nonnegative: both factors have the same sign. -/
theorem mul_self_nonneg' (x : EReal) : 0 ≤ x * x :=
  EReal.mul_nonneg_iff.mpr ((le_total 0 x).imp (fun h => ⟨h, h⟩) (fun h => ⟨h, h⟩))

/-- A column sum from zero of nonnegative entries is nonnegative. -/
theorem colSum_nonneg (x : A S100000x128) (hx : ∀ i, 0 ≤ x i) (k : S128.Idx) :
    0 ≤ Host.reduceAdd x (constant (F := Ideal) S_ .f32 0x00000000#32) reducesTo_S100000x128_S128_d0 h_S_ k := by
  show 0 ≤ Ideal.hostReduceAdd reducesTo_S100000x128_S128_d0 x (Ideal.ofBits .f32 0x00000000#32) k
  unfold Ideal.hostReduceAdd
  rw [Ideal.ofBits_zero_f32, zero_add]
  exact Finset.sum_nonneg fun i _ => hx i

/-- So is the row of column sums. -/
theorem sumRow_nonneg (x : A S100000x128) (hx : ∀ i, 0 ≤ x i) (j : S1x128.Idx) : 0 ≤ sumRow x j := by
  unfold sumRow broadcastInDim
  exact colSum_nonneg x hx _

/-- THE VARIANCE ROW IS NONNEGATIVE: the count 100000 is positive, so the guard takes the quotient; the quotient of
    a sum of squares by the positive real 100000 is its product with 1 / 100000, a product of two nonnegatives. -/
theorem varRow_nonneg (o : A S100000x128) (j : S1x128.Idx) : 0 ≤ varRow o j := by
  have hc : ∀ k : S_.Idx, count k = ((100000 : ℝ) : EReal) := count_apply
  have hs : 0 ≤ sumRow (mulf (centred o) (centred o)) j :=
    sumRow_nonneg _ (fun i => mul_self_nonneg' (centred o i)) j
  unfold varRow splatRow broadcastInDim
  show 0 ≤ Scalar.select (Ideal.cmp .ogt (count _) (Ideal.ofBits .f32 0x00000000#32))
      (Ideal.div (sumRow (mulf (centred o) (centred o)) j) (count _)) _
  rw [hc, Ideal.ofBits_zero_f32]
  have hpos : Ideal.cmp .ogt ((100000 : ℝ) : EReal) 0 = 1#1 := by
    unfold Ideal.cmp
    have : (0 : EReal) < ((100000 : ℝ) : EReal) := EReal.coe_pos.mpr (by norm_num)
    simp [this]
  rw [hpos, select_one, Ideal.div_coe (by norm_num)]
  exact EReal.mul_nonneg hs (EReal.coe_nonneg.mpr (by norm_num))

end Cert.Spec

end
-- ==== Proof.Bridge.lean ====
/-
  The two idealised programs compute one array. The kernel program's buffers are followed through its nine segments
  (four tiled kernels among five host stretches) and the reference's through the matching ten segments of its line:
  the index vectors cut from the edge list agree; the node offsets agree (both are `Spec.delta` of the same
  arguments); the edge features agree (the same gathers and concatenation of equal inputs); the messages agree
  (`Spec.msg`); the scatter-sums agree; the node features before normalisation agree (`Spec.outraw`); their column
  means and variances agree; and the normalised results agree because the variance row is nonnegative, where the
  product with (v + ε)^(-1/2) and the quotient by √(v + ε) coincide.
-/
import proofs.«150243_j31774168056051_1_alg».proof.Proof.KStages
import proofs.«150243_j31774168056051_1_alg».proof.Proof.RefStages
import proofs.«150243_j31774168056051_1_alg».proof.Proof.RefPersist
import proofs.«150243_j31774168056051_1_alg».proof.Proof.HostStages
import proofs.«150243_j31774168056051_1_alg».proof.Proof.Law
import proofs.«150243_j31774168056051_1_alg».proof.Proof.VarNonneg

noncomputable section

namespace Cert.Bridge

open Idealize.ShloMosaic Idealize.ShloMosaic.TcCoe Idealize.SL.Sem Idealize.ShloMosaic.StableHlo
open Cert.ReferenceIdeal.HandRun Cert.ReferenceIdeal.Stages Cert.KernelIdeal.KStages Cert.KernelIdeal.Gen Cert.HostStages

/-- From memories that agree on the sixteen arguments, the kernel program's result buffer and the reference's hold the
    same array. -/
theorem value_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    W9 m ρ c (Proc.devRef .tc Cert.KernelIdeal.main_v47)
      = after (ops (F := Ideal)) (launchContents m' c) (Cert.ReferenceIdeal.main_v87 : DevRef Cert.ReferenceIdeal.τ Cert.ReferenceIdeal.sig) := by
  obtain ⟨h0, h1, h2, h3, h4, h5, h6, h7, h8, h9, h10, h11, h12, h13, h14, h15⟩ := hag
  rw [ops_RF]
  generalize hR0 : launchContents m' c = R0
  have a0 : R0 (Cert.ReferenceIdeal.main_arg0 : DevRef Cert.ReferenceIdeal.τ Cert.ReferenceIdeal.sig) = m ((c.tc : Thread Cert.KernelIdeal.nD Cert.KernelIdeal.τ).loc Cert.KernelIdeal.main_arg0) := by rw [← hR0]; exact h0
  have a1 : R0 (Cert.ReferenceIdeal.main_arg1 : DevRef Cert.ReferenceIdeal.τ Cert.ReferenceIdeal.sig) = m ((c.tc : Thread Cert.KernelIdeal.nD Cert.KernelIdeal.τ).loc Cert.KernelIdeal.main_arg1) := by rw [← hR0]; exact h1
  have a2 : R0 (Cert.ReferenceIdeal.main_arg2 : DevRef Cert.ReferenceIdeal.τ Cert.ReferenceIdeal.sig) = m ((c.tc : Thread Cert.KernelIdeal.nD Cert.KernelIdeal.τ).loc Cert.KernelIdeal.main_arg2) := by rw [← hR0]; exact h2
  have a3 : R0 (Cert.ReferenceIdeal.main_arg3 : DevRef Cert.ReferenceIdeal.τ Cert.ReferenceIdeal.sig) = m ((c.tc : Thread Cert.KernelIdeal.nD Cert.KernelIdeal.τ).loc Cert.KernelIdeal.main_arg3) := by rw [← hR0]; exact h3
  have a4 : R0 (Cert.ReferenceIdeal.main_arg4 : DevRef Cert.ReferenceIdeal.τ Cert.ReferenceIdeal.sig) = m ((c.tc : Thread Cert.KernelIdeal.nD Cert.KernelIdeal.τ).loc Cert.KernelIdeal.main_arg4) := by rw [← hR0]; exact h4
  have a5 : R0 (Cert.ReferenceIdeal.main_arg5 : DevRef Cert.ReferenceIdeal.τ Cert.ReferenceIdeal.sig) = m ((c.tc : Thread Cert.KernelIdeal.nD Cert.KernelIdeal.τ).loc Cert.KernelIdeal.main_arg5) := by rw [← hR0]; exact h5
  have a6 : R0 (Cert.ReferenceIdeal.main_arg6 : DevRef Cert.ReferenceIdeal.τ Cert.ReferenceIdeal.sig) = m ((c.tc : Thread Cert.KernelIdeal.nD Cert.KernelIdeal.τ).loc Cert.KernelIdeal.main_arg6) := by rw [← hR0]; exact h6
  have a7 : R0 (Cert.ReferenceIdeal.main_arg7 : DevRef Cert.ReferenceIdeal.τ Cert.ReferenceIdeal.sig) = m ((c.tc : Thread Cert.KernelIdeal.nD Cert.KernelIdeal.τ).loc Cert.KernelIdeal.main_arg7) := by rw [← hR0]; exact h7
  have a8 : R0 (Cert.ReferenceIdeal.main_arg8 : DevRef Cert.ReferenceIdeal.τ Cert.ReferenceIdeal.sig) = m ((c.tc : Thread Cert.KernelIdeal.nD Cert.KernelIdeal.τ).loc Cert.KernelIdeal.main_arg8) := by rw [← hR0]; exact h8
  have a9 : R0 (Cert.ReferenceIdeal.main_arg9 : DevRef Cert.ReferenceIdeal.τ Cert.ReferenceIdeal.sig) = m ((c.tc : Thread Cert.KernelIdeal.nD Cert.KernelIdeal.τ).loc Cert.KernelIdeal.main_arg9) := by rw [← hR0]; exact h9
  have a10 : R0 (Cert.ReferenceIdeal.main_arg10 : DevRef Cert.ReferenceIdeal.τ Cert.ReferenceIdeal.sig) = m ((c.tc : Thread Cert.KernelIdeal.nD Cert.KernelIdeal.τ).loc Cert.KernelIdeal.main_arg10) := by rw [← hR0]; exact h10
  have a11 : R0 (Cert.ReferenceIdeal.main_arg11 : DevRef Cert.ReferenceIdeal.τ Cert.ReferenceIdeal.sig) = m ((c.tc : Thread Cert.KernelIdeal.nD Cert.KernelIdeal.τ).loc Cert.KernelIdeal.main_arg11) := by rw [← hR0]; exact h11
  have a12 : R0 (Cert.ReferenceIdeal.main_arg12 : DevRef Cert.ReferenceIdeal.τ Cert.ReferenceIdeal.sig) = m ((c.tc : Thread Cert.KernelIdeal.nD Cert.KernelIdeal.τ).loc Cert.KernelIdeal.main_arg12) := by rw [← hR0]; exact h12
  have a13 : R0 (Cert.ReferenceIdeal.main_arg13 : DevRef Cert.ReferenceIdeal.τ Cert.ReferenceIdeal.sig) = m ((c.tc : Thread Cert.KernelIdeal.nD Cert.KernelIdeal.τ).loc Cert.KernelIdeal.main_arg13) := by rw [← hR0]; exact h13
  have a14 : R0 (Cert.ReferenceIdeal.main_arg14 : DevRef Cert.ReferenceIdeal.τ Cert.ReferenceIdeal.sig) = m ((c.tc : Thread Cert.KernelIdeal.nD Cert.KernelIdeal.τ).loc Cert.KernelIdeal.main_arg14) := by rw [← hR0]; exact h14
  have a15 : R0 (Cert.ReferenceIdeal.main_arg15 : DevRef Cert.ReferenceIdeal.τ Cert.ReferenceIdeal.sig) = m ((c.tc : Thread Cert.KernelIdeal.nD Cert.KernelIdeal.τ).loc Cert.KernelIdeal.main_arg15) := by rw [← hR0]; exact h15
  -- the index vectors cut from the edge list
  obtain ⟨hs, hd⟩ := stA (W0 m ρ c) R0 (a3.symm : W0 m ρ c (Cert.KernelIdeal.main_arg3 : DevRef Cert.KernelIdeal.τ Cert.KernelIdeal.sig) = R0 (Cert.ReferenceIdeal.main_arg3 : DevRef Cert.ReferenceIdeal.τ Cert.ReferenceIdeal.sig))
  -- the node offsets
  have hδ : W2 m ρ c (Proc.devRef .tc Cert.KernelIdeal.main_v4) = RD R0 (Cert.ReferenceIdeal.main_v13 : DevRef Cert.ReferenceIdeal.τ Cert.ReferenceIdeal.sig) := by
    have e : RD R0 (Cert.ReferenceIdeal.main_v13 : DevRef Cert.ReferenceIdeal.τ Cert.ReferenceIdeal.sig) = Cert.Spec.delta (RA R0 (Cert.ReferenceIdeal.main_arg0 : DevRef Cert.ReferenceIdeal.τ Cert.ReferenceIdeal.sig)) (RA R0 (Cert.ReferenceIdeal.main_arg4 : DevRef Cert.ReferenceIdeal.τ Cert.ReferenceIdeal.sig))
        (RA R0 (Cert.ReferenceIdeal.main_arg5 : DevRef Cert.ReferenceIdeal.τ Cert.ReferenceIdeal.sig)) (RA R0 (Cert.ReferenceIdeal.main_arg6 : DevRef Cert.ReferenceIdeal.τ Cert.ReferenceIdeal.sig)) (RA R0 (Cert.ReferenceIdeal.main_arg7 : DevRef Cert.ReferenceIdeal.τ Cert.ReferenceIdeal.sig)) := refD (RA R0)
    rw [k_delta m ρ c, e, pA_arg0, pA_arg4, pA_arg5, pA_arg6, pA_arg7, a0, a4, a5, a6, a7]
  -- the edge features
  have hε : W3 m ρ c (Proc.devRef .tc Cert.KernelIdeal.main_v36) = RE R0 (Cert.ReferenceIdeal.main_v44 : DevRef Cert.ReferenceIdeal.τ Cert.ReferenceIdeal.sig) :=
    stE (W2 m ρ c) (RD R0) ((W2_arg1 m ρ c).trans (a1.symm.trans (pD_arg1 R0).symm)) ((W2_arg0 m ρ c).trans (a0.symm.trans (pD_arg0 R0).symm))
      ((W2_v1 m ρ c).trans (hs.trans (pD_v1 R0).symm)) ((W2_v3 m ρ c).trans (hd.trans (pD_v3 R0).symm)) hδ
  -- the messages
  have hμ : W4 m ρ c (Proc.devRef .tc Cert.KernelIdeal.main_v37) = RM R0 (Cert.ReferenceIdeal.main_v49 : DevRef Cert.ReferenceIdeal.τ Cert.ReferenceIdeal.sig) := by
    have e : RM R0 (Cert.ReferenceIdeal.main_v49 : DevRef Cert.ReferenceIdeal.τ Cert.ReferenceIdeal.sig) = Cert.Spec.msg (RE R0 (Cert.ReferenceIdeal.main_v44 : DevRef Cert.ReferenceIdeal.τ Cert.ReferenceIdeal.sig)) (RE R0 (Cert.ReferenceIdeal.main_arg8 : DevRef Cert.ReferenceIdeal.τ Cert.ReferenceIdeal.sig))
        (RE R0 (Cert.ReferenceIdeal.main_arg9 : DevRef Cert.ReferenceIdeal.τ Cert.ReferenceIdeal.sig)) := refM (RE R0)
    rw [k_msg m ρ c, e, pE_arg8, pE_arg9, a8, a9, hε]
  -- the scatter-sums
  have hσ : W5 m ρ c (Proc.devRef .tc Cert.KernelIdeal.main_v40) = RS R0 (Cert.ReferenceIdeal.main_v52 : DevRef Cert.ReferenceIdeal.τ Cert.ReferenceIdeal.sig) :=
    stS (W4 m ρ c) (RM R0) ((W4_v3 m ρ c).trans (hd.trans (pM_v3 R0).symm)) hμ
  -- the node features before normalisation
  have ho : W6 m ρ c (Proc.devRef .tc Cert.KernelIdeal.main_v41) = RO R0 (Cert.ReferenceIdeal.main_v67 : DevRef Cert.ReferenceIdeal.τ Cert.ReferenceIdeal.sig) := by
    have e : RO R0 (Cert.ReferenceIdeal.main_v67 : DevRef Cert.ReferenceIdeal.τ Cert.ReferenceIdeal.sig) = Cert.Spec.outraw (RS R0 (Cert.ReferenceIdeal.main_v52 : DevRef Cert.ReferenceIdeal.τ Cert.ReferenceIdeal.sig)) (RS R0 (Cert.ReferenceIdeal.main_arg0 : DevRef Cert.ReferenceIdeal.τ Cert.ReferenceIdeal.sig))
        (RS R0 (Cert.ReferenceIdeal.main_arg10 : DevRef Cert.ReferenceIdeal.τ Cert.ReferenceIdeal.sig)) (RS R0 (Cert.ReferenceIdeal.main_arg11 : DevRef Cert.ReferenceIdeal.τ Cert.ReferenceIdeal.sig)) (RS R0 (Cert.ReferenceIdeal.main_arg12 : DevRef Cert.ReferenceIdeal.τ Cert.ReferenceIdeal.sig)) (RS R0 (Cert.ReferenceIdeal.main_arg13 : DevRef Cert.ReferenceIdeal.τ Cert.ReferenceIdeal.sig)) := refO (RS R0)
    rw [k_out m ρ c, e, pS_arg0, pS_arg10, pS_arg11, pS_arg12, pS_arg13, a0, a10, a11, a12, a13, hσ]
  have ho' : W6 m ρ c (Proc.devRef .tc Cert.KernelIdeal.main_v41) = RG R0 (Cert.ReferenceIdeal.main_v67 : DevRef Cert.ReferenceIdeal.τ Cert.ReferenceIdeal.sig) := ho.trans (pG_v67 R0).symm
  -- their column means and variances
  have hm : W7 m ρ c (Proc.devRef .tc Cert.KernelIdeal.main_v45) = RMu R0 (Cert.ReferenceIdeal.main_v77 : DevRef Cert.ReferenceIdeal.τ Cert.ReferenceIdeal.sig) := stMu (W6 m ρ c) (RG R0) ho'
  have hv : W8 m ρ c (Proc.devRef .tc Cert.KernelIdeal.main_v46) = RV R0 (Cert.ReferenceIdeal.main_v78 : DevRef Cert.ReferenceIdeal.τ Cert.ReferenceIdeal.sig) := stV (W6 m ρ c) (RG R0) ho'
  -- the variance row is a mean of squares
  have hvar : RV R0 (Cert.ReferenceIdeal.main_v78 : DevRef Cert.ReferenceIdeal.τ Cert.ReferenceIdeal.sig) = Cert.Spec.varRow (RO R0 (Cert.ReferenceIdeal.main_v67 : DevRef Cert.ReferenceIdeal.τ Cert.ReferenceIdeal.sig)) := by
    have e : RV R0 (Cert.ReferenceIdeal.main_v78 : DevRef Cert.ReferenceIdeal.τ Cert.ReferenceIdeal.sig) = Cert.Spec.varRow (RG R0 (Cert.ReferenceIdeal.main_v67 : DevRef Cert.ReferenceIdeal.τ Cert.ReferenceIdeal.sig)) := refV (RG R0)
    rw [e, pG_v67]
  -- the normalisation
  have hfin : RF R0 (Cert.ReferenceIdeal.main_v87 : DevRef Cert.ReferenceIdeal.τ Cert.ReferenceIdeal.sig) = Cert.Spec.adainR (RO R0 (Cert.ReferenceIdeal.main_v67 : DevRef Cert.ReferenceIdeal.τ Cert.ReferenceIdeal.sig)) (RO R0 (Cert.ReferenceIdeal.main_arg2 : DevRef Cert.ReferenceIdeal.τ Cert.ReferenceIdeal.sig))
      (RO R0 (Cert.ReferenceIdeal.main_arg14 : DevRef Cert.ReferenceIdeal.τ Cert.ReferenceIdeal.sig)) (RO R0 (Cert.ReferenceIdeal.main_arg15 : DevRef Cert.ReferenceIdeal.τ Cert.ReferenceIdeal.sig)) (RMu R0 (Cert.ReferenceIdeal.main_v77 : DevRef Cert.ReferenceIdeal.τ Cert.ReferenceIdeal.sig)) (RV R0 (Cert.ReferenceIdeal.main_v78 : DevRef Cert.ReferenceIdeal.τ Cert.ReferenceIdeal.sig)) := refGF (RO R0)
  rw [k_fin m ρ c, ho, hm, hv, hfin, pO_arg2, pO_arg14, pO_arg15, a2, a14, a15]
  refine Cert.Spec.adain_eq _ _ _ _ _ _ ?_
  rw [hvar]
  exact fun j => Cert.Spec.varRow_nonneg _ j

end Cert.Bridge

end
-- ==== Proof.lean ====
/-
  The certificate of the claim in Defs.lean: a graph-network layer written as four tiled dense kernels among host
  gathers and a scatter-sum, against the plain array program.
  * The two kernel programs run, fault-free, and leave their arguments unchanged: the generated frame theorems.
  * The reference program is a straight line of array operations: it runs, each buffer ending at the fold of the
    operations over the launch contents (Proof/RefRun.lean), and no operation writes an argument (Proof/RefKeep.lean).
  * The idealisation rewrote no operation, so there is nothing to preserve.
  * Over the extended reals the two programs compute one array (Proof/Bridge.lean): each tiled kernel's output array
    is the matching dense stage of the reference as a function of whole arrays (Proof/Region0.lean … Region3.lean,
    over Proof/Spec.lean), the host stretches between them are the same operations in both programs
    (Proof/HostStages.lean), and the kernel's product with (v + ε)^(-1/2) equals the reference's quotient by √(v + ε)
    because the variance row v is a mean of squares, hence nonnegative (Proof/VarNonneg.lean, Proof/Law.lean).
-/
import proofs.«150243_j31774168056051_1_alg».proof.Defs
import proofs.«150243_j31774168056051_1_alg».proof.Proof.Gen.Kernel
import proofs.«150243_j31774168056051_1_alg».proof.Proof.Gen.Kernel.Frame
import proofs.«150243_j31774168056051_1_alg».proof.Proof.Gen.KernelIdeal
import proofs.«150243_j31774168056051_1_alg».proof.Proof.Gen.KernelIdeal.Frame
import proofs.«150243_j31774168056051_1_alg».proof.Proof.Gen.ReferenceIdeal
import proofs.«150243_j31774168056051_1_alg».proof.Proof.Gen.Pre_finite_inputs
import proofs.«150243_j31774168056051_1_alg».proof.Proof.RefRun
import proofs.«150243_j31774168056051_1_alg».proof.Proof.RefKeep
import proofs.«150243_j31774168056051_1_alg».proof.Proof.KRun
import proofs.«150243_j31774168056051_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference runs, and every argument ends as launched. -/
theorem frame_ri : Cert.frame_ReferenceIdeal := fun m ρ _ =>
  (θ_run Cert.ReferenceIdeal.defs _ _).mono (fun r h c =>
    ⟨(h c Cert.ReferenceIdeal.main_arg0).trans (Cert.ReferenceIdeal.HandRun.keep_arg0 _),
      (h c Cert.ReferenceIdeal.main_arg1).trans (Cert.ReferenceIdeal.HandRun.keep_arg1 _),
      (h c Cert.ReferenceIdeal.main_arg2).trans (Cert.ReferenceIdeal.HandRun.keep_arg2 _),
      (h c Cert.ReferenceIdeal.main_arg3).trans (Cert.ReferenceIdeal.HandRun.keep_arg3 _),
      (h c Cert.ReferenceIdeal.main_arg4).trans (Cert.ReferenceIdeal.HandRun.keep_arg4 _),
      (h c Cert.ReferenceIdeal.main_arg5).trans (Cert.ReferenceIdeal.HandRun.keep_arg5 _),
      (h c Cert.ReferenceIdeal.main_arg6).trans (Cert.ReferenceIdeal.HandRun.keep_arg6 _),
      (h c Cert.ReferenceIdeal.main_arg7).trans (Cert.ReferenceIdeal.HandRun.keep_arg7 _),
      (h c Cert.ReferenceIdeal.main_arg8).trans (Cert.ReferenceIdeal.HandRun.keep_arg8 _),
      (h c Cert.ReferenceIdeal.main_arg9).trans (Cert.ReferenceIdeal.HandRun.keep_arg9 _),
      (h c Cert.ReferenceIdeal.main_arg10).trans (Cert.ReferenceIdeal.HandRun.keep_arg10 _),
      (h c Cert.ReferenceIdeal.main_arg11).trans (Cert.ReferenceIdeal.HandRun.keep_arg11 _),
      (h c Cert.ReferenceIdeal.main_arg12).trans (Cert.ReferenceIdeal.HandRun.keep_arg12 _),
      (h c Cert.ReferenceIdeal.main_arg13).trans (Cert.ReferenceIdeal.HandRun.keep_arg13 _),
      (h c Cert.ReferenceIdeal.main_arg14).trans (Cert.ReferenceIdeal.HandRun.keep_arg14 _),
      (h c Cert.ReferenceIdeal.main_arg15).trans (Cert.ReferenceIdeal.HandRun.keep_arg15 _)⟩)
    (Cert.ReferenceIdeal.HandRun.run_main (F := Ideal) m ρ)

theorem preserves : Cert.preserves_Kernel_KernelIdeal := trivial

/-- Both idealised programs run from memories that agree on the arguments and end with the same result array. -/
theorem algebraic : Cert.algebraic_KernelIdeal_ReferenceIdeal := by
  intro m ρ m' ρ' _ hagree
  refine ⟨fun c => Cert.KernelIdeal.Gen.W9 m ρ c (Proc.devRef .tc Cert.KernelIdeal.main_v47),
    Cert.KernelIdeal.HandRun.run_main (F := Ideal) m ρ, ?_⟩
  refine (θ_run Cert.ReferenceIdeal.defs _ _).mono (fun r h c =>
    ⟨(h c Cert.ReferenceIdeal.main_v87).trans (Cert.Bridge.value_eq m ρ m' c (hagree c)).symm,
      (h c Cert.ReferenceIdeal.main_arg0).trans (Cert.ReferenceIdeal.HandRun.keep_arg0 _),
      (h c Cert.ReferenceIdeal.main_arg1).trans (Cert.ReferenceIdeal.HandRun.keep_arg1 _),
      (h c Cert.ReferenceIdeal.main_arg2).trans (Cert.ReferenceIdeal.HandRun.keep_arg2 _),
      (h c Cert.ReferenceIdeal.main_arg3).trans (Cert.ReferenceIdeal.HandRun.keep_arg3 _),
      (h c Cert.ReferenceIdeal.main_arg4).trans (Cert.ReferenceIdeal.HandRun.keep_arg4 _),
      (h c Cert.ReferenceIdeal.main_arg5).trans (Cert.ReferenceIdeal.HandRun.keep_arg5 _),
      (h c Cert.ReferenceIdeal.main_arg6).trans (Cert.ReferenceIdeal.HandRun.keep_arg6 _),
      (h c Cert.ReferenceIdeal.main_arg7).trans (Cert.ReferenceIdeal.HandRun.keep_arg7 _),
      (h c Cert.ReferenceIdeal.main_arg8).trans (Cert.ReferenceIdeal.HandRun.keep_arg8 _),
      (h c Cert.ReferenceIdeal.main_arg9).trans (Cert.ReferenceIdeal.HandRun.keep_arg9 _),
      (h c Cert.ReferenceIdeal.main_arg10).trans (Cert.ReferenceIdeal.HandRun.keep_arg10 _),
      (h c Cert.ReferenceIdeal.main_arg11).trans (Cert.ReferenceIdeal.HandRun.keep_arg11 _),
      (h c Cert.ReferenceIdeal.main_arg12).trans (Cert.ReferenceIdeal.HandRun.keep_arg12 _),
      (h c Cert.ReferenceIdeal.main_arg13).trans (Cert.ReferenceIdeal.HandRun.keep_arg13 _),
      (h c Cert.ReferenceIdeal.main_arg14).trans (Cert.ReferenceIdeal.HandRun.keep_arg14 _),
      (h c Cert.ReferenceIdeal.main_arg15).trans (Cert.ReferenceIdeal.HandRun.keep_arg15 _)⟩)
    (Cert.ReferenceIdeal.HandRun.run_main (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
